-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S14336x4096 : Shape := ⟨2, ![14336, 4096]⟩
abbrev S14336x64 : Shape := ⟨2, ![14336, 64]⟩
abbrev S4096x14336 : Shape := ⟨2, ![4096, 14336]⟩
abbrev S4096x224 : Shape := ⟨2, ![4096, 224]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S14336x64 : S_.BroadcastsInDim S14336x64 (![] : Fin 0 → Fin S14336x64.rank)
  reducesTo_S14336x64_S_d0_1 : S14336x64.ReducesTo [0, 1] S_
  bcast_S_S4096x224 : S_.BroadcastsInDim S4096x224 (![] : Fin 0 → Fin S4096x224.rank)
  reducesTo_S4096x224_S_d0_1 : S4096x224.ReducesTo [0, 1] S_

variable [Facts]

def fn_part1 {F : FTy → Type} [FloatOps F] (main_arg6 : FVec F S14336x64 .f32) (main_arg8 : FVec F S4096x224 .f32) (main_arg9 : FVec F S4096x224 .f32) (main_v13 : IVec S_ 1) (main_v16 : IVec S14336x64 1) : IVec S_ 1 :=
  let main_c_5 : IVec S_ 1 := constantI S_ 1 1#1
  let main_v17 : IVec S_ 1 := (fun x v => Host.reduce IntOp.andi x v reducesTo_S14336x64_S_d0_1 h_S_) main_v16 main_c_5
  let main_v18 : IVec S_ 1 := andi main_v13 main_v17
  let main_v19 : FVec F S14336x64 .f32 := Host.absf main_arg6
  let main_cst_6 : FVec F S_ .f32 := constant S_ .f32 0x7F800000#32
  let main_v20 : FVec F S14336x64 .f32 := broadcastInDim S14336x64 ![] bcast_S_S14336x64 main_cst_6
  let main_v21 : IVec S14336x64 1 := cmpf .olt main_v19 main_v20
  let main_c_7 : IVec S_ 1 := constantI S_ 1 1#1
  let main_v22 : IVec S_ 1 := (fun x v => Host.reduce IntOp.andi x v reducesTo_S14336x64_S_d0_1 h_S_) main_v21 main_c_7
  let main_v23 : IVec S_ 1 := andi main_v18 main_v22
  let main_v24 : FVec F S4096x224 .f32 := Host.absf main_arg8
  let main_cst_8 : FVec F S_ .f32 := constant S_ .f32 0x7F800000#32
  let main_v25 : FVec F S4096x224 .f32 := broadcastInDim S4096x224 ![] bcast_S_S4096x224 main_cst_8
  let main_v26 : IVec S4096x224 1 := cmpf .olt main_v24 main_v25
  let main_c_9 : IVec S_ 1 := constantI S_ 1 1#1
  let main_v27 : IVec S_ 1 := (fun x v => Host.reduce IntOp.andi x v reducesTo_S4096x224_S_d0_1 h_S_) main_v26 main_c_9
  let main_v28 : IVec S_ 1 := andi main_v23 main_v27
  let main_v29 : FVec F S4096x224 .f32 := Host.absf main_arg9
  let main_cst_10 : FVec F S_ .f32 := constant S_ .f32 0x7F800000#32
  let main_v30 : FVec F S4096x224 .f32 := broadcastInDim S4096x224 ![] bcast_S_S4096x224 main_cst_10
  let main_v31 : IVec S4096x224 1 := cmpf .olt main_v29 main_v30
  let main_c_11 : IVec S_ 1 := constantI S_ 1 1#1
  let main_v32 : IVec S_ 1 := (fun x v => Host.reduce IntOp.andi x v reducesTo_S4096x224_S_d0_1 h_S_) main_v31 main_c_11
  let main_v33 : IVec S_ 1 := andi main_v28 main_v32
  main_v33

def fn {F : FTy → Type} [FloatOps F] (main_arg0 : FVec F S256x4096 .f32) (main_arg1 : IVec S14336x4096 32) (main_arg2 : FVec F S14336x64 .f32) (main_arg3 : FVec F S14336x64 .f32) (main_arg4 : IVec S14336x4096 32) (main_arg5 : FVec F S14336x64 .f32) (main_arg6 : FVec F S14336x64 .f32) (main_arg7 : IVec S4096x14336 32) (main_arg8 : FVec F S4096x224 .f32) (main_arg9 : FVec F S4096x224 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S14336x64 .f32 := Host.absf main_arg2
  let main_cst_0 : FVec F S_ .f32 := constant S_ .f32 0x7F800000#32
  let main_v5 : FVec F S14336x64 .f32 := broadcastInDim S14336x64 ![] bcast_S_S14336x64 main_cst_0
  let main_v6 : IVec S14336x64 1 := cmpf .olt main_v4 main_v5
  let main_c_1 : IVec S_ 1 := constantI S_ 1 1#1
  let main_v7 : IVec S_ 1 := (fun x v => Host.reduce IntOp.andi x v reducesTo_S14336x64_S_d0_1 h_S_) main_v6 main_c_1
  let main_v8 : IVec S_ 1 := andi main_v3 main_v7
  let main_v9 : FVec F S14336x64 .f32 := Host.absf main_arg3
  let main_cst_2 : FVec F S_ .f32 := constant S_ .f32 0x7F800000#32
  let main_v10 : FVec F S14336x64 .f32 := broadcastInDim S14336x64 ![] bcast_S_S14336x64 main_cst_2
  let main_v11 : IVec S14336x64 1 := cmpf .olt main_v9 main_v10
  let main_c_3 : IVec S_ 1 := constantI S_ 1 1#1
  let main_v12 : IVec S_ 1 := (fun x v => Host.reduce IntOp.andi x v reducesTo_S14336x64_S_d0_1 h_S_) main_v11 main_c_3
  let main_v13 : IVec S_ 1 := andi main_v8 main_v12
  let main_v14 : FVec F S14336x64 .f32 := Host.absf main_arg5
  let main_cst_4 : FVec F S_ .f32 := constant S_ .f32 0x7F800000#32
  let main_v15 : FVec F S14336x64 .f32 := broadcastInDim S14336x64 ![] bcast_S_S14336x64 main_cst_4
  let main_v16 : IVec S14336x64 1 := cmpf .olt main_v14 main_v15
  fn_part1 (F := F) main_arg6 main_arg8 main_arg9 main_v13 main_v16
-- ==== Kernel.lean ====
abbrev S256x4096 : Shape := ⟨2, ![256, 4096]⟩
abbrev S14336x4096 : Shape := ⟨2, ![14336, 4096]⟩
abbrev S14336x64 : Shape := ⟨2, ![14336, 64]⟩
abbrev S4096x14336 : Shape := ⟨2, ![4096, 14336]⟩
abbrev S4096x224 : Shape := ⟨2, ![4096, 224]⟩
abbrev S256x14336 : Shape := ⟨2, ![256, 14336]⟩
abbrev S256x64 : Shape := ⟨2, ![256, 64]⟩
abbrev S256x256 : Shape := ⟨2, ![256, 256]⟩
abbrev S256x64x64 : Shape := ⟨3, ![256, 64, 64]⟩
abbrev S256x64x1 : Shape := ⟨3, ![256, 64, 1]⟩
abbrev S224x4096 : Shape := ⟨2, ![224, 4096]⟩
abbrev S256x512 : Shape := ⟨2, ![256, 512]⟩
abbrev S2048x512 : Shape := ⟨2, ![2048, 512]⟩
abbrev S8x2048 : Shape := ⟨2, ![8, 2048]⟩
abbrev S256x2048 : Shape := ⟨2, ![256, 2048]⟩
abbrev S2048x8 : Shape := ⟨2, ![2048, 8]⟩
abbrev S2048x8x64 : Shape := ⟨3, ![2048, 8, 64]⟩
abbrev S2048x8x1 : Shape := ⟨3, ![2048, 8, 1]⟩

abbrev nBuf : Space → Nat
  | .hbm => 18
  | .vmem => 26
  | .smem => 0
  | _ => 0

abbrev bufTy : (tb : Table) → Fin (tcTables nBuf tb) → BufTy
  | .hbm, ⟨0, _⟩ => ⟨S256x4096, .f32⟩
  | .hbm, ⟨1, _⟩ => ⟨S14336x4096, .i32⟩
  | .hbm, ⟨2, _⟩ => ⟨S14336x64, .f32⟩
  | .hbm, ⟨3, _⟩ => ⟨S14336x64, .f32⟩
  | .hbm, ⟨4, _⟩ => ⟨S14336x4096, .i32⟩
  | .hbm, ⟨5, _⟩ => ⟨S14336x64, .f32⟩
  | .hbm, ⟨6, _⟩ => ⟨S14336x64, .f32⟩
  | .hbm, ⟨7, _⟩ => ⟨S4096x14336, .i32⟩
  | .hbm, ⟨8, _⟩ => ⟨S4096x224, .f32⟩
  | .hbm, ⟨9, _⟩ => ⟨S4096x224, .f32⟩
  | .hbm, ⟨10, _⟩ => ⟨S256x4096, .bf16⟩
  | .hbm, ⟨11, _⟩ => ⟨S14336x64, .f32⟩
  | .hbm, ⟨12, _⟩ => ⟨S14336x64, .f32⟩
  | .hbm, ⟨13, _⟩ => ⟨S256x14336, .bf16⟩
  | .hbm, ⟨14, _⟩ => ⟨S4096x224, .f32⟩
  | .hbm, ⟨15, _⟩ => ⟨S224x4096, .f32⟩
  | .hbm, ⟨16, _⟩ => ⟨S224x4096, .f32⟩
  | .hbm, ⟨17, _⟩ => ⟨S256x4096, .f32⟩
  | .local _ .vmem, ⟨0, _⟩ => ⟨S256x4096, .bf16⟩
  | .local _ .vmem, ⟨1, _⟩ => ⟨S256x4096, .i32⟩
  | .local _ .vmem, ⟨2, _⟩ => ⟨S256x4096, .i32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x4096, .i32⟩
  | .local _ .vmem, ⟨8, _⟩ => ⟨S256x4096, .i32⟩
  | .local _ .vmem, ⟨9, _⟩ => ⟨S256x64, .f32⟩
  | .local _ .vmem, ⟨10, _⟩ => ⟨S256x64, .f32⟩
  | .local _ .vmem, ⟨11, _⟩ => ⟨S256x64, .f32⟩
  | .local _ .vmem, ⟨12, _⟩ => ⟨S256x64, .f32⟩
  | .local _ .vmem, ⟨13, _⟩ => ⟨S256x256, .bf16⟩
  | .local _ .vmem, ⟨14, _⟩ => ⟨S256x256, .bf16⟩
  | .local _ .vmem, ⟨15, _⟩ => ⟨S256x512, .bf16⟩
  | .local _ .vmem, ⟨16, _⟩ => ⟨S256x512, .bf16⟩
  | .local _ .vmem, ⟨17, _⟩ => ⟨S2048x512, .i32⟩
  | .local _ .vmem, ⟨18, _⟩ => ⟨S2048x512, .i32⟩
  | .local _ .vmem, ⟨19, _⟩ => ⟨S8x2048, .f32⟩
  | .local _ .vmem, ⟨20, _⟩ => ⟨S8x2048, .f32⟩
  | .local _ .vmem, ⟨21, _⟩ => ⟨S8x2048, .f32⟩
  | .local _ .vmem, ⟨22, _⟩ => ⟨S8x2048, .f32⟩
  | .local _ .vmem, ⟨23, _⟩ => ⟨S256x2048, .f32⟩
  | .local _ .vmem, ⟨24, _⟩ => ⟨S256x2048, .f32⟩
  | .local _ .vmem, ⟨25, _⟩ => ⟨S256x2048, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_scratch0 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 28], ![false, false]⟩

def k1_cond2 (i : grid1.Coords) : BitVec 1 :=
  let arg1 : BitVec 32 := BitVec.ofNat 32 (i 1).val
  let c27_i32 : BitVec 32 := 27#32
  let v28 : BitVec 1 := Scalar.cmpi .eq arg1 c27_i32
  let v29 : BitVec 32 := Scalar.extui v28
  let c0_i32_12 : BitVec 32 := 0#32
  let v30 : BitVec 1 := Scalar.cmpi .ne v29 c0_i32_12
  v30

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x64_S256x64_0_0 : ∀ a, (![0, 0] : Fin 2 → Nat) a + S256x64.size a ≤ S256x64.size a
  h_S256x64 : 0 < S256x64.numel
  shapeCasts_S256x64_S256x64 : S256x64.ShapeCasts S256x64
  shapeCasts_S256x4096_S256x64x64 : S256x4096.ShapeCasts S256x64x64
  shapeCasts_S256x64_S256x64x1 : S256x64.ShapeCasts S256x64x1
  broadcasts_S256x64x1_S256x64x64 : S256x64x1.Broadcasts S256x64x64
  shapeCasts_S256x64x64_S256x4096 : S256x64x64.ShapeCasts S256x4096
  inb_S256x256_S256x256_0_0 : ∀ a, (![0, 0] : Fin 2 → Nat) a + S256x256.size a ≤ S256x256.size a
  h_S256x256 : 0 < S256x256.numel
  packedbf16_S256x256_S256x256_0_0 : (Rect.unit (s := S256x256) ![0, 0] S256x256.size inb_S256x256_S256x256_0_0).PackedRows (EltTy.packing .bf16)
  transposes_S4096x224_S224x4096_1_0 : S4096x224.Transposes [1, 0] S224x4096
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  transposes_S8x2048_p1_0_S2048x8 : S8x2048.Transposes [1, 0] S2048x8
  inb_S2048x512_S2048x512_0_0 : ∀ a, (![0, 0] : Fin 2 → Nat) a + S2048x512.size a ≤ S2048x512.size a
  h_S2048x512 : 0 < S2048x512.numel
  shapeCasts_S2048x512_S2048x8x64 : S2048x512.ShapeCasts S2048x8x64
  shapeCasts_S2048x8_S2048x8x1 : S2048x8.ShapeCasts S2048x8x1
  broadcasts_S2048x8x1_S2048x8x64 : S2048x8x1.Broadcasts S2048x8x64
  shapeCasts_S2048x8x64_S2048x512 : S2048x8x64.ShapeCasts S2048x512
  dot_S256x4096_S256x4096_S256x256_1_1_0_0_n_n_wf : DotDims.WF S256x4096 S256x4096 S256x256 [1] [1] [0] [0] [] []
  dot_S256x512_S2048x512_S256x2048_1_1_0_0_n_n_wf : DotDims.WF S256x512 S2048x512 S256x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .bf16 = 32 ∨ (Rect.block (s := S256x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S14336x4096.size a
  hwx0_1 : ∀ i : grid0.Coords, EltTy.bits .i32 = 32 ∨ (Rect.block (s := S14336x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S14336x64.size a
  hwx0_2 : ∀ i : grid0.Coords, EltTy.bits .f32 = 32 ∨ (Rect.block (s := S14336x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S14336x64.size a
  hwx0_3 : ∀ i : grid0.Coords, EltTy.bits .f32 = 32 ∨ (Rect.block (s := S14336x64) S256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S14336x4096.size a
  hwx0_4 : ∀ i : grid0.Coords, EltTy.bits .i32 = 32 ∨ (Rect.block (s := S14336x4096) S256x4096.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S14336x64.size a
  hwx0_5 : ∀ i : grid0.Coords, EltTy.bits .f32 = 32 ∨ (Rect.block (s := S14336x64) S256x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x64.size a ≤ S14336x64.size a
  hwx0_6 : ∀ i : grid0.Coords, EltTy.bits .f32 = 32 ∨ (Rect.block (s := S14336x64) S256x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x14336.size a
  hwx0_7 : ∀ i : grid0.Coords, EltTy.bits .bf16 = 32 ∨ (Rect.block (s := S256x14336) S256x256.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S256x14336.size a
  hwx1_0 : ∀ i : grid1.Coords, EltTy.bits .bf16 = 32 ∨ (Rect.block (s := S256x14336) S256x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x14336.size a
  hwx1_1 : ∀ i : grid1.Coords, EltTy.bits .i32 = 32 ∨ (Rect.block (s := S4096x14336) S2048x512.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x2048.size a ≤ S224x4096.size a
  hwx1_2 : ∀ i : grid1.Coords, EltTy.bits .f32 = 32 ∨ (Rect.block (s := S224x4096) S8x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x2048.size a ≤ S224x4096.size a
  hwx1_3 : ∀ i : grid1.Coords, EltTy.bits .f32 = 32 ∨ (Rect.block (s := S224x4096) S8x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x2048.size a ≤ S256x4096.size a
  hwx1_4 : ∀ i : grid1.Coords, EltTy.bits .f32 = 32 ∨ (Rect.block (s := S256x4096) S256x2048.size (cc1_transform_4 i) (hinb1_4 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf

abbrev win0_0 : Pipeline.Window sig grid0 :=
  Pipeline.Window.ofSpec (Memref.whole main_v0) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S256x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S256x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v3) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S8x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S8x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S256x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S256x4096 : Shape := ⟨2, ![256, 4096]⟩
abbrev S14336x4096 : Shape := ⟨2, ![14336, 4096]⟩
abbrev S14336x64 : Shape := ⟨2, ![14336, 64]⟩
abbrev S4096x14336 : Shape := ⟨2, ![4096, 14336]⟩
abbrev S4096x224 : Shape := ⟨2, ![4096, 224]⟩
abbrev S14336x64x64 : Shape := ⟨3, ![14336, 64, 64]⟩
abbrev S14336x64x1 : Shape := ⟨3, ![14336, 64, 1]⟩
abbrev S4096x224x64 : Shape := ⟨3, ![4096, 224, 64]⟩
abbrev S4096x224x1 : Shape := ⟨3, ![4096, 224, 1]⟩
abbrev S256x14336 : Shape := ⟨2, ![256, 14336]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S14336x4096, .i32⟩
  | .hbm, ⟨2, _⟩ => ⟨S14336x64, .f32⟩
  | .hbm, ⟨3, _⟩ => ⟨S14336x64, .f32⟩
  | .hbm, ⟨4, _⟩ => ⟨S14336x4096, .i32⟩
  | .hbm, ⟨5, _⟩ => ⟨S14336x64, .f32⟩
  | .hbm, ⟨6, _⟩ => ⟨S14336x64, .f32⟩
  | .hbm, ⟨7, _⟩ => ⟨S4096x14336, .i32⟩
  | .hbm, ⟨8, _⟩ => ⟨S4096x224, .f32⟩
  | .hbm, ⟨9, _⟩ => ⟨S4096x224, .f32⟩
  | .hbm, ⟨10, _⟩ => ⟨S14336x4096, .f32⟩
  | .hbm, ⟨11, _⟩ => ⟨S14336x64x64, .f32⟩
  | .hbm, ⟨12, _⟩ => ⟨S14336x64x1, .f32⟩
  | .hbm, ⟨13, _⟩ => ⟨S14336x64x64, .f32⟩
  | .hbm, ⟨14, _⟩ => ⟨S14336x64x64, .f32⟩
  | .hbm, ⟨15, _⟩ => ⟨S14336x64x1, .f32⟩
  | .hbm, ⟨16, _⟩ => ⟨S14336x64x64, .f32⟩
  | .hbm, ⟨17, _⟩ => ⟨S14336x64x64, .f32⟩
  | .hbm, ⟨18, _⟩ => ⟨S14336x4096, .f32⟩
  | .hbm, ⟨19, _⟩ => ⟨S14336x4096, .f32⟩
  | .hbm, ⟨20, _⟩ => ⟨S14336x64x64, .f32⟩
  | .hbm, ⟨21, _⟩ => ⟨S14336x64x1, .f32⟩
  | .hbm, ⟨22, _⟩ => ⟨S14336x64x64, .f32⟩
  | .hbm, ⟨23, _⟩ => ⟨S14336x64x64, .f32⟩
  | .hbm, ⟨24, _⟩ => ⟨S14336x64x1, .f32⟩
  | .hbm, ⟨25, _⟩ => ⟨S14336x64x64, .f32⟩
  | .hbm, ⟨26, _⟩ => ⟨S14336x64x64, .f32⟩
  | .hbm, ⟨27, _⟩ => ⟨S14336x4096, .f32⟩
  | .hbm, ⟨28, _⟩ => ⟨S4096x14336, .f32⟩
  | .hbm, ⟨29, _⟩ => ⟨S4096x224x64, .f32⟩
  | .hbm, ⟨30, _⟩ => ⟨S4096x224x1, .f32⟩
  | .hbm, ⟨31, _⟩ => ⟨S4096x224x64, .f32⟩
  | .hbm, ⟨32, _⟩ => ⟨S4096x224x64, .f32⟩
  | .hbm, ⟨33, _⟩ => ⟨S4096x224x1, .f32⟩
  | .hbm, ⟨34, _⟩ => ⟨S4096x224x64, .f32⟩
  | .hbm, ⟨35, _⟩ => ⟨S4096x224x64, .f32⟩
  | .hbm, ⟨36, _⟩ => ⟨S4096x14336, .f32⟩
  | .hbm, ⟨37, _⟩ => ⟨S256x14336, .f32⟩
  | .hbm, ⟨38, _⟩ => ⟨S256x14336, .f32⟩
  | .hbm, ⟨39, _⟩ => ⟨S256x14336, .f32⟩
  | .hbm, ⟨40, _⟩ => ⟨S_, .f32⟩
  | .hbm, ⟨41, _⟩ => ⟨S256x14336, .f32⟩
  | .hbm, ⟨42, _⟩ => ⟨S256x14336, .f32⟩
  | .hbm, ⟨43, _⟩ => ⟨S_, .f32⟩
  | .hbm, ⟨44, _⟩ => ⟨S256x14336, .f32⟩
  | .hbm, ⟨45, _⟩ => ⟨S256x14336, .f32⟩
  | .hbm, ⟨46, _⟩ => ⟨S256x14336, .f32⟩
  | .hbm, ⟨47, _⟩ => ⟨S256x14336, .f32⟩
  | .hbm, ⟨48, _⟩ => ⟨S256x14336, .f32⟩
  | .hbm, ⟨49, _⟩ => ⟨S256x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  shapeCasts_S14336x4096_S14336x64x64 : S14336x4096.ShapeCasts S14336x64x64
  bcast_S14336x64_S14336x64x1_0_1 : S14336x64.BroadcastsInDim S14336x64x1 (![0, 1] : Fin 2 → Fin S14336x64x1.rank)
  bcast_S14336x64x1_S14336x64x64_0_1_2 : S14336x64x1.BroadcastsInDim S14336x64x64 (![0, 1, 2] : Fin 3 → Fin S14336x64x64.rank)
  shapeCasts_S14336x64x64_S14336x4096 : S14336x64x64.ShapeCasts S14336x4096
  shapeCasts_S4096x14336_S4096x224x64 : S4096x14336.ShapeCasts S4096x224x64
  bcast_S4096x224_S4096x224x1_0_1 : S4096x224.BroadcastsInDim S4096x224x1 (![0, 1] : Fin 2 → Fin S4096x224x1.rank)
  bcast_S4096x224x1_S4096x224x64_0_1_2 : S4096x224x1.BroadcastsInDim S4096x224x64 (![0, 1, 2] : Fin 3 → Fin S4096x224x64.rank)
  shapeCasts_S4096x224x64_S4096x14336 : S4096x224x64.ShapeCasts S4096x14336
  bcast_S_S256x14336 : S_.BroadcastsInDim S256x14336 (![] : Fin 0 → Fin S256x14336.rank)
  dot_S256x4096_S14336x4096_S256x14336_1_1_0_0_n_n_wf : DotDims.WF S256x4096 S14336x4096 S256x14336 [1] [1] [0] [0] [] []
  dot_S256x14336_S4096x14336_S256x4096_1_1_0_0_n_n_wf : DotDims.WF S256x14336 S4096x14336 S256x4096 [1] [1] [0] [0] [] []

variable [Facts₀]

def dot_S256x4096_S14336x4096_S256x14336_1_1_0_0_n_n : DotDims S256x4096 S14336x4096 S256x14336 where
  lhsContracting := [1]
  rhsContracting := [1]
  lhsNonContracting := [0]
  rhsNonContracting := [0]
  lhsBatch := []
  rhsBatch := []
  wf := dot_S256x4096_S14336x4096_S256x14336_1_1_0_0_n_n_wf
def dot_S256x14336_S4096x14336_S256x4096_1_1_0_0_n_n : DotDims S256x14336 S4096x14336 S256x4096 where
  lhsContracting := [1]
  rhsContracting := [1]
  lhsNonContracting := [0]
  rhsNonContracting := [0]
  lhsBatch := []
  rhsBatch := []
  wf := dot_S256x14336_S4096x14336_S256x4096_1_1_0_0_n_n_wf

class Facts : Prop extends Facts₀ where

variable [Facts]
-- ==== Proof.FrameBits.Region0.lean ====
/- Region 0 of @main — the pallas_call `cc0__gateup_kernel` (pipeline 0) — at a parameter `V`, the TensorCore's
   buffer contents when the region is entered: each window's block at a grid point, what the body leaves in the output
   window's staging buffer as a closed function of the seven input blocks, the body's triple, the pipeline's proof
   data, and the body obligation at every point. The body loads each input staging buffer whole through one literal
   rectangle and stores one payload over the whole output staging buffer; it keeps nothing between points. Everything
   is stated for any float model `F`. -/
import proofs.«118103_j88287347736657_2_alg».proof.Proof.Gen.Kernel.Launch
import proofs.«118103_j88287347736657_2_alg».proof.Proof.Gen.Kernel.Skeleton
import proofs.«118103_j88287347736657_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of the
-- long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # Region 0 of @main: custom_call 0, `cc0__gateup_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved, the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block index
    has not moved, the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block index
    has not moved, the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): unfetched, the block index
    has not moved, the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): unfetched, the block index
    has not moved, the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s (`hA`) and whose body leaves the block in place (`hafter`): unfetched, the block index
    has not moved, the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof
    data whose array is `V`'s (`hA`) and whose body leaves the block in place (`hafter`): unfetched, the block index
    has not moved, the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_a : Rect S256x4096 := Rect.unit (s := S256x4096) ![0, 0] S256x4096.size inb_S256x4096_S256x4096_0_0
abbrev r0_b : Rect S256x64 := Rect.unit (s := S256x64) ![0, 0] S256x64.size inb_S256x64_S256x64_0_0
abbrev r0_c : Rect S256x256 := Rect.unit (s := S256x256) ![0, 0] S256x256.size inb_S256x256_S256x256_0_0

/-! ## What the body leaves in the output window's buffer -/

/-- Window 7's staging buffer after the body, from the input windows' blocks: its one store as a piece, the payload
    at the loads of the seven input blocks through their whole rectangles. -/
def out0_7 (x0 : Vec F S256x4096 .bf16) (x1 : Vec F S256x4096 .i32) (x2 : Vec F S256x64 .f32) (x3 : Vec F S256x64 .f32) (x4 : Vec F S256x4096 .i32) (x5 : Vec F S256x64 .f32) (x6 : Vec F S256x64 .f32) : Vec F S256x256 .bf16 :=
  View.canon [⟨r0_c, k0_pay1 (View.ld x0 r0_a) (View.ld x1 r0_a) (View.ld x2 r0_b) (View.ld x3 r0_b) (View.ld x4 r0_a) (View.ld x5 r0_b) (View.ld x6 r0_b)⟩]

/-- The store tiles the buffer (checked by evaluation), so it covers it. -/
theorem cover0_7 (p0 : Vec F S256x256 .bf16) (y : S256x256.Idx) :
    ∃ pc ∈ ([⟨r0_c, p0⟩] : List (View.Piece (Elt F) S256x256 .bf16)), y ∈ pc.1.set :=
  View.cover_of_tiled [⟨r0_c, p0⟩] S256x256.size (by rfl) y

/-! ## The body's triple -/

set_option maxHeartbeats 1000000 in
/-- The kernel body on whole staging memrefs, the inputs' at read contents `xW` and the output's at anything, runs to
    the continuation holding the inputs' as they were and the output's at `out0_7` of the inputs'. -/
theorem sound_kernel0 (c : Dev nD) (E : Set ℕ) (i : grid0.Coords) (arg1 : Memref sig .tc .vmem S256x4096 .bf16) (harg1 : arg1.IsWhole) (arg2 : Memref sig .tc .vmem S256x4096 .i32) (harg2 : arg2.IsWhole) (arg3 : Memref sig .tc .vmem S256x64 .f32) (harg3 : arg3.IsWhole) (arg4 : Memref sig .tc .vmem S256x64 .f32) (harg4 : arg4.IsWhole) (arg5 : Memref sig .tc .vmem S256x4096 .i32) (harg5 : arg5.IsWhole) (arg6 : Memref sig .tc .vmem S256x64 .f32) (harg6 : arg6.IsWhole) (arg7 : Memref sig .tc .vmem S256x64 .f32) (harg7 : arg7.IsWhole) (arg8 : Memref sig .tc .vmem S256x256 .bf16) (harg8 : arg8.IsWhole)
    (x0 : Vec F S256x4096 .bf16) (x1 : Vec F S256x4096 .i32) (x2 : Vec F S256x64 .f32) (x3 : Vec F S256x64 .f32) (x4 : Vec F S256x4096 .i32) (x5 : Vec F S256x64 .f32) (x6 : Vec F S256x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__gateup_kernel i arg1 harg1 arg2 harg2 arg3 harg3 arg4 harg4 arg5 harg5 arg6 harg6 arg7 harg7 arg8 harg8) K := by
  simp only [cc0__gateup_kernel_eq_skeleton]; unfold cc0__gateup_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of pipeline 0 on core `c`: the arrays as the region finds them (`V`); after the body at
    point `t` each input's buffer at its block and the output's at `out0_7` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.FrameBits.Region1Runs.lean ====
import proofs.«118103_j88287347736657_2_alg».proof.Proof.Gen.Kernel.Launch
import proofs.«118103_j88287347736657_2_alg».proof.Proof.Gen.Kernel.Skeleton
import proofs.«118103_j88287347736657_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second kernel region (the down projection): what its frame proof shares

The region runs over a grid of 2 x 28 points, point `t` being row `t / 28`, step `t % 28`. Each step adds one
partial product into a scratch accumulator that is carried from point to point; the first step of a row first clears the
accumulator, the last step of a row copies it to the output block, which is written back only then. -/

section Region1
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the region-entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the region-entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the region-entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is the region-entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two branch conditions, in closed form over the grid -/

/-- The first conditional: the step is the first of its row. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 28 = 0 :=
  (by decide +kernel : ∀ t : Fin grid1.N, cond1_0 (grid1.coords t) ↔ t.val % 28 = 0)

/-- The second conditional: the step is the last of its row. -/
abbrev cond1_1 (i : grid1.Coords) : Prop := k1_cond2 i = 1#1
theorem hcond1_1 : ∀ t : Fin cfg1.N, cond1_1 (grid1.coords t) ↔ t.val % 28 = 27 :=
  (by decide +kernel : ∀ t : Fin grid1.N, cond1_1 (grid1.coords t) ↔ t.val % 28 = 27)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At a first step that is not a last step the output window is idle and not written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
/-- At a middle step likewise. -/
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- At a last step the output window is live: the body stores into it. -/
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated. -/
abbrev VO1_4 : View sig .tc .vmem S256x2048 .f32 := (Memref.whole cc1_stg4_0 : Memref sig .tc .vmem S256x2048 .f32).view
abbrev ms1_0 (t : Fin cfg1.N) : Memref sig .tc .vmem S256x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x2048 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows. -/
abbrev scM1_0 : Memref sig .tc .vmem S256x2048 .f32 := Memref.whole cc1_scratch0
abbrev VS1_0 : View sig .tc .vmem S256x2048 .f32 := scM1_0.view

/-- The core's scoped buffers that no window of this region stages, split at the accumulator. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The class invariant with the accumulator as a memref owned at some contents. -/
theorem PhiA1_eq (c : Dev nD) :
    (Pipeline.ΦA spec1 c : sProp 𝕄)
      = iprop(iprop((∃ d, owns (c : Thread nD τ) scM1_0 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.Kernel.Hand

end
-- ==== Proof.FrameBits.Region1RunA.lean ====
import proofs.«118103_j88287347736657_2_alg».proof.Proof.FrameBits.Region1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a first step of a row that is not a last step: the accumulator, at anything before, is cleared and then receives this step's partial product; the output block is left untouched. The pieces the accumulator ends with are the witness the run finds. -/
noncomputable def kernelRun1_A (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : cond1_0 i) (hc1 : ¬cond1_1 i)
    (x0 : Vec F S256x512 .bf16) (x1 : Vec F S2048x512 .i32) (x2 : Vec F S8x2048 .f32) (x3 : Vec F S8x2048 .f32) :
    Σ' (L4 : List (View.Piece (Elt F) S256x2048 .f32)), { LS0 : List (View.Piece (Elt F) S256x2048 .f32) //
      ∀ (xi4 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__down_kernel i arg2 harg2 arg3 harg3 arg4 harg4 arg5 harg5 arg6 harg6 arg7 harg7) K } := by
  refine ⟨[], ?_, fun xi4 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.FrameBits.Region1RunB.lean ====
import proofs.«118103_j88287347736657_2_alg».proof.Proof.FrameBits.Region1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a middle step: the accumulator, at what the step before left, receives this step's partial product; the output block is left untouched. -/
noncomputable def kernelRun1_B (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : ¬cond1_0 i) (hc1 : ¬cond1_1 i)
    (x0 : Vec F S256x512 .bf16) (x1 : Vec F S2048x512 .i32) (x2 : Vec F S8x2048 .f32) (x3 : Vec F S8x2048 .f32) (xs0 : Vec F S256x2048 .f32) :
    Σ' (L4 : List (View.Piece (Elt F) S256x2048 .f32)), { LS0 : List (View.Piece (Elt F) S256x2048 .f32) //
      ∀ (xi4 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__down_kernel i arg2 harg2 arg3 harg3 arg4 harg4 arg5 harg5 arg6 harg6 arg7 harg7) K } := by
  refine ⟨[], ?_, fun xi4 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.FrameBits.Region1RunC.lean ====
import proofs.«118103_j88287347736657_2_alg».proof.Proof.FrameBits.Region1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a last step of a row: the accumulator, at what the step before left, receives this step's partial product and is then copied over the whole output block. -/
noncomputable def kernelRun1_C (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : ¬cond1_0 i) (hc1 : cond1_1 i)
    (x0 : Vec F S256x512 .bf16) (x1 : Vec F S2048x512 .i32) (x2 : Vec F S8x2048 .f32) (x3 : Vec F S8x2048 .f32) (xs0 : Vec F S256x2048 .f32) :
    Σ' (L4 : List (View.Piece (Elt F) S256x2048 .f32)), { LS0 : List (View.Piece (Elt F) S256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__down_kernel i arg2 harg2 arg3 harg3 arg4 harg4 arg5 harg5 arg6 harg6 arg7 harg7) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

end Cert.Kernel.Hand

end
-- ==== Proof.FrameBits.Region1.lean ====
import proofs.«118103_j88287347736657_2_alg».proof.Proof.FrameBits.Region1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second kernel region: what it holds point by point, its proof data and its body obligation -/

/-- A first step of a row: no piece goes into the output block; a placeholder nothing consults, the window being idle there. -/
def out1_A_4 (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : cond1_0 i) (hc1 : ¬cond1_1 i)
    (x0 : Vec F S256x512 .bf16) (x1 : Vec F S2048x512 .i32) (x2 : Vec F S8x2048 .f32) (x3 : Vec F S8x2048 .f32) : Vec F S256x2048 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- A first step of a row: the pieces stored into the accumulator tile it, so they cover it. -/
theorem scover1_A_0 (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : cond1_0 i) (hc1 : ¬cond1_1 i)
    (x0 : Vec F S256x512 .bf16) (x1 : Vec F S2048x512 .i32) (x2 : Vec F S8x2048 .f32) (x3 : Vec F S8x2048 .f32) (y : S256x2048.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S256x2048.size (by sl_kernel_rfl) y

/-- A first step of a row: what the accumulator holds afterwards, its pieces read back. -/
def sout1_A_0 (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : cond1_0 i) (hc1 : ¬cond1_1 i)
    (x0 : Vec F S256x512 .bf16) (x1 : Vec F S2048x512 .i32) (x2 : Vec F S8x2048 .f32) (x3 : Vec F S8x2048 .f32) : Vec F S256x2048 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- A middle step: no piece goes into the output block; a placeholder nothing consults, the window being idle there. -/
def out1_B_4 (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : ¬cond1_0 i) (hc1 : ¬cond1_1 i)
    (x0 : Vec F S256x512 .bf16) (x1 : Vec F S2048x512 .i32) (x2 : Vec F S8x2048 .f32) (x3 : Vec F S8x2048 .f32) (xs0 : Vec F S256x2048 .f32) : Vec F S256x2048 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- A middle step: the pieces stored into the accumulator tile it, so they cover it. -/
theorem scover1_B_0 (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : ¬cond1_0 i) (hc1 : ¬cond1_1 i)
    (x0 : Vec F S256x512 .bf16) (x1 : Vec F S2048x512 .i32) (x2 : Vec F S8x2048 .f32) (x3 : Vec F S8x2048 .f32) (xs0 : Vec F S256x2048 .f32) (y : S256x2048.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S256x2048.size (by sl_kernel_rfl) y

/-- A middle step: what the accumulator holds afterwards, its pieces read back. -/
def sout1_B_0 (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : ¬cond1_0 i) (hc1 : ¬cond1_1 i)
    (x0 : Vec F S256x512 .bf16) (x1 : Vec F S2048x512 .i32) (x2 : Vec F S8x2048 .f32) (x3 : Vec F S8x2048 .f32) (xs0 : Vec F S256x2048 .f32) : Vec F S256x2048 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- A last step of a row: the pieces stored into the output block tile it, so they cover it. -/
theorem cover1_C_4 (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : ¬cond1_0 i) (hc1 : cond1_1 i)
    (x0 : Vec F S256x512 .bf16) (x1 : Vec F S2048x512 .i32) (x2 : Vec F S8x2048 .f32) (x3 : Vec F S8x2048 .f32) (xs0 : Vec F S256x2048 .f32) (y : S256x2048.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S256x2048.size (by sl_kernel_rfl) y

/-- What a last step leaves in the output block: its pieces read back. -/
def out1_C_4 (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : ¬cond1_0 i) (hc1 : cond1_1 i)
    (x0 : Vec F S256x512 .bf16) (x1 : Vec F S2048x512 .i32) (x2 : Vec F S8x2048 .f32) (x3 : Vec F S8x2048 .f32) (xs0 : Vec F S256x2048 .f32) : Vec F S256x2048 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- A last step of a row: the pieces stored into the accumulator tile it, so they cover it. -/
theorem scover1_C_0 (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : ¬cond1_0 i) (hc1 : cond1_1 i)
    (x0 : Vec F S256x512 .bf16) (x1 : Vec F S2048x512 .i32) (x2 : Vec F S8x2048 .f32) (x3 : Vec F S8x2048 .f32) (xs0 : Vec F S256x2048 .f32) (y : S256x2048.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S256x2048.size (by sl_kernel_rfl) y

/-- A last step of a row: what the accumulator holds afterwards, its pieces read back. -/
def sout1_C_0 (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : ¬cond1_0 i) (hc1 : cond1_1 i)
    (x0 : Vec F S256x512 .bf16) (x1 : Vec F S2048x512 .i32) (x2 : Vec F S8x2048 .f32) (x3 : Vec F S8x2048 .f32) (xs0 : Vec F S256x2048 .f32) : Vec F S256x2048 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

section Region1
variable (V : (c : Dev nD) → (b : Ref sig .tc) → Buf (Elt F) ((c : Thread nD τ).loc b))

/-! ## What the output block and the accumulator hold after each point -/

/-- THE ACCUMULATION. After the body at position `n`: the output block's staging buffer and the accumulator, by the case the
    position is in (first, middle or last step of its row), run at the point's memrefs and input blocks, a middle or last step
    over what the accumulator held after position `n - 1`. -/
def outsAt1 (c : Dev nD) : (n : ℕ) → n < cfg1.N → Vec F S256x2048 .f32 × Vec F S256x2048 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 28 = 0 then
      if h1 : (n + 1) % 28 = 27 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 28 = 27 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 28 = 0) (h1 : ¬t.val % 28 = 27) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 28 = 0) (h1 : ¬t.val % 28 = 27) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 28 = 0) (h1 : t.val % 28 = 27) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything); afterwards
    the accumulator at what the point before left in it, beside the other scoped buffers and the generator register. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The arrays as the region finds them; after the body at point `t` each input's buffer at its block and the output's at
    `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]; try rfl
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]; try rfl
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]; try rfl
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]; try rfl

set_option maxHeartbeats 8000000 in
/-- The body at any point. The closed forms say which case the point is in; the invariant hands the body the accumulator at
    what the point before left (at anything before the first point) and takes it back at this point's contents; the inputs'
    memrefs hold their blocks; the output block is handed back untouched except at a last step, where it receives the
    accumulator. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3]
  have hN : t.val < 56 := lt_of_lt_of_eq t.isLt (show cfg1.N = 56 from N_1)
  by_cases h0 : t.val % 28 = 0
  · by_cases h1 : t.val % 28 = 27
    · exfalso; omega
    · rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (by rw [hz])
    by_cases h1 : t.val % 28 = 27
    · rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 56 := N_1; omega)

end Region1

end Cert.Kernel.Hand

end
-- ==== Proof.FrameBits.Frame.lean ====
import proofs.«118103_j88287347736657_2_alg».proof.Proof.FrameBits.Region0
import proofs.«118103_j88287347736657_2_alg».proof.Proof.FrameBits.Region1
import proofs.«118103_j88287347736657_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run of the whole program: two kernel regions among two stretches of host operations

The buffers' contents at each boundary are a fold from the launch memory: a host stretch applies its operations; a region
leaves its arrays at what its write-backs fold to and every other buffer as entered. Every weakly fair execution
terminates with every unscoped buffer at the last boundary's contents. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched: no host operation writes one and no region writes one back -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := (W2_arr m ρ c 5).trans (((dat0 (V1 m ρ) c).arrAt_in 5 rfl _).trans (A_eq0 (V1 m ρ) c 5))
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 1).trans (((dat1 (V3 m ρ) c).arrAt_in 1 rfl _).trans (A_eq1 (V3 m ρ) c 1))
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at the contents after
    it. Its arrays are split out of the unscoped buffers and put back at what the pipeline leaves; the generator register
    goes into the region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents after
    it. Its arrays are split out of the unscoped buffers and put back at what the pipeline leaves; the generator register
    goes into the region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h1 : (pdats m ρ 1 c).Φ (Fin.last _) ⊢ (Pipeline.ΦA spec1 c : sProp 𝕄) := hout1 (V3 m ρ) c
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact h1.trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program on the TensorCores terminates,
    nothing faulting, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME, with the result named: every weakly fair execution terminates, the result buffer ends at the last
    boundary's contents and every argument array as launched. -/
theorem run_result : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c _ (mem_uc main_v7 (by decide)),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c)⟩) (run_all m ρ)

/-- THE FRAME: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2) (run_result m ρ)

end Cert.Kernel.Hand

end
-- ==== Proof.FrameIdeal.Region0.lean ====
/- Region 0 of @main — the pallas_call `cc0__gateup_kernel` (pipeline 0) — at a parameter `V`, the TensorCore's
   buffer contents when the region is entered: each window's block at a grid point, what the body leaves in the output
   window's staging buffer as a closed function of the seven input blocks, the body's triple, the pipeline's proof
   data, and the body obligation at every point. The body loads each input staging buffer whole through one literal
   rectangle and stores one payload over the whole output staging buffer; it keeps nothing between points. Everything
   is stated for any float model `F`. -/
import proofs.«118103_j88287347736657_2_alg».proof.Proof.Gen.KernelIdeal.Launch
import proofs.«118103_j88287347736657_2_alg».proof.Proof.Gen.KernelIdeal.Skeleton
import proofs.«118103_j88287347736657_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of the
-- long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # Region 0 of @main: custom_call 0, `cc0__gateup_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved, the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block index
    has not moved, the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block index
    has not moved, the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): unfetched, the block index
    has not moved, the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): unfetched, the block index
    has not moved, the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s (`hA`) and whose body leaves the block in place (`hafter`): unfetched, the block index
    has not moved, the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof
    data whose array is `V`'s (`hA`) and whose body leaves the block in place (`hafter`): unfetched, the block index
    has not moved, the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_a : Rect S256x4096 := Rect.unit (s := S256x4096) ![0, 0] S256x4096.size inb_S256x4096_S256x4096_0_0
abbrev r0_b : Rect S256x64 := Rect.unit (s := S256x64) ![0, 0] S256x64.size inb_S256x64_S256x64_0_0
abbrev r0_c : Rect S256x256 := Rect.unit (s := S256x256) ![0, 0] S256x256.size inb_S256x256_S256x256_0_0

/-! ## What the body leaves in the output window's buffer -/

/-- Window 7's staging buffer after the body, from the input windows' blocks: its one store as a piece, the payload
    at the loads of the seven input blocks through their whole rectangles. -/
def out0_7 (x0 : Vec F S256x4096 .bf16) (x1 : Vec F S256x4096 .i32) (x2 : Vec F S256x64 .f32) (x3 : Vec F S256x64 .f32) (x4 : Vec F S256x4096 .i32) (x5 : Vec F S256x64 .f32) (x6 : Vec F S256x64 .f32) : Vec F S256x256 .bf16 :=
  View.canon [⟨r0_c, k0_pay1 (View.ld x0 r0_a) (View.ld x1 r0_a) (View.ld x2 r0_b) (View.ld x3 r0_b) (View.ld x4 r0_a) (View.ld x5 r0_b) (View.ld x6 r0_b)⟩]

/-- The store tiles the buffer (checked by evaluation), so it covers it. -/
theorem cover0_7 (p0 : Vec F S256x256 .bf16) (y : S256x256.Idx) :
    ∃ pc ∈ ([⟨r0_c, p0⟩] : List (View.Piece (Elt F) S256x256 .bf16)), y ∈ pc.1.set :=
  View.cover_of_tiled [⟨r0_c, p0⟩] S256x256.size (by rfl) y

/-! ## The body's triple -/

set_option maxHeartbeats 1000000 in
/-- The kernel body on whole staging memrefs, the inputs' at read contents `xW` and the output's at anything, runs to
    the continuation holding the inputs' as they were and the output's at `out0_7` of the inputs'. -/
theorem sound_kernel0 (c : Dev nD) (E : Set ℕ) (i : grid0.Coords) (arg1 : Memref sig .tc .vmem S256x4096 .bf16) (harg1 : arg1.IsWhole) (arg2 : Memref sig .tc .vmem S256x4096 .i32) (harg2 : arg2.IsWhole) (arg3 : Memref sig .tc .vmem S256x64 .f32) (harg3 : arg3.IsWhole) (arg4 : Memref sig .tc .vmem S256x64 .f32) (harg4 : arg4.IsWhole) (arg5 : Memref sig .tc .vmem S256x4096 .i32) (harg5 : arg5.IsWhole) (arg6 : Memref sig .tc .vmem S256x64 .f32) (harg6 : arg6.IsWhole) (arg7 : Memref sig .tc .vmem S256x64 .f32) (harg7 : arg7.IsWhole) (arg8 : Memref sig .tc .vmem S256x256 .bf16) (harg8 : arg8.IsWhole)
    (x0 : Vec F S256x4096 .bf16) (x1 : Vec F S256x4096 .i32) (x2 : Vec F S256x64 .f32) (x3 : Vec F S256x64 .f32) (x4 : Vec F S256x4096 .i32) (x5 : Vec F S256x64 .f32) (x6 : Vec F S256x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__gateup_kernel i arg1 harg1 arg2 harg2 arg3 harg3 arg4 harg4 arg5 harg5 arg6 harg6 arg7 harg7 arg8 harg8) K := by
  simp only [cc0__gateup_kernel_eq_skeleton]; unfold cc0__gateup_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of pipeline 0 on core `c`: the arrays as the region finds them (`V`); after the body at
    point `t` each input's buffer at its block and the output's at `out0_7` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.FrameIdeal.Region1Runs.lean ====
import proofs.«118103_j88287347736657_2_alg».proof.Proof.Gen.KernelIdeal.Launch
import proofs.«118103_j88287347736657_2_alg».proof.Proof.Gen.KernelIdeal.Skeleton
import proofs.«118103_j88287347736657_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second kernel region (the down projection): what its frame proof shares

The region runs over a grid of 2 x 28 points, point `t` being row `t / 28`, step `t % 28`. Each step adds one
partial product into a scratch accumulator that is carried from point to point; the first step of a row first clears the
accumulator, the last step of a row copies it to the output block, which is written back only then. -/

section Region1
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the region-entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the region-entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the region-entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is the region-entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two branch conditions, in closed form over the grid -/

/-- The first conditional: the step is the first of its row. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 28 = 0 :=
  (by decide +kernel : ∀ t : Fin grid1.N, cond1_0 (grid1.coords t) ↔ t.val % 28 = 0)

/-- The second conditional: the step is the last of its row. -/
abbrev cond1_1 (i : grid1.Coords) : Prop := k1_cond2 i = 1#1
theorem hcond1_1 : ∀ t : Fin cfg1.N, cond1_1 (grid1.coords t) ↔ t.val % 28 = 27 :=
  (by decide +kernel : ∀ t : Fin grid1.N, cond1_1 (grid1.coords t) ↔ t.val % 28 = 27)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At a first step that is not a last step the output window is idle and not written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
/-- At a middle step likewise. -/
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- At a last step the output window is live: the body stores into it. -/
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated. -/
abbrev VO1_4 : View sig .tc .vmem S256x2048 .f32 := (Memref.whole cc1_stg4_0 : Memref sig .tc .vmem S256x2048 .f32).view
abbrev ms1_0 (t : Fin cfg1.N) : Memref sig .tc .vmem S256x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x2048 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows. -/
abbrev scM1_0 : Memref sig .tc .vmem S256x2048 .f32 := Memref.whole cc1_scratch0
abbrev VS1_0 : View sig .tc .vmem S256x2048 .f32 := scM1_0.view

/-- The core's scoped buffers that no window of this region stages, split at the accumulator. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The class invariant with the accumulator as a memref owned at some contents. -/
theorem PhiA1_eq (c : Dev nD) :
    (Pipeline.ΦA spec1 c : sProp 𝕄)
      = iprop(iprop((∃ d, owns (c : Thread nD τ) scM1_0 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Hand

end
-- ==== Proof.FrameIdeal.Region1RunA.lean ====
import proofs.«118103_j88287347736657_2_alg».proof.Proof.FrameIdeal.Region1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a first step of a row that is not a last step: the accumulator, at anything before, is cleared and then receives this step's partial product; the output block is left untouched. The pieces the accumulator ends with are the witness the run finds. -/
noncomputable def kernelRun1_A (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : cond1_0 i) (hc1 : ¬cond1_1 i)
    (x0 : Vec F S256x512 .bf16) (x1 : Vec F S2048x512 .i32) (x2 : Vec F S8x2048 .f32) (x3 : Vec F S8x2048 .f32) :
    Σ' (L4 : List (View.Piece (Elt F) S256x2048 .f32)), { LS0 : List (View.Piece (Elt F) S256x2048 .f32) //
      ∀ (xi4 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__down_kernel i arg2 harg2 arg3 harg3 arg4 harg4 arg5 harg5 arg6 harg6 arg7 harg7) K } := by
  refine ⟨[], ?_, fun xi4 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.FrameIdeal.Region1RunB.lean ====
import proofs.«118103_j88287347736657_2_alg».proof.Proof.FrameIdeal.Region1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a middle step: the accumulator, at what the step before left, receives this step's partial product; the output block is left untouched. -/
noncomputable def kernelRun1_B (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : ¬cond1_0 i) (hc1 : ¬cond1_1 i)
    (x0 : Vec F S256x512 .bf16) (x1 : Vec F S2048x512 .i32) (x2 : Vec F S8x2048 .f32) (x3 : Vec F S8x2048 .f32) (xs0 : Vec F S256x2048 .f32) :
    Σ' (L4 : List (View.Piece (Elt F) S256x2048 .f32)), { LS0 : List (View.Piece (Elt F) S256x2048 .f32) //
      ∀ (xi4 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__down_kernel i arg2 harg2 arg3 harg3 arg4 harg4 arg5 harg5 arg6 harg6 arg7 harg7) K } := by
  refine ⟨[], ?_, fun xi4 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.FrameIdeal.Region1RunC.lean ====
import proofs.«118103_j88287347736657_2_alg».proof.Proof.FrameIdeal.Region1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a last step of a row: the accumulator, at what the step before left, receives this step's partial product and is then copied over the whole output block. -/
noncomputable def kernelRun1_C (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : ¬cond1_0 i) (hc1 : cond1_1 i)
    (x0 : Vec F S256x512 .bf16) (x1 : Vec F S2048x512 .i32) (x2 : Vec F S8x2048 .f32) (x3 : Vec F S8x2048 .f32) (xs0 : Vec F S256x2048 .f32) :
    Σ' (L4 : List (View.Piece (Elt F) S256x2048 .f32)), { LS0 : List (View.Piece (Elt F) S256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__down_kernel i arg2 harg2 arg3 harg3 arg4 harg4 arg5 harg5 arg6 harg6 arg7 harg7) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

end Cert.KernelIdeal.Hand

end
-- ==== Proof.FrameIdeal.Region1.lean ====
import proofs.«118103_j88287347736657_2_alg».proof.Proof.FrameIdeal.Region1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second kernel region: what it holds point by point, its proof data and its body obligation -/

/-- A first step of a row: no piece goes into the output block; a placeholder nothing consults, the window being idle there. -/
def out1_A_4 (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : cond1_0 i) (hc1 : ¬cond1_1 i)
    (x0 : Vec F S256x512 .bf16) (x1 : Vec F S2048x512 .i32) (x2 : Vec F S8x2048 .f32) (x3 : Vec F S8x2048 .f32) : Vec F S256x2048 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- A first step of a row: the pieces stored into the accumulator tile it, so they cover it. -/
theorem scover1_A_0 (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : cond1_0 i) (hc1 : ¬cond1_1 i)
    (x0 : Vec F S256x512 .bf16) (x1 : Vec F S2048x512 .i32) (x2 : Vec F S8x2048 .f32) (x3 : Vec F S8x2048 .f32) (y : S256x2048.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S256x2048.size (by sl_kernel_rfl) y

/-- A first step of a row: what the accumulator holds afterwards, its pieces read back. -/
def sout1_A_0 (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : cond1_0 i) (hc1 : ¬cond1_1 i)
    (x0 : Vec F S256x512 .bf16) (x1 : Vec F S2048x512 .i32) (x2 : Vec F S8x2048 .f32) (x3 : Vec F S8x2048 .f32) : Vec F S256x2048 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- A middle step: no piece goes into the output block; a placeholder nothing consults, the window being idle there. -/
def out1_B_4 (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : ¬cond1_0 i) (hc1 : ¬cond1_1 i)
    (x0 : Vec F S256x512 .bf16) (x1 : Vec F S2048x512 .i32) (x2 : Vec F S8x2048 .f32) (x3 : Vec F S8x2048 .f32) (xs0 : Vec F S256x2048 .f32) : Vec F S256x2048 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- A middle step: the pieces stored into the accumulator tile it, so they cover it. -/
theorem scover1_B_0 (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : ¬cond1_0 i) (hc1 : ¬cond1_1 i)
    (x0 : Vec F S256x512 .bf16) (x1 : Vec F S2048x512 .i32) (x2 : Vec F S8x2048 .f32) (x3 : Vec F S8x2048 .f32) (xs0 : Vec F S256x2048 .f32) (y : S256x2048.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S256x2048.size (by sl_kernel_rfl) y

/-- A middle step: what the accumulator holds afterwards, its pieces read back. -/
def sout1_B_0 (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : ¬cond1_0 i) (hc1 : ¬cond1_1 i)
    (x0 : Vec F S256x512 .bf16) (x1 : Vec F S2048x512 .i32) (x2 : Vec F S8x2048 .f32) (x3 : Vec F S8x2048 .f32) (xs0 : Vec F S256x2048 .f32) : Vec F S256x2048 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- A last step of a row: the pieces stored into the output block tile it, so they cover it. -/
theorem cover1_C_4 (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : ¬cond1_0 i) (hc1 : cond1_1 i)
    (x0 : Vec F S256x512 .bf16) (x1 : Vec F S2048x512 .i32) (x2 : Vec F S8x2048 .f32) (x3 : Vec F S8x2048 .f32) (xs0 : Vec F S256x2048 .f32) (y : S256x2048.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S256x2048.size (by sl_kernel_rfl) y

/-- What a last step leaves in the output block: its pieces read back. -/
def out1_C_4 (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : ¬cond1_0 i) (hc1 : cond1_1 i)
    (x0 : Vec F S256x512 .bf16) (x1 : Vec F S2048x512 .i32) (x2 : Vec F S8x2048 .f32) (x3 : Vec F S8x2048 .f32) (xs0 : Vec F S256x2048 .f32) : Vec F S256x2048 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- A last step of a row: the pieces stored into the accumulator tile it, so they cover it. -/
theorem scover1_C_0 (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : ¬cond1_0 i) (hc1 : cond1_1 i)
    (x0 : Vec F S256x512 .bf16) (x1 : Vec F S2048x512 .i32) (x2 : Vec F S8x2048 .f32) (x3 : Vec F S8x2048 .f32) (xs0 : Vec F S256x2048 .f32) (y : S256x2048.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S256x2048.size (by sl_kernel_rfl) y

/-- A last step of a row: what the accumulator holds afterwards, its pieces read back. -/
def sout1_C_0 (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : ¬cond1_0 i) (hc1 : cond1_1 i)
    (x0 : Vec F S256x512 .bf16) (x1 : Vec F S2048x512 .i32) (x2 : Vec F S8x2048 .f32) (x3 : Vec F S8x2048 .f32) (xs0 : Vec F S256x2048 .f32) : Vec F S256x2048 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

section Region1
variable (V : (c : Dev nD) → (b : Ref sig .tc) → Buf (Elt F) ((c : Thread nD τ).loc b))

/-! ## What the output block and the accumulator hold after each point -/

/-- THE ACCUMULATION. After the body at position `n`: the output block's staging buffer and the accumulator, by the case the
    position is in (first, middle or last step of its row), run at the point's memrefs and input blocks, a middle or last step
    over what the accumulator held after position `n - 1`. -/
def outsAt1 (c : Dev nD) : (n : ℕ) → n < cfg1.N → Vec F S256x2048 .f32 × Vec F S256x2048 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 28 = 0 then
      if h1 : (n + 1) % 28 = 27 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 28 = 27 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 28 = 0) (h1 : ¬t.val % 28 = 27) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 28 = 0) (h1 : ¬t.val % 28 = 27) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 28 = 0) (h1 : t.val % 28 = 27) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything); afterwards
    the accumulator at what the point before left in it, beside the other scoped buffers and the generator register. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The arrays as the region finds them; after the body at point `t` each input's buffer at its block and the output's at
    `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]; try rfl
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]; try rfl
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]; try rfl
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]; try rfl

set_option maxHeartbeats 8000000 in
/-- The body at any point. The closed forms say which case the point is in; the invariant hands the body the accumulator at
    what the point before left (at anything before the first point) and takes it back at this point's contents; the inputs'
    memrefs hold their blocks; the output block is handed back untouched except at a last step, where it receives the
    accumulator. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3]
  have hN : t.val < 56 := lt_of_lt_of_eq t.isLt (show cfg1.N = 56 from N_1)
  by_cases h0 : t.val % 28 = 0
  · by_cases h1 : t.val % 28 = 27
    · exfalso; omega
    · rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (by rw [hz])
    by_cases h1 : t.val % 28 = 27
    · rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 56 := N_1; omega)

end Region1

end Cert.KernelIdeal.Hand

end
-- ==== Proof.FrameIdeal.Frame.lean ====
import proofs.«118103_j88287347736657_2_alg».proof.Proof.FrameIdeal.Region0
import proofs.«118103_j88287347736657_2_alg».proof.Proof.FrameIdeal.Region1
import proofs.«118103_j88287347736657_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run of the whole program: two kernel regions among two stretches of host operations

The buffers' contents at each boundary are a fold from the launch memory: a host stretch applies its operations; a region
leaves its arrays at what its write-backs fold to and every other buffer as entered. Every weakly fair execution
terminates with every unscoped buffer at the last boundary's contents. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched: no host operation writes one and no region writes one back -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := (W2_arr m ρ c 5).trans (((dat0 (V1 m ρ) c).arrAt_in 5 rfl _).trans (A_eq0 (V1 m ρ) c 5))
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 1).trans (((dat1 (V3 m ρ) c).arrAt_in 1 rfl _).trans (A_eq1 (V3 m ρ) c 1))
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at the contents after
    it. Its arrays are split out of the unscoped buffers and put back at what the pipeline leaves; the generator register
    goes into the region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents after
    it. Its arrays are split out of the unscoped buffers and put back at what the pipeline leaves; the generator register
    goes into the region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h1 : (pdats m ρ 1 c).Φ (Fin.last _) ⊢ (Pipeline.ΦA spec1 c : sProp 𝕄) := hout1 (V3 m ρ) c
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact h1.trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program on the TensorCores terminates,
    nothing faulting, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME, with the result named: every weakly fair execution terminates, the result buffer ends at the last
    boundary's contents and every argument array as launched. -/
theorem run_result : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c _ (mem_uc main_v7 (by decide)),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c)⟩) (run_all m ρ)

/-- THE FRAME: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2) (run_result m ρ)

end Cert.KernelIdeal.Hand

end
-- ==== Proof.Math.Spec.lean ====
/-
  A quantised SwiGLU layer as one function of its arguments over the extended reals, and the law between
  the two ways of dequantising its weights.

  A weight matrix is stored as integer codes `q` with, per row and per group of 64 consecutive columns, one
  scale `s` and one zero point `z`.  Its entry at row `r` and column `k` (group `k / 64`) is written either as
  `(q - z) * s`  (subtract the zero point, then scale) or as  `q * s - s * z`  (scale, then subtract the scaled
  zero point).  Over the reals these are one number; over the extended reals the identity needs `s` and `z`
  finite (an integer code always is), which is what `deq_eq` asks.

  The layer itself: with `g = x · w1ᵀ` and `u = x · w3ᵀ` (contractions over the 4096 input columns), the hidden
  activation is `(g * logistic g) * u` entry by entry, and the result is its contraction with `w2` over the 14336
  hidden columns.  No finiteness of `x` enters anywhere: the two arrangements give the same weight ENTRIES, so the
  same sums of the same products.
-/
import Idealize.ShloMosaic.PureOps.Ideal
import Idealize.ShloMosaic.Lib.ValueIdx

noncomputable section

open scoped BigOperators

namespace Cert.Math

open Idealize.ShloMosaic Idealize.ShloMosaic.ValueIdx

/-! ## Groups of 64 columns -/

/-- The group `k / 64` of column `k` among 4096 = 64 · 64 columns. -/
def grp64 (k : Fin 4096) : Fin 64 := ⟨k.val / 64, by have := k.isLt; omega⟩
/-- The group `k / 64` of column `k` among 14336 = 224 · 64 columns. -/
def grp224 (k : Fin 14336) : Fin 224 := ⟨k.val / 64, by have := k.isLt; omega⟩

@[simp] theorem grp64_val (k : Fin 4096) : (grp64 k).val = k.val / 64 := rfl
@[simp] theorem grp224_val (k : Fin 14336) : (grp224 k).val = k.val / 64 := rfl

/-! ## The two arrangements of a dequantised weight entry

`g` sends a column to its group; `grp64` and `grp224` are the two instances used.  An integer code `b` is read
signed, as the real `b.toInt`. -/

/-- Scale, then subtract the scaled zero point: `q * s - s * z`. -/
def deqK {a b c : ℕ} (g : Fin c → Fin b) (q : (⟨2, ![a, c]⟩ : Shape).Idx → BitVec 32)
    (s z : (⟨2, ![a, b]⟩ : Shape).Idx → EReal) : (⟨2, ![a, c]⟩ : Shape).Idx → EReal :=
  fun i => (((q i).toInt : ℝ) : EReal) * s (ix2 (n0 := a) (n1 := b) (i 0) (g (i 1)))
    - s (ix2 (n0 := a) (n1 := b) (i 0) (g (i 1))) * z (ix2 (n0 := a) (n1 := b) (i 0) (g (i 1)))

/-- Subtract the zero point, then scale: `(q - z) * s`. -/
def deqR {a b c : ℕ} (g : Fin c → Fin b) (q : (⟨2, ![a, c]⟩ : Shape).Idx → BitVec 32)
    (s z : (⟨2, ![a, b]⟩ : Shape).Idx → EReal) : (⟨2, ![a, c]⟩ : Shape).Idx → EReal :=
  fun i => ((((q i).toInt : ℝ) : EReal) - z (ix2 (n0 := a) (n1 := b) (i 0) (g (i 1))))
    * s (ix2 (n0 := a) (n1 := b) (i 0) (g (i 1)))

@[simp] theorem deqK_apply {a b c : ℕ} (g : Fin c → Fin b) (q : (⟨2, ![a, c]⟩ : Shape).Idx → BitVec 32)
    (s z : (⟨2, ![a, b]⟩ : Shape).Idx → EReal) (r : Fin a) (k : Fin c) :
    deqK g q s z (ix2 r k)
      = (((q (ix2 r k)).toInt : ℝ) : EReal) * s (ix2 r (g k)) - s (ix2 r (g k)) * z (ix2 r (g k)) := rfl

@[simp] theorem deqR_apply {a b c : ℕ} (g : Fin c → Fin b) (q : (⟨2, ![a, c]⟩ : Shape).Idx → BitVec 32)
    (s z : (⟨2, ![a, b]⟩ : Shape).Idx → EReal) (r : Fin a) (k : Fin c) :
    deqR g q s z (ix2 r k) = ((((q (ix2 r k)).toInt : ℝ) : EReal) - z (ix2 r (g k))) * s (ix2 r (g k)) := rfl

/-- THE LAW, at one entry: with a finite scale and a finite zero point the two arrangements agree
    (`q * s - s * z = (q - z) * s` in the reals). -/
theorem deq_eq {a b c : ℕ} (g : Fin c → Fin b) (q : (⟨2, ![a, c]⟩ : Shape).Idx → BitVec 32)
    (s z : (⟨2, ![a, b]⟩ : Shape).Idx → EReal) (r : Fin a) (k : Fin c)
    (hs : ∃ u : ℝ, s (ix2 r (g k)) = (u : EReal)) (hz : ∃ v : ℝ, z (ix2 r (g k)) = (v : EReal)) :
    deqK g q s z (ix2 r k) = deqR g q s z (ix2 r k) := by
  obtain ⟨u, hu⟩ := hs
  obtain ⟨v, hv⟩ := hz
  rw [deqK_apply, deqR_apply, hu, hv, ← EReal.coe_mul, ← EReal.coe_mul, ← EReal.coe_sub, ← EReal.coe_sub,
    ← EReal.coe_mul]
  exact congrArg _ (by ring)

/-- The law for whole matrices: every scale and every zero point finite. -/
theorem deqK_eq_deqR {a b c : ℕ} (g : Fin c → Fin b) (q : (⟨2, ![a, c]⟩ : Shape).Idx → BitVec 32)
    (s z : (⟨2, ![a, b]⟩ : Shape).Idx → EReal)
    (hs : ∀ j, ∃ u : ℝ, s j = (u : EReal)) (hz : ∀ j, ∃ v : ℝ, z j = (v : EReal)) :
    deqK g q s z = deqR g q s z := by
  funext i
  obtain ⟨r, k, rfl⟩ : ∃ (r : Fin a) (k : Fin c), i = ix2 r k := ⟨i 0, i 1, eq_ix2 i⟩
  exact deq_eq g q s z r k (hs _) (hz _)

/-! ## The layer -/

/-- A projection of the 256 tokens: entry `(t, i)` is `∑ k, x (t, k) * w (i, k)` over the 4096 input columns. -/
def proj (x : (⟨2, ![256, 4096]⟩ : Shape).Idx → EReal) (w : (⟨2, ![14336, 4096]⟩ : Shape).Idx → EReal) :
    (⟨2, ![256, 14336]⟩ : Shape).Idx → EReal :=
  fun j => ∑ k : Fin 4096, x (ix2 (n0 := 256) (n1 := 4096) (j 0) k) * w (ix2 (n0 := 14336) (n1 := 4096) (j 1) k)

@[simp] theorem proj_apply (x : (⟨2, ![256, 4096]⟩ : Shape).Idx → EReal)
    (w : (⟨2, ![14336, 4096]⟩ : Shape).Idx → EReal) (t : Fin 256) (i : Fin 14336) :
    proj x w (ix2 t i) = ∑ k : Fin 4096, x (ix2 t k) * w (ix2 i k) := rfl

/-- The hidden activation: `(g * logistic g) * u` with `g = proj x w1` (the gate) and `u = proj x w3`. -/
def hid (x : (⟨2, ![256, 4096]⟩ : Shape).Idx → EReal) (w1 w3 : (⟨2, ![14336, 4096]⟩ : Shape).Idx → EReal) :
    (⟨2, ![256, 14336]⟩ : Shape).Idx → EReal :=
  fun j => (proj x w1 j * Ideal.logistic (proj x w1 j)) * proj x w3 j

@[simp] theorem hid_apply (x : (⟨2, ![256, 4096]⟩ : Shape).Idx → EReal)
    (w1 w3 : (⟨2, ![14336, 4096]⟩ : Shape).Idx → EReal) (t : Fin 256) (i : Fin 14336) :
    hid x w1 w3 (ix2 t i)
      = ((∑ k : Fin 4096, x (ix2 t k) * w1 (ix2 i k)) * Ideal.logistic (∑ k : Fin 4096, x (ix2 t k) * w1 (ix2 i k)))
        * ∑ k : Fin 4096, x (ix2 t k) * w3 (ix2 i k) := rfl

/-- The result: entry `(t, h)` is `∑ i, hid (t, i) * w2 (h, i)` over the 14336 hidden columns. -/
def out (x : (⟨2, ![256, 4096]⟩ : Shape).Idx → EReal) (w1 w3 : (⟨2, ![14336, 4096]⟩ : Shape).Idx → EReal)
    (w2 : (⟨2, ![4096, 14336]⟩ : Shape).Idx → EReal) : (⟨2, ![256, 4096]⟩ : Shape).Idx → EReal :=
  fun j => ∑ i : Fin 14336, hid x w1 w3 (ix2 (n0 := 256) (n1 := 14336) (j 0) i)
    * w2 (ix2 (n0 := 4096) (n1 := 14336) (j 1) i)

@[simp] theorem out_apply (x : (⟨2, ![256, 4096]⟩ : Shape).Idx → EReal)
    (w1 w3 : (⟨2, ![14336, 4096]⟩ : Shape).Idx → EReal) (w2 : (⟨2, ![4096, 14336]⟩ : Shape).Idx → EReal)
    (t : Fin 256) (h : Fin 4096) :
    out x w1 w3 w2 (ix2 t h) = ∑ i : Fin 14336, hid x w1 w3 (ix2 t i) * w2 (ix2 h i) := rfl

/-- The layer depends on its weights only through their entries. -/
theorem out_congr (x : (⟨2, ![256, 4096]⟩ : Shape).Idx → EReal)
    {w1 w1' w3 w3' : (⟨2, ![14336, 4096]⟩ : Shape).Idx → EReal} {w2 w2' : (⟨2, ![4096, 14336]⟩ : Shape).Idx → EReal}
    (h1 : ∀ j, w1 j = w1' j) (h3 : ∀ j, w3 j = w3' j) (h2 : ∀ j, w2 j = w2' j) :
    out x w1 w3 w2 = out x w1' w3' w2' := by
  rw [funext h1, funext h3, funext h2]

/-- THE SPECIFICATION IN EITHER ARRANGEMENT: with every scale and zero point finite, the layer over weights
    dequantised as `q * s - s * z` is the layer over weights dequantised as `(q - z) * s`. -/
theorem spec_eq (x : (⟨2, ![256, 4096]⟩ : Shape).Idx → EReal)
    (q1 q3 : (⟨2, ![14336, 4096]⟩ : Shape).Idx → BitVec 32) (s1 z1 s3 z3 : (⟨2, ![14336, 64]⟩ : Shape).Idx → EReal)
    (q2 : (⟨2, ![4096, 14336]⟩ : Shape).Idx → BitVec 32) (s2 z2 : (⟨2, ![4096, 224]⟩ : Shape).Idx → EReal)
    (hs1 : ∀ j, ∃ u : ℝ, s1 j = (u : EReal)) (hz1 : ∀ j, ∃ u : ℝ, z1 j = (u : EReal))
    (hs3 : ∀ j, ∃ u : ℝ, s3 j = (u : EReal)) (hz3 : ∀ j, ∃ u : ℝ, z3 j = (u : EReal))
    (hs2 : ∀ j, ∃ u : ℝ, s2 j = (u : EReal)) (hz2 : ∀ j, ∃ u : ℝ, z2 j = (u : EReal)) :
    out x (deqK grp64 q1 s1 z1) (deqK grp64 q3 s3 z3) (deqK grp224 q2 s2 z2)
      = out x (deqR grp64 q1 s1 z1) (deqR grp64 q3 s3 z3) (deqR grp224 q2 s2 z2) := by
  rw [deqK_eq_deqR grp64 q1 s1 z1 hs1 hz1, deqK_eq_deqR grp64 q3 s3 z3 hs3 hz3, deqK_eq_deqR grp224 q2 s2 z2 hs2 hz2]

end Cert.Math

end
-- ==== Proof.Payload.LibGroupedAxis.lean ====
/-
  The last axis of a rank-2 array split into consecutive groups, and joined back, read at an index: the layouts of
  `x.reshape(a, b, n)` of an `[a, b * n]` array and of `v.reshape(a, b * n)` of an `[a, b, n]` array.

  Row-major positions decide both.  Entry `(i, g, l)` of the split array sits at position `(i * b + g) * n + l`,
  which is `i * c + (g * n + l)` when `c = b * n`: it is the operand's entry `(i, g * n + l)`.  Entry `(i, k)` of the
  joined array sits at `i * c + k`, which is `(i * b + k / n) * n + k % n`: it is the operand's entry
  `(i, k / n, k % n)`, column `k` lying in group `k / n` at offset `k % n`.
-/
import Idealize.ShloMosaic.Lib.Pipeline.Value
import Idealize.ShloMosaic.Lib.ValueIdx

noncomputable section

namespace Idealize.ShloMosaic.GroupedAxis

open Idealize.ShloMosaic Idealize.ShloMosaic.ValueIdx

variable {α : Type}

/-- Column `g * n + l` of a row of `c = b * n` columns, for a group `g < b` and an offset `l < n`. -/
def col {b n c : ℕ} (hc : c = b * n) (g : Fin b) (l : Fin n) : Fin c :=
  ⟨g.val * n + l.val, by
    have hg := g.isLt; have hl := l.isLt
    have h1 : g.val * n + n ≤ b * n := by
      have : (g.val + 1) * n ≤ b * n := Nat.mul_le_mul_right n hg
      rw [Nat.add_mul, Nat.one_mul] at this; exact this
    rw [hc]; omega⟩

/-- The group `k / n` of column `k` among `c = b * n` columns. -/
def group {b n c : ℕ} (hc : c = b * n) (hn : 0 < n) (k : Fin c) : Fin b :=
  ⟨k.val / n, by
    have hk : k.val < b * n := hc ▸ k.isLt
    exact (Nat.div_lt_iff_lt_mul hn).mpr hk⟩

/-- The offset `k % n` of column `k` inside its group. -/
def offset {n c : ℕ} (hn : 0 < n) (k : Fin c) : Fin n := ⟨k.val % n, Nat.mod_lt _ hn⟩

/-- An `[a, c]` array split to `[a, b, n]` (`c = b * n`) reads, at `(i, g, l)`, the operand at `(i, g * n + l)`. -/
theorem shapeCast_split_apply {a b n c : ℕ} (hc : c = b * n) (x : (⟨2, ![a, c]⟩ : Shape).Idx → α)
    (h : (⟨2, ![a, c]⟩ : Shape).ShapeCasts ⟨3, ![a, b, n]⟩) (i : Fin a) (g : Fin b) (l : Fin n) :
    shapeCast ⟨3, ![a, b, n]⟩ x h (ix3 i g l) = x (ix2 i (col hc g l)) :=
  shapeCast_apply x h _ _ (by
    rw [Shape.rowMajor_val_two, Shape.rowMajor_val_three]
    show i.val * c + (g.val * n + l.val) = (i.val * b + g.val) * n + l.val
    rw [hc, Nat.add_mul, Nat.mul_assoc, Nat.add_assoc])

/-- An `[a, b, n]` array joined to `[a, c]` (`c = b * n`) reads, at `(i, k)`, the operand at `(i, k / n, k % n)`. -/
theorem shapeCast_join_apply {a b n c : ℕ} (hc : c = b * n) (hn : 0 < n) (v : (⟨3, ![a, b, n]⟩ : Shape).Idx → α)
    (h : (⟨3, ![a, b, n]⟩ : Shape).ShapeCasts ⟨2, ![a, c]⟩) (i : Fin a) (k : Fin c) :
    shapeCast ⟨2, ![a, c]⟩ v h (ix2 i k) = v (ix3 i (group hc hn k) (offset hn k)) :=
  shapeCast_apply v h _ _ (by
    rw [Shape.rowMajor_val_three, Shape.rowMajor_val_two]
    show (i.val * b + k.val / n) * n + k.val % n = i.val * c + k.val
    have e : k.val / n * n + k.val % n = k.val := Nat.div_add_mod' k.val n
    generalize k.val = kv at e ⊢
    rw [hc, Nat.add_mul, Nat.mul_assoc, Nat.add_assoc, e])

/-- Splitting then rejoining lands on the same column: column `k` is offset `k % n` of group `k / n`. -/
theorem col_group_offset {b n c : ℕ} (hc : c = b * n) (hn : 0 < n) (k : Fin c) :
    col hc (group hc hn k) (offset hn k) = k :=
  Fin.ext (Nat.div_add_mod' k.val n)

end Idealize.ShloMosaic.GroupedAxis

end
-- ==== Proof.Payload.LibTrailingUnitAxis.lean ====
/-
  A trailing unit axis added by a shape cast and then spread by a broadcast, read at an index: the layout of
  `x[:, :, None]` broadcast along a new last axis.

  An `[a, b]` array cast to `[a, b, 1]` reads, at `(i, j, u)`, the operand at `(i, j)`: the two indices have the same
  row-major position, the unit coordinate being zero.  An `[a, b, 1]` array broadcast to `[a, b, n]` reads, at
  `(i, j, l)`, the operand at `(i, j, 0)`: the first two axes are kept and the unit axis is repeated.  Composed, the cast
  then the broadcast of `g` read `g (i, j)` at every `(i, j, l)`.
-/
import Idealize.ShloMosaic.Lib.Pipeline.Value
import Idealize.ShloMosaic.Lib.ValueIdx

noncomputable section

namespace Idealize.ShloMosaic.TrailingUnitAxis

open Idealize.ShloMosaic Idealize.ShloMosaic.ValueIdx

variable {α : Type}

/-- An `[a, b]` array cast to `[a, b, 1]` reads, at `(i, j, u)`, the operand at `(i, j)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, n]` reads, at `(i, j, l)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (l : Fin n) :
    broadcastTo ⟨3, ![a, b, n]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The cast then the broadcast: `g` repeated along the new last axis. -/
theorem broadcastTo_shapeCast_apply {a b n : ℕ} (g : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, n]⟩)
    (i : Fin a) (j : Fin b) (l : Fin n) :
    broadcastTo ⟨3, ![a, b, n]⟩ (shapeCast ⟨3, ![a, b, 1]⟩ g hc) hb (ix3 i j l) = g (ix2 i j) := by
  rw [broadcastTo_ab1_abn_apply, shapeCast_ab_ab1_apply]

end Idealize.ShloMosaic.TrailingUnitAxis

end
-- ==== Proof.Payload.Dequant.lean ====
/-
  The dequantised weight read at an index.

  A weight matrix is stored as integer codes `w` of shape `[a, c]`, the `c = b * n` columns of a row lying in `b`
  consecutive groups of `n`; each row has one scale and one offset per group, `s` and `z` of shape `[a, b]`.  The
  dequantised entry `(i, k)` is the code, read as a signed integer, times the scale of column `k`'s group `k / n`,
  minus that group's offset.

  The program computes it through a three-axis view: the codes are converted and split to `[a, b, n]`, the two tables
  get a trailing unit axis and are repeated along it, the arithmetic is pointwise on `[a, b, n]`, and the result is
  joined back to `[a, c]`.  Read at `(i, k)`: the joined array reads the three-axis one at `(i, k / n, k % n)`; there the
  split codes read column `(k / n) * n + k % n = k` and the repeated tables read entry `(i, k / n)`.
-/
import Idealize.ShloMosaic.Lib.ValueIdx
import Idealize.ShloMosaic.Lib.Pipeline.Value
import Idealize.ShloMosaic.Lib.ValueLayout
import Idealize.ShloMosaic.PureOps.Ideal.Laws
import proofs.«118103_j88287347736657_2_alg».proof.Proof.Payload.LibGroupedAxis
import proofs.«118103_j88287347736657_2_alg».proof.Proof.Payload.LibTrailingUnitAxis

noncomputable section

namespace Cert.KernelIdeal.Payload

open Idealize.ShloMosaic Idealize.ShloMosaic.ValueIdx
open scoped BigOperators

/-- Entry `(i, k)` of the dequantised weight: the code at `(i, k)` as a signed integer, times the scale of the group
    `k / n` of row `i`, minus that group's offset. -/
def wK {a b c : ℕ} (n : ℕ) (hc : c = b * n) (hn : 0 < n) (w : IVec ⟨2, ![a, c]⟩ 32)
    (s z : (⟨2, ![a, b]⟩ : Shape).Idx → EReal) (i : Fin a) (k : Fin c) : EReal :=
  (((w (ix2 i k)).toInt : ℝ) : EReal) * s (ix2 i (GroupedAxis.group hc hn k)) - z (ix2 i (GroupedAxis.group hc hn k))

/-- The inner product of a row of activations with a row of weights. -/
def dotRow {K : ℕ} (x w : Fin K → EReal) : EReal := ∑ k : Fin K, x k * w k

/-- The group of a column is its quotient by the group size. -/
theorem group_val {b n c : ℕ} (hc : c = b * n) (hn : 0 < n) (k : Fin c) :
    (GroupedAxis.group hc hn k).val = k.val / n := rfl

/-- The program's three-axis computation of the dequantised weight, read at `(i, k)`. -/
theorem dequant_apply {a b n c : ℕ} (hc : c = b * n) (hn : 0 < n) (w : IVec ⟨2, ![a, c]⟩ 32)
    (s z : FVec Ideal ⟨2, ![a, b]⟩ .f32)
    (h1 : (⟨2, ![a, c]⟩ : Shape).ShapeCasts ⟨3, ![a, b, n]⟩)
    (h2 : (⟨2, ![a, b]⟩ : Shape).ShapeCasts ⟨3, ![a, b, 1]⟩)
    (h3 : (⟨3, ![a, b, 1]⟩ : Shape).Broadcasts ⟨3, ![a, b, n]⟩)
    (h4 : (⟨3, ![a, b, n]⟩ : Shape).ShapeCasts ⟨2, ![a, c]⟩) (i : Fin a) (k : Fin c) :
    shapeCast ⟨2, ![a, c]⟩
        (subf
          (mulf (shapeCast ⟨3, ![a, b, n]⟩ (sitofp (F := Ideal) .f32 w) h1)
            (broadcastTo ⟨3, ![a, b, n]⟩ (shapeCast ⟨3, ![a, b, 1]⟩ s h2) h3))
          (broadcastTo ⟨3, ![a, b, n]⟩ (shapeCast ⟨3, ![a, b, 1]⟩ z h2) h3))
        h4 (ix2 i k)
      = wK n hc hn w s z i k := by
  rw [GroupedAxis.shapeCast_join_apply hc hn, subf_apply, mulf_apply,
    TrailingUnitAxis.broadcastTo_shapeCast_apply, TrailingUnitAxis.broadcastTo_shapeCast_apply,
    GroupedAxis.shapeCast_split_apply hc, sitofp_apply, GroupedAxis.col_group_offset]
  rfl

end Cert.KernelIdeal.Payload

end
-- ==== Proof.Payload.LibMatmulLastAxis.lean ====
/-
  A matrix product that contracts the LAST axis of both rank-2 operands (`x @ w.T`: an `M × K` left operand, an
  `N × K` right operand, an `M × N` result, dimension numbers `<[1], [1], [0], [0], [0, 0, 1, 0], [], []>`), read
  at one entry over the extended reals.

  Whatever record of dimension numbers carries those six lists, the left operand is read at row `p` of the result
  index and column `k` of the contraction, the right operand at row `q` and column `k`; the contraction index
  is one coordinate, so the sum over it is a sum over `Fin K`. Into a zero accumulator the product's entry
  `(p, q)` is therefore `∑ k, l (p, k) · r (q, k)`; into any accumulator it is the accumulator's entry plus that
  sum.
-/
import Idealize.ShloMosaic.PureOps.Ideal
import Idealize.ShloMosaic.PureOps.Ideal.Laws
import Idealize.ShloMosaic.Lib.ValueIdx

noncomputable section

namespace Idealize.ShloMosaic.MatmulLastAxis

open Idealize.ShloMosaic Idealize.ShloMosaic.ValueIdx
open scoped BigOperators

variable {M N K : Nat}

/-- The six lists of dimension numbers of `x @ w.T`. -/
structure IsLastAxis (D : DotDims ⟨2, ![M, K]⟩ ⟨2, ![N, K]⟩ ⟨2, ![M, N]⟩) : Prop where
  lc : D.lhsContracting = [1]
  rc : D.rhsContracting = [1]
  ln : D.lhsNonContracting = [0]
  rn : D.rhsNonContracting = [0]
  lb : D.lhsBatch = []
  rb : D.rhsBatch = []

variable {D : DotDims ⟨2, ![M, K]⟩ ⟨2, ![N, K]⟩ ⟨2, ![M, N]⟩}

theorem IsLastAxis.rank_contr (h : IsLastAxis D) : D.contr.rank = 1 := by
  rw [D.rank_contr, h.lc]; rfl

theorem IsLastAxis.size_contr (h : IsLastAxis D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsLastAxis.lhs_row (h : IsLastAxis D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's row is the result's column. -/
theorem IsLastAxis.rhs_row (h : IsLastAxis D) (j : (⟨2, ![M, N]⟩ : Shape).Idx) (k : D.contr.Idx) :
    (D.rhsIdx j k 0).val = (j 1).val := by
  have hb : (0 : Fin (⟨2, ![N, K]⟩ : Shape).rank) ∉ D.rhsBatch := by rw [h.rb]; exact List.not_mem_nil
  have hn : (0 : Fin (⟨2, ![N, K]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsLastAxis.contrEquiv (h : IsLastAxis D) : D.contr.Idx ≃ Fin K :=
  contrEquiv1 D K h.rank_contr h.size_contr

/-- The two operands' indices at result entry `(p, q)` and contraction coordinate `k`. -/
theorem IsLastAxis.lhsIdx_eq (h : IsLastAxis D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsLastAxis.rhsIdx_eq (h : IsLastAxis D) (p : Fin M) (q : Fin N) (k : Fin K) :
    D.rhsIdx (ix2 p q) (h.contrEquiv.symm k) = ix2 q k := by
  funext a
  apply Fin.ext
  match a with
  | ⟨0, _⟩ => exact h.rhs_row (ix2 p q) _
  | ⟨1, _⟩ =>
    show (D.rhsIdx (ix2 p q) (h.contrEquiv.symm k) 1).val = k.val
    rw [D.rhsIdx_val_of_single h.rc]
    exact contrEquiv1_symm_val D K h.rank_contr h.size_contr k

/-- The product into an accumulator, read at entry `(p, q)`: the accumulator there plus the sum over the shared last
    axis of the operands' products. -/
theorem matmul_apply (h : IsLastAxis D) {φ₁ φ₂ : FTy} (prec : Option ContractPrecision)
    (l : FVec Ideal ⟨2, ![M, K]⟩ φ₁) (r : FVec Ideal ⟨2, ![N, K]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 q k) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsLastAxis D) {φ₁ φ₂ : FTy} (prec : Option ContractPrecision)
    (l : FVec Ideal ⟨2, ![M, K]⟩ φ₁) (r : FVec Ideal ⟨2, ![N, K]⟩ φ₂) (p : Fin M) (q : Fin N) :
    FloatOps.matmul D prec l r (constant ⟨2, ![M, N]⟩ .f32 0x00000000#32) (ix2 p q)
      = ∑ k : Fin K, l (ix2 p k) * r (ix2 q k) := by
  rw [matmul_apply h]
  show Ideal.ofBits .f32 0x00000000#32 + _ = _
  rw [Ideal.ofBits_zero_f32, zero_add]

end Idealize.ShloMosaic.MatmulLastAxis

end
-- ==== Proof.Payload.Gate.lean ====
/-
  The gate/up body's stored values read at an index.

  The body holds an activation block `v0` (`[256, 4096]`) and two quantised weight blocks of 256 rows, the gate
  weight (codes `v2`, scales `v3`, offsets `v4`) and the up weight (codes `v16`, scales `v17`, offsets `v18`), each row's
  4096 columns lying in 64 groups of 64.  It dequantises both, multiplies the activations with each along the shared
  last axis, and stores `(g * logistic g) * u`, where `g` is the gate product and `u` the up product.  So the stored
  entry `(p, q)` is that expression of
  `g = ∑ k, v0 (p, k) * (code (q, k) * scale (q, k / 64) - offset (q, k / 64))` and the like sum `u`.
  The changes of float format on the way are the identity on the extended reals.
-/
import proofs.«118103_j88287347736657_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«118103_j88287347736657_2_alg».proof.Proof.Payload.Dequant
import proofs.«118103_j88287347736657_2_alg».proof.Proof.Payload.LibMatmulLastAxis
import proofs.«118103_j88287347736657_2_alg».proof.Proof.Math.Spec

noncomputable section

namespace Cert.KernelIdeal.Payload

open Idealize.ShloMosaic Idealize.ShloMosaic.ValueIdx Idealize.SL.Sem
open scoped BigOperators
open Cert.Math (grp64)

/-- Entry `(q, k)` of a dequantised gate or up weight: the code at `(q, k)` as a signed integer, times the scale at
    `(q, k / 64)`, minus the offset at `(q, k / 64)`. -/
def wK64 (w : IVec S256x4096 32) (s z : S256x64.Idx → EReal) (q : Fin 256) (k : Fin 4096) : EReal :=
  (((w (ix2 q k)).toInt : ℝ) : EReal) * s (ix2 q (grp64 k)) - z (ix2 q (grp64 k))

/-- Entry `(p, q)` of the activations times a dequantised weight: row `p` of the one against row `q` of the other. -/
def projDot (v0 : S256x4096.Idx → EReal) (w : IVec S256x4096 32) (s z : S256x64.Idx → EReal) (p q : Fin 256) : EReal :=
  dotRow (fun k : Fin 4096 => v0 (ix2 p k)) (wK64 w s z q)

/-- The product's entry spelt out as the sum over the shared axis. -/
theorem projDot_eq_sum (v0 : S256x4096.Idx → EReal) (w : IVec S256x4096 32) (s z : S256x64.Idx → EReal) (p q : Fin 256) :
    projDot v0 w s z p q
      = ∑ k : Fin 4096, v0 (ix2 p k)
          * ((((w (ix2 q k)).toInt : ℝ) : EReal) * s (ix2 q (grp64 k)) - z (ix2 q (grp64 k))) := rfl

/-- The general dequantised entry at these extents. -/
theorem wK_eq_wK64 (w : IVec S256x4096 32) (s z : S256x64.Idx → EReal) (q : Fin 256) (k : Fin 4096) :
    wK (a := 256) (b := 64) (c := 4096) 64 rfl (by decide) w s z q k = wK64 w s z q k := rfl

/-- The logistic function applied lane by lane, on the extended reals. -/
theorem logistic_apply {s : Shape} {φ : FTy} (x : FVec Ideal s φ) (i : s.Idx) :
    logistic x i = Ideal.logistic (x i) := rfl

/-- The activations times a weight dequantised by the program's three-axis computation, read at `(p, q)`. -/
theorem matmul_dequant_apply (v0 : FVec Ideal S256x4096 .bf16) (w : IVec S256x4096 32) (s z : FVec Ideal S256x64 .f32)
    (h1 : S256x4096.ShapeCasts S256x64x64) (h2 : S256x64.ShapeCasts S256x64x1)
    (h3 : S256x64x1.Broadcasts S256x64x64) (h4 : S256x64x64.ShapeCasts S256x4096)
    (hlt : FTy.bits .bf16 < FTy.bits .f32) (p q : Fin 256) :
    matmul dot_S256x4096_S256x4096_S256x256_1_1_0_0_n_n none v0
        (truncf .bf16
          (shapeCast S256x4096
            (subf
              (mulf (shapeCast S256x64x64 (sitofp (F := Ideal) .f32 w) h1)
                (broadcastTo S256x64x64 (shapeCast S256x64x1 s h2) h3))
              (broadcastTo S256x64x64 (shapeCast S256x64x1 z h2) h3))
            h4)
          hlt)
        (constant S256x256 .f32 0x00000000#32) (ix2 p q)
      = projDot v0 w s z p q := by
  refine (MatmulLastAxis.matmul_zero_apply (M := 256) (N := 256) (K := 4096) ⟨rfl, rfl, rfl, rfl, rfl, rfl⟩ none _ _ p q).trans ?_
  unfold projDot dotRow
  refine Finset.sum_congr rfl fun k _ => ?_
  rw [truncf_apply, dequant_apply (a := 256) (b := 64) (n := 64) (c := 4096) rfl (by decide), wK_eq_wK64]

/-- The stored block at `(p, q)`: `(g * logistic g) * u` of the gate product `g` and the up product `u` there. -/
theorem k0_pay1_apply (v0 : Vec Ideal S256x4096 .bf16) (v2 : Vec Ideal S256x4096 .i32) (v3 v4 : Vec Ideal S256x64 .f32)
    (v16 : Vec Ideal S256x4096 .i32) (v17 v18 : Vec Ideal S256x64 .f32) (p q : Fin 256) :
    Gen.k0_pay1 (F := Ideal) v0 v2 v3 v4 v16 v17 v18 (ix2 p q)
      = (projDot v0 v2 v3 v4 p q * Ideal.logistic (projDot v0 v2 v3 v4 p q)) * projDot v0 v16 v17 v18 p q := by
  unfold Gen.k0_pay1
  simp only [shapeCast_self]
  rw [truncf_apply, mulf_apply, mulf_apply, logistic_apply, matmul_dequant_apply, matmul_dequant_apply]

end Cert.KernelIdeal.Payload

end
-- ==== Proof.ValueIdeal.Region0Value.lean ====
/-
  The first region's output array as one function of the arrays the region finds, on the extended reals.

  The region walks 56 grid points. At point `t` it holds the whole activation array `x` (`[256, 4096]`), rows
  `256 t … 256 t + 255` of the gate weight's and of the up weight's integer codes (`[14336, 4096]`), of their
  per-group scales and of their per-group scaled zero points (`[14336, 64]`, a group being 64 consecutive columns),
  and it writes columns `256 t … 256 t + 255` of the output (`[256, 14336]`). The stored entry `(p, q)` of a point
  is `(g * logistic g) * u` of the two inner products of row `p` of `x` with row `q` of each dequantised weight
  block; read where the blocks lie in their arrays, that is entry `(p, 256 t + q)` of the hidden activation
  `Cert.Math.hid x w1 w3` with `w (r, k) = code (r, k) * scale (r, k / 64) - scaledZero (r, k / 64)`. The 56 column
  blocks tile the output, so after the region the output array is that function.
-/
import proofs.«118103_j88287347736657_2_alg».proof.Proof.FrameIdeal.Region0
import proofs.«118103_j88287347736657_2_alg».proof.Proof.Math.Spec
import proofs.«118103_j88287347736657_2_alg».proof.Proof.Payload.Gate
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- Entry `(r, k)` of a dequantised weight: the integer code there, times the scale of row `r`'s group `k / 64`,
    minus that group's zero point already multiplied by its scale. -/
def wZ (q : (⟨2, ![14336, 4096]⟩ : Shape).Idx → BitVec 32) (s zs : (⟨2, ![14336, 64]⟩ : Shape).Idx → EReal) :
    (⟨2, ![14336, 4096]⟩ : Shape).Idx → EReal :=
  fun j => (((q j).toInt : ℝ) : EReal) * s (ix2 (n0 := 14336) (n1 := 64) (j 0) (Cert.Math.grp64 (j 1)))
    - zs (ix2 (n0 := 14336) (n1 := 64) (j 0) (Cert.Math.grp64 (j 1)))

@[simp] theorem wZ_apply (q : (⟨2, ![14336, 4096]⟩ : Shape).Idx → BitVec 32) (s zs : (⟨2, ![14336, 64]⟩ : Shape).Idx → EReal)
    (r : Fin 14336) (k : Fin 4096) :
    wZ q s zs (ix2 r k) = (((q (ix2 r k)).toInt : ℝ) : EReal) * s (ix2 r (Cert.Math.grp64 k)) - zs (ix2 r (Cert.Math.grp64 k)) := rfl

example : Pipeline.arrRef spec0 0 = main_v0 := rfl
example : Pipeline.arrRef spec0 1 = main_arg1 := rfl
example : Pipeline.arrRef spec0 2 = main_arg2 := rfl
example : Pipeline.arrRef spec0 3 = main_v1 := rfl
example : Pipeline.arrRef spec0 4 = main_arg4 := rfl
example : Pipeline.arrRef spec0 5 = main_arg5 := rfl
example : Pipeline.arrRef spec0 6 = main_v2 := rfl
example : Pipeline.arrRef spec0 7 = main_v3 := rfl

theorem zero_offsets : (![0, 0] : Fin 2 → Nat) = fun _ => 0 := funext fun a => by fin_cases a <;> rfl

/-- The printed index maps over the 56 grid points: the activations' block never moves; each weight, scale and
    offset window walks the rows, block `t` at point `t`; the output window walks the columns. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = 0 ∧ win0_7.index t (1 : Fin 2) = t.val :=
  (by decide +kernel : ∀ t : Fin grid0.N, _)

/-! ## Each input block, read off its array -/

theorem iblk0_0_apply (c : Dev nD) (t : Fin cfg0.N) (y : S256x4096.Idx) (k : S256x4096.Idx)
    (hk0 : (k 0).val = (y 0).val) (hk1 : (k 1).val = (y 1).val) :
    (iblk0 V c 0 t : Vec Ideal S256x4096 .bf16) y = (V c main_v0 : S256x4096.Idx → Elt Ideal .bf16) k := by
  have e := block_indices t
  unfold iblk0
  rw [View.read_apply]
  show V c main_v0 _ = V c main_v0 _
  congr 1
  funext a
  apply Fin.ext
  match a with
  | ⟨0, _⟩ => show win0_0.index t (0 : Fin 2) * 256 + 1 * (y 0).val = (k 0).val; omega
  | ⟨1, _⟩ => show win0_0.index t (1 : Fin 2) * 4096 + 1 * (y 1).val = (k 1).val; omega

theorem iblk0_1_apply (c : Dev nD) (t : Fin cfg0.N) (y : S256x4096.Idx) (k : S14336x4096.Idx)
    (hk0 : (k 0).val = 256 * t.val + (y 0).val) (hk1 : (k 1).val = (y 1).val) :
    (iblk0 V c 1 t : Vec Ideal S256x4096 .i32) y = (V c main_arg1 : S14336x4096.Idx → Elt Ideal .i32) k := by
  have e := block_indices t
  unfold iblk0
  rw [View.read_apply]
  show V c main_arg1 _ = V c main_arg1 _
  congr 1
  funext a
  apply Fin.ext
  match a with
  | ⟨0, _⟩ => show win0_1.index t (0 : Fin 2) * 256 + 1 * (y 0).val = (k 0).val; omega
  | ⟨1, _⟩ => show win0_1.index t (1 : Fin 2) * 4096 + 1 * (y 1).val = (k 1).val; omega

theorem iblk0_2_apply (c : Dev nD) (t : Fin cfg0.N) (y : S256x64.Idx) (k : S14336x64.Idx)
    (hk0 : (k 0).val = 256 * t.val + (y 0).val) (hk1 : (k 1).val = (y 1).val) :
    (iblk0 V c 2 t : Vec Ideal S256x64 .f32) y = (V c main_arg2 : S14336x64.Idx → Elt Ideal .f32) k := by
  have e := block_indices t
  unfold iblk0
  rw [View.read_apply]
  show V c main_arg2 _ = V c main_arg2 _
  congr 1
  funext a
  apply Fin.ext
  match a with
  | ⟨0, _⟩ => show win0_2.index t (0 : Fin 2) * 256 + 1 * (y 0).val = (k 0).val; omega
  | ⟨1, _⟩ => show win0_2.index t (1 : Fin 2) * 64 + 1 * (y 1).val = (k 1).val; omega

theorem iblk0_3_apply (c : Dev nD) (t : Fin cfg0.N) (y : S256x64.Idx) (k : S14336x64.Idx)
    (hk0 : (k 0).val = 256 * t.val + (y 0).val) (hk1 : (k 1).val = (y 1).val) :
    (iblk0 V c 3 t : Vec Ideal S256x64 .f32) y = (V c main_v1 : S14336x64.Idx → Elt Ideal .f32) k := by
  have e := block_indices t
  unfold iblk0
  rw [View.read_apply]
  show V c main_v1 _ = V c main_v1 _
  congr 1
  funext a
  apply Fin.ext
  match a with
  | ⟨0, _⟩ => show win0_3.index t (0 : Fin 2) * 256 + 1 * (y 0).val = (k 0).val; omega
  | ⟨1, _⟩ => show win0_3.index t (1 : Fin 2) * 64 + 1 * (y 1).val = (k 1).val; omega

theorem iblk0_4_apply (c : Dev nD) (t : Fin cfg0.N) (y : S256x4096.Idx) (k : S14336x4096.Idx)
    (hk0 : (k 0).val = 256 * t.val + (y 0).val) (hk1 : (k 1).val = (y 1).val) :
    (iblk0 V c 4 t : Vec Ideal S256x4096 .i32) y = (V c main_arg4 : S14336x4096.Idx → Elt Ideal .i32) k := by
  have e := block_indices t
  unfold iblk0
  rw [View.read_apply]
  show V c main_arg4 _ = V c main_arg4 _
  congr 1
  funext a
  apply Fin.ext
  match a with
  | ⟨0, _⟩ => show win0_4.index t (0 : Fin 2) * 256 + 1 * (y 0).val = (k 0).val; omega
  | ⟨1, _⟩ => show win0_4.index t (1 : Fin 2) * 4096 + 1 * (y 1).val = (k 1).val; omega

theorem iblk0_5_apply (c : Dev nD) (t : Fin cfg0.N) (y : S256x64.Idx) (k : S14336x64.Idx)
    (hk0 : (k 0).val = 256 * t.val + (y 0).val) (hk1 : (k 1).val = (y 1).val) :
    (iblk0 V c 5 t : Vec Ideal S256x64 .f32) y = (V c main_arg5 : S14336x64.Idx → Elt Ideal .f32) k := by
  have e := block_indices t
  unfold iblk0
  rw [View.read_apply]
  show V c main_arg5 _ = V c main_arg5 _
  congr 1
  funext a
  apply Fin.ext
  match a with
  | ⟨0, _⟩ => show win0_5.index t (0 : Fin 2) * 256 + 1 * (y 0).val = (k 0).val; omega
  | ⟨1, _⟩ => show win0_5.index t (1 : Fin 2) * 64 + 1 * (y 1).val = (k 1).val; omega

theorem iblk0_6_apply (c : Dev nD) (t : Fin cfg0.N) (y : S256x64.Idx) (k : S14336x64.Idx)
    (hk0 : (k 0).val = 256 * t.val + (y 0).val) (hk1 : (k 1).val = (y 1).val) :
    (iblk0 V c 6 t : Vec Ideal S256x64 .f32) y = (V c main_v2 : S14336x64.Idx → Elt Ideal .f32) k := by
  have e := block_indices t
  unfold iblk0
  rw [View.read_apply]
  show V c main_v2 _ = V c main_v2 _
  congr 1
  funext a
  apply Fin.ext
  match a with
  | ⟨0, _⟩ => show win0_6.index t (0 : Fin 2) * 256 + 1 * (y 0).val = (k 0).val; omega
  | ⟨1, _⟩ => show win0_6.index t (1 : Fin 2) * 64 + 1 * (y 1).val = (k 1).val; omega

/-! ## What one grid point stores, as entries of one whole-array function -/

/-- The hidden activation of the layer over the arrays as the region finds them: the activations against the two
    weights dequantised entry by entry. -/
def hidArr (c : Dev nD) : (⟨2, ![256, 14336]⟩ : Shape).Idx → EReal :=
  Cert.Math.hid (V c main_v0) (wZ (V c main_arg1) (V c main_arg2) (V c main_v1))
    (wZ (V c main_arg4) (V c main_arg5) (V c main_v2))

/-- The body's stored entry `(p, q)` at the grid point whose weight blocks are rows `256 n … 256 n + 255`: entry
    `(p, 256 n + q)` of the hidden activation. The blocks are variables; the hypotheses say where each reads its array. -/
theorem stored_entry (x0 : Vec Ideal S256x4096 .bf16) (x1 : Vec Ideal S256x4096 .i32) (x2 x3 : Vec Ideal S256x64 .f32)
    (x4 : Vec Ideal S256x4096 .i32) (x5 x6 : Vec Ideal S256x64 .f32)
    (A : (⟨2, ![256, 4096]⟩ : Shape).Idx → EReal) (Q1 Q3 : (⟨2, ![14336, 4096]⟩ : Shape).Idx → BitVec 32)
    (S1 Z1 S3 Z3 : (⟨2, ![14336, 64]⟩ : Shape).Idx → EReal)
    (n : ℕ) (hn : n < 56)
    (h0 : ∀ (p : Fin 256) (k : Fin 4096), x0 (ix2 p k) = A (ix2 p k))
    (h1 : ∀ (r : Fin 256) (k : Fin 4096), x1 (ix2 r k) = Q1 (ix2 (⟨256 * n + r.val, by omega⟩ : Fin 14336) k))
    (h2 : ∀ (r : Fin 256) (g : Fin 64), x2 (ix2 r g) = S1 (ix2 (⟨256 * n + r.val, by omega⟩ : Fin 14336) g))
    (h3 : ∀ (r : Fin 256) (g : Fin 64), x3 (ix2 r g) = Z1 (ix2 (⟨256 * n + r.val, by omega⟩ : Fin 14336) g))
    (h4 : ∀ (r : Fin 256) (k : Fin 4096), x4 (ix2 r k) = Q3 (ix2 (⟨256 * n + r.val, by omega⟩ : Fin 14336) k))
    (h5 : ∀ (r : Fin 256) (g : Fin 64), x5 (ix2 r g) = S3 (ix2 (⟨256 * n + r.val, by omega⟩ : Fin 14336) g))
    (h6 : ∀ (r : Fin 256) (g : Fin 64), x6 (ix2 r g) = Z3 (ix2 (⟨256 * n + r.val, by omega⟩ : Fin 14336) g))
    (j : S256x256.Idx) (i : S256x14336.Idx) (hi0 : (i 0).val = (j 0).val) (hi1 : (i 1).val = 256 * n + (j 1).val) :
    k0_pay1 (F := Ideal) x0 x1 x2 x3 x4 x5 x6 j = Cert.Math.hid A (wZ Q1 S1 Z1) (wZ Q3 S3 Z3) i := by
  obtain ⟨p, q, rfl⟩ : ∃ (p q : Fin 256), j = ix2 p q := ⟨j 0, j 1, eq_ix2 j⟩
  have hq : 256 * n + q.val < 14336 := by have := q.isLt; omega
  obtain ⟨p', i', rfl⟩ : ∃ (p' : Fin 256) (i' : Fin 14336), i = ix2 p' i' := ⟨i 0, i 1, eq_ix2 i⟩
  obtain rfl : p' = p := Fin.ext hi0
  obtain rfl : i' = (⟨256 * n + q.val, hq⟩ : Fin 14336) := Fin.ext hi1
  rw [Payload.k0_pay1_apply, Cert.Math.hid_apply]
  unfold Payload.projDot Payload.dotRow Payload.wK64
  simp only [h0, h1, h2, h3, h4, h5, h6, wZ_apply]

/-- WHAT POINT `t` WRITES BACK is block `t` of the hidden activation of the arrays as the region finds them. -/
theorem flushed7_eq (c : Dev nD) (t : Fin cfg0.N) :
    (dat0 V c).flushed 7 t = ((cfg0.win 7).blk t).view.read (Elt Ideal) (hidArr V c) := by
  have hN : cfg0.N = 56 := N_0
  have ht : t.val < 56 := hN ▸ t.isLt
  have e := block_indices t
  show (cfg0.win 7).cut (grid0.coords t) ((dat0 V c).after 7 t) = _
  rw [after0_7]
  unfold out0_7
  rw [View.canon_unit_zero zero_offsets]
  simp only [View.ld_unit_zero (S := S256x4096) zero_offsets, View.ld_unit_zero (S := S256x64) zero_offsets]
  funext j
  show k0_pay1 (F := Ideal) (iblk0 V c 0 t) (iblk0 V c 1 t) (iblk0 V c 2 t) (iblk0 V c 3 t) (iblk0 V c 4 t) (iblk0 V c 5 t) (iblk0 V c 6 t) j
    = hidArr V c (((cfg0.win 7).blk t).view.emb j)
  unfold hidArr
  refine stored_entry _ _ _ _ _ _ _ _ _ _ _ _ _ _ t.val ht
    (fun p k => iblk0_0_apply V c t _ _ rfl rfl)
    (fun r k => iblk0_1_apply V c t _ _ rfl rfl)
    (fun r g => iblk0_2_apply V c t _ _ rfl rfl)
    (fun r g => iblk0_3_apply V c t _ _ rfl rfl)
    (fun r k => iblk0_4_apply V c t _ _ rfl rfl)
    (fun r g => iblk0_5_apply V c t _ _ rfl rfl)
    (fun r g => iblk0_6_apply V c t _ _ rfl rfl)
    j _ ?_ ?_
  · show win0_7.index t (0 : Fin 2) * 256 + 1 * (j 0).val = (j 0).val; omega
  · show win0_7.index t (1 : Fin 2) * 256 + 1 * (j 1).val = 256 * t.val + (j 1).val; omega

/-- An index of the output array is in point `t`'s block iff each coordinate is in the block's range on its axis. -/
theorem mem_blk7 (t : Fin cfg0.N) (i : S256x14336.Idx) :
    i ∈ ((cfg0.win 7).blk t).view.set ↔ ∀ a : Fin 2, win0_7.index t a * S256x256.size a ≤ (i a).val ∧ (i a).val < win0_7.index t a * S256x256.size a + S256x256.size a := by
  show i ∈ ((View.whole main_v3).slice (win0_7.rect t)).set ↔ _
  rw [View.set_slice_whole, Rect.mem_set_unit]
  exact Iff.rfl

/-- Every index of the output array is in some point's block: column `i` is written by point `i / 256`. -/
theorem covered7 (i : S256x14336.Idx) :
    ∃ t : Fin cfg0.N, (cfg0.win 7).flush t = true ∧ i ∈ ((cfg0.win 7).blk t).view.set := by
  have hN : cfg0.N = 56 := N_0
  have hi0 : (i 0).val < 256 := (i 0).isLt
  have hi1 : (i 1).val < 14336 := (i 1).isLt
  let t : Fin cfg0.N := ⟨(i 1).val / 256, by rw [hN]; omega⟩
  have e := block_indices t
  have htv : t.val = (i 1).val / 256 := rfl
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 256 ≤ (i 1).val ∧ (i 1).val < win0_7.index t (1 : Fin 2) * 256 + 256; omega

/-- THE OUTPUT ARRAY after the region: the hidden activation of the layer, as one function of the arrays the region
    finds. -/
theorem region0_array (c : Dev nD) :
    ((dat0 (F := Ideal) V c).arrAt 7 cfg0.N : S256x14336.Idx → EReal)
      = Cert.Math.hid (V c main_v0) (wZ (V c main_arg1) (V c main_arg2) (V c main_v1))
          (wZ (V c main_arg4) (V c main_arg5) (V c main_v2)) :=
  (dat0 V c).arrAt_eq_of_cover 7 (hidArr V c) (fun t _ => flushed7_eq V c t) covered7

/-- info: 'Cert.KernelIdeal.Hand.region0_array' depends on axioms: [propext, Classical.choice, Quot.sound] -/
#guard_msgs in #print axioms region0_array

end Cert.KernelIdeal.Hand

end
-- ==== Proof.ValueIdeal.HostStages.lean ====
/-
  The host operations around the two kernel regions, read at the ideal instance.

  Before the first region the program changes the activations' format (the identity on extended reals) and forms, once,
  the product scale · zero point of the first two weight matrices, entry by entry.  Between the regions it forms the
  same product for the third matrix and transposes that matrix's scale table and product table, so that entry
  `(g, h)` of a transposed table is entry `(h, g)` of the table.  No host operation writes an argument, and the first
  region writes none of the third matrix's arguments, so wherever an argument is read it is the launch array.
-/
import proofs.«118103_j88287347736657_2_alg».proof.Proof.FrameIdeal.Frame
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal

set_option maxRecDepth 16384

noncomputable section

namespace Cert.KernelIdeal.Hand

open Idealize.ShloMosaic Idealize.ShloMosaic.TcCoe Idealize.SL.Sem Idealize.ShloMosaic.Rounds
open Idealize.ShloMosaic.StableHlo Idealize.ShloMosaic.ValueIdx
open Cert.KernelIdeal Cert.KernelIdeal.Gen

variable (m : (ℓ : Loc nD τ sig) → Buf (Elt Ideal) ℓ) (ρ : Dev nD → PrngReg) (c : Dev nD)

/-! ## The launch arrays, each with its array type in view -/

/-- The activations at launch. -/
abbrev A_arg0 : S256x4096.Idx → EReal := m ((c : Thread nD τ).loc main_arg0)
/-- The first matrix's codes, scales and zero points at launch. -/
abbrev A_arg1 : S14336x4096.Idx → BitVec 32 := m ((c : Thread nD τ).loc main_arg1)
abbrev A_arg2 : S14336x64.Idx → EReal := m ((c : Thread nD τ).loc main_arg2)
abbrev A_arg3 : S14336x64.Idx → EReal := m ((c : Thread nD τ).loc main_arg3)
/-- The second matrix's. -/
abbrev A_arg4 : S14336x4096.Idx → BitVec 32 := m ((c : Thread nD τ).loc main_arg4)
abbrev A_arg5 : S14336x64.Idx → EReal := m ((c : Thread nD τ).loc main_arg5)
abbrev A_arg6 : S14336x64.Idx → EReal := m ((c : Thread nD τ).loc main_arg6)
/-- The third matrix's. -/
abbrev A_arg7 : S4096x14336.Idx → BitVec 32 := m ((c : Thread nD τ).loc main_arg7)
abbrev A_arg8 : S4096x224.Idx → EReal := m ((c : Thread nD τ).loc main_arg8)
abbrev A_arg9 : S4096x224.Idx → EReal := m ((c : Thread nD τ).loc main_arg9)

/-! ## Before the first region -/

/-- The activations in the narrower format are the activations. -/
theorem V1_main_v0 :
    (V1 m ρ c main_v0 : S256x4096.Idx → EReal) = A_arg0 m c := by
  dsimp only [V1, W1, hostOps0]
  after_results
  rfl

/-- The first matrix's product table: scale times zero point, entry by entry. -/
theorem V1_main_v1 :
    (V1 m ρ c main_v1 : S14336x64.Idx → EReal)
      = fun j => A_arg2 m c j * A_arg3 m c j := by
  dsimp only [V1, W1, hostOps0]
  after_results
  rfl

/-- The second matrix's product table. -/
theorem V1_main_v2 :
    (V1 m ρ c main_v2 : S14336x64.Idx → EReal)
      = fun j => A_arg5 m c j * A_arg6 m c j := by
  dsimp only [V1, W1, hostOps0]
  after_results
  rfl

/-- The arguments the first region reads are the launch arrays. -/
theorem V1_main_arg1 : V1 m ρ c main_arg1 = m ((c : Thread nD τ).loc main_arg1) :=
  StableHlo.after_of_writes_sub hostOps0 _ hostOps0_writes (by decide)
theorem V1_main_arg2 : V1 m ρ c main_arg2 = m ((c : Thread nD τ).loc main_arg2) :=
  StableHlo.after_of_writes_sub hostOps0 _ hostOps0_writes (by decide)
theorem V1_main_arg4 : V1 m ρ c main_arg4 = m ((c : Thread nD τ).loc main_arg4) :=
  StableHlo.after_of_writes_sub hostOps0 _ hostOps0_writes (by decide)
theorem V1_main_arg5 : V1 m ρ c main_arg5 = m ((c : Thread nD τ).loc main_arg5) :=
  StableHlo.after_of_writes_sub hostOps0 _ hostOps0_writes (by decide)

/-! ## Between the regions -/

/-- At the first region's exit the third matrix's arguments are still the launch arrays. -/
theorem W2_main_arg7 : W2 m ρ c (Proc.devRef .tc main_arg7) = m ((c : Thread nD τ).loc main_arg7) :=
  (W2_of_ne m ρ c main_arg7 (by decide)).trans (StableHlo.after_of_writes_sub hostOps0 _ hostOps0_writes (by decide))
theorem W2_main_arg8 : W2 m ρ c (Proc.devRef .tc main_arg8) = m ((c : Thread nD τ).loc main_arg8) :=
  (W2_of_ne m ρ c main_arg8 (by decide)).trans (StableHlo.after_of_writes_sub hostOps0 _ hostOps0_writes (by decide))
theorem W2_main_arg9 : W2 m ρ c (Proc.devRef .tc main_arg9) = m ((c : Thread nD τ).loc main_arg9) :=
  (W2_of_ne m ρ c main_arg9 (by decide)).trans (StableHlo.after_of_writes_sub hostOps0 _ hostOps0_writes (by decide))

/-- The second host stretch writes neither the third matrix's codes nor the first region's result. -/
theorem V3_main_arg7 : V3 m ρ c main_arg7 = m ((c : Thread nD τ).loc main_arg7) :=
  (StableHlo.after_of_writes_sub hostOps1 _ hostOps1_writes (by decide)).trans (W2_main_arg7 m ρ c)
theorem V3_main_v3 : V3 m ρ c main_v3 = V2 m ρ c main_v3 :=
  StableHlo.after_of_writes_sub hostOps1 _ hostOps1_writes (by decide)

/-- The transposed scale table as a whole: the transpose of the launch array. -/
theorem V3_main_v5 :
    (V3 m ρ c main_v5 : S224x4096.Idx → EReal)
      = transpose S224x4096 [1, 0] (A_arg8 m c) transposes_S4096x224_S224x4096_1_0 := by
  dsimp only [V3, W3, hostOps1]
  after_results
  rw [W2_main_arg8]

/-- The transposed product table as a whole: the transpose of scale times zero point. -/
theorem V3_main_v6 :
    (V3 m ρ c main_v6 : S224x4096.Idx → EReal)
      = transpose S224x4096 [1, 0] (fun j => A_arg8 m c j * A_arg9 m c j) transposes_S4096x224_S224x4096_1_0 := by
  dsimp only [V3, W3, hostOps1]
  after_results
  rw [W2_main_arg8, W2_main_arg9]
  rfl

/-- Entry `(g, h)` of the transposed scale table is the scale of row `h`, group `g`. -/
theorem V3_main_v5_apply (g : Fin 224) (h : Fin 4096) :
    (V3 m ρ c main_v5 : S224x4096.Idx → EReal) (ix2 g h)
      = A_arg8 m c (ix2 h g) := by
  rw [V3_main_v5, transpose_ix2_apply]

/-- Entry `(g, h)` of the transposed product table is scale times zero point of row `h`, group `g`. -/
theorem V3_main_v6_apply (g : Fin 224) (h : Fin 4096) :
    (V3 m ρ c main_v6 : S224x4096.Idx → EReal) (ix2 g h)
      = A_arg8 m c (ix2 h g) * A_arg9 m c (ix2 h g) := by
  rw [V3_main_v6, transpose_ix2_apply]

end Cert.KernelIdeal.Hand

end
-- ==== Proof.ValueIdeal.HiddenValue.lean ====
import proofs.«118103_j88287347736657_2_alg».proof.Proof.FrameIdeal.Frame
import proofs.«118103_j88287347736657_2_alg».proof.Proof.ValueIdeal.Region0Value
import proofs.«118103_j88287347736657_2_alg».proof.Proof.ValueIdeal.HostStages
import proofs.«118103_j88287347736657_2_alg».proof.Proof.Math.Spec

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen Cert.Math

variable (m : (ℓ : Loc nD τ sig) → Buf (Elt Ideal) ℓ) (ρ : Dev nD → PrngReg) (c : Dev nD)

/-- The kernel's weight entry — the integer code times its group's scale, minus the product of that scale and zero the
    host formed — is the specification's, entry by entry. -/
theorem wZ_eq_deqK (q : S14336x4096.Idx → BitVec 32) (s z : S14336x64.Idx → EReal) :
    wZ q s (fun j => s j * z j) = deqK grp64 q s z := by
  funext j
  obtain ⟨r, k, rfl⟩ : ∃ (r : Fin 14336) (k : Fin 4096), j = ix2 r k := ⟨j 0, j 1, eq_ix2 j⟩
  rw [wZ_apply, deqK_apply]

/-- THE HIDDEN LAYER as the second region finds it: the first region's output array, which no later host operation
    writes, is the specification's hidden layer of the launch arrays. -/
theorem hidden_value : (V3 m ρ c main_v3 : S256x14336.Idx → EReal)
    = hid (A_arg0 m c) (deqK grp64 (A_arg1 m c) (A_arg2 m c) (A_arg3 m c)) (deqK grp64 (A_arg4 m c) (A_arg5 m c) (A_arg6 m c)) := by
  rw [V3_main_v3]
  refine ((W2_arr m ρ c 7).trans (region0_array (V1 m ρ) c)).trans ?_
  rw [V1_main_v0, V1_main_v1, V1_main_v2, V1_main_arg1, V1_main_arg2, V1_main_arg4, V1_main_arg5]
  exact congrArg₂ (hid (A_arg0 m c)) (wZ_eq_deqK (A_arg1 m c) (A_arg2 m c) (A_arg3 m c)) (wZ_eq_deqK (A_arg4 m c) (A_arg5 m c) (A_arg6 m c))

end Cert.KernelIdeal.Hand

end
-- ==== Proof.ValueIdeal.Region1Value.lean ====
import proofs.«118103_j88287347736657_2_alg».proof.Proof.FrameIdeal.Region1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second kernel region's value: what the accumulator and the output block hold, as payload terms -/

theorem hz : (![0, 0] : Fin 2 → Nat) = fun _ => 0 := funext fun a => by fin_cases a <;> rfl

/-- A middle step leaves in the accumulator the accumulator it found plus the step's partial product. -/
theorem sout_B (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : ¬cond1_0 i) (hc1 : ¬cond1_1 i)
    (x0 : Vec F S256x512 .bf16) (x1 : Vec F S2048x512 .i32) (x2 : Vec F S8x2048 .f32) (x3 : Vec F S8x2048 .f32) (xs0 : Vec F S256x2048 .f32) :
    sout1_B_0 c i arg2 harg2 arg3 harg3 arg4 harg4 arg5 harg5 arg6 harg6 arg7 harg7 hc0 hc1 x0 x1 x2 x3 xs0 = k1_pay2 x0 x2 x3 x1 xs0 := by
  unfold sout1_B_0
  rw [View.read_writes_eq_canon _ _ _ (scover1_B_0 c i arg2 harg2 arg3 harg3 arg4 harg4 arg5 harg5 arg6 harg6 arg7 harg7 hc0 hc1 x0 x1 x2 x3 xs0)]
  unfold kernelRun1_B
  dsimp only
  try sl_unfold_words
  rw [View.canon_unit_zero hz]
  simp only [View.readAt_eq_ld, harg2.read_unread, harg3.read_unread, harg4.read_unread, harg5.read_unread, harg7.read_unread, View.ld_unit_zero (S := S256x512) hz, View.ld_unit_zero (S := S2048x512) hz, View.ld_unit_zero (S := S8x2048) hz, View.ld_unit_zero (S := S256x2048) hz]

/-- A first step leaves in the accumulator the zero block plus the step's partial product: the cleared accumulator is read
    back before the product is added. -/
theorem sout_A (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : cond1_0 i) (hc1 : ¬cond1_1 i)
    (x0 : Vec F S256x512 .bf16) (x1 : Vec F S2048x512 .i32) (x2 : Vec F S8x2048 .f32) (x3 : Vec F S8x2048 .f32) :
    sout1_A_0 c i arg2 harg2 arg3 harg3 arg4 harg4 arg5 harg5 arg6 harg6 arg7 harg7 hc0 hc1 x0 x1 x2 x3 = k1_pay2 x0 x2 x3 x1 (k1_pay1 (F := F)) := by
  unfold sout1_A_0
  rw [View.read_writes_eq_canon _ _ _ (scover1_A_0 c i arg2 harg2 arg3 harg3 arg4 harg4 arg5 harg5 arg6 harg6 arg7 harg7 hc0 hc1 x0 x1 x2 x3)]
  unfold kernelRun1_A
  dsimp only
  sl_unfold_words
  rw [View.canon_cons_unit_zero (S := S256x2048) hz, View.readCov_unit_zero (S := S256x2048) _ hz]
  simp only [View.readAt_eq_ld, harg2.read_unread, harg3.read_unread, harg4.read_unread, harg5.read_unread, harg7.read_unread, View.ld_unit_zero (S := S256x512) hz, View.ld_unit_zero (S := S2048x512) hz, View.ld_unit_zero (S := S8x2048) hz, View.ld_unit_zero (S := S256x2048) hz]

/-- A last step leaves in the accumulator what a middle step does, -/
theorem sout_C (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : ¬cond1_0 i) (hc1 : cond1_1 i)
    (x0 : Vec F S256x512 .bf16) (x1 : Vec F S2048x512 .i32) (x2 : Vec F S8x2048 .f32) (x3 : Vec F S8x2048 .f32) (xs0 : Vec F S256x2048 .f32) :
    sout1_C_0 c i arg2 harg2 arg3 harg3 arg4 harg4 arg5 harg5 arg6 harg6 arg7 harg7 hc0 hc1 x0 x1 x2 x3 xs0 = k1_pay2 x0 x2 x3 x1 xs0 := by
  unfold sout1_C_0
  rw [View.read_writes_eq_canon _ _ _ (scover1_C_0 c i arg2 harg2 arg3 harg3 arg4 harg4 arg5 harg5 arg6 harg6 arg7 harg7 hc0 hc1 x0 x1 x2 x3 xs0)]
  unfold kernelRun1_C
  dsimp only
  try sl_unfold_words
  rw [View.canon_unit_zero hz]
  simp only [View.readAt_eq_ld, harg2.read_unread, harg3.read_unread, harg4.read_unread, harg5.read_unread, harg7.read_unread, View.ld_unit_zero (S := S256x512) hz, View.ld_unit_zero (S := S2048x512) hz, View.ld_unit_zero (S := S8x2048) hz, View.ld_unit_zero (S := S256x2048) hz]

/-- and copies that accumulator over the whole output block. -/
theorem out_C (c : Dev nD) (i : grid1.Coords) (arg2 : Memref sig .tc .vmem S256x512 .bf16) (harg2 : arg2.IsWhole) (arg3 : Memref sig .tc .vmem S2048x512 .i32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S256x2048 .f32) (harg6 : arg6.IsWhole) (arg7 : Memref sig .tc .vmem S256x2048 .f32) (harg7 : arg7.IsWhole) (hc0 : ¬cond1_0 i) (hc1 : cond1_1 i)
    (x0 : Vec F S256x512 .bf16) (x1 : Vec F S2048x512 .i32) (x2 : Vec F S8x2048 .f32) (x3 : Vec F S8x2048 .f32) (xs0 : Vec F S256x2048 .f32) :
    out1_C_4 c i arg2 harg2 arg3 harg3 arg4 harg4 arg5 harg5 arg6 harg6 arg7 harg7 hc0 hc1 x0 x1 x2 x3 xs0 = k1_pay2 x0 x2 x3 x1 xs0 := by
  unfold out1_C_4
  rw [View.read_writes_eq_canon _ _ _ (cover1_C_4 c i arg2 harg2 arg3 harg3 arg4 harg4 arg5 harg5 arg6 harg6 arg7 harg7 hc0 hc1 x0 x1 x2 x3 xs0)]
  unfold kernelRun1_C
  dsimp only
  sl_unfold_words
  rw [View.canon_unit_zero hz, View.readCov_unit_zero (S := S256x2048) _ hz]
  simp only [View.readAt_eq_ld, harg2.read_unread, harg3.read_unread, harg4.read_unread, harg5.read_unread, harg7.read_unread, View.ld_unit_zero (S := S256x512) hz, View.ld_unit_zero (S := S2048x512) hz, View.ld_unit_zero (S := S8x2048) hz, View.ld_unit_zero (S := S256x2048) hz]

set_option maxHeartbeats 1000000

section Region1
variable (V : (c : Dev nD) → (b : Ref sig .tc) → Buf (Elt F) ((c : Thread nD τ).loc b))

/-- THE RUNNING SUM. The accumulator after position `n`: at the first step of a row the zero block plus that step's partial
    product, at every other step what it held after the position before plus the step's partial product. -/
def accAt (c : Dev nD) : (n : ℕ) → n < cfg1.N → Vec F S256x2048 .f32
  | 0, h => k1_pay2 (iblk1 V c 0 ⟨0, h⟩) (iblk1 V c 2 ⟨0, h⟩) (iblk1 V c 3 ⟨0, h⟩) (iblk1 V c 1 ⟨0, h⟩) (k1_pay1 (F := F))
  | n + 1, h =>
    if (n + 1) % 28 = 0 then k1_pay2 (iblk1 V c 0 ⟨n + 1, h⟩) (iblk1 V c 2 ⟨n + 1, h⟩) (iblk1 V c 3 ⟨n + 1, h⟩) (iblk1 V c 1 ⟨n + 1, h⟩) (k1_pay1 (F := F))
    else k1_pay2 (iblk1 V c 0 ⟨n + 1, h⟩) (iblk1 V c 2 ⟨n + 1, h⟩) (iblk1 V c 3 ⟨n + 1, h⟩) (iblk1 V c 1 ⟨n + 1, h⟩) (accAt c n (Nat.lt_of_succ_lt h))

theorem accAt_first (c : Dev nD) (n : ℕ) (h : n < cfg1.N) (h0 : n % 28 = 0) :
    accAt V c n h = k1_pay2 (iblk1 V c 0 ⟨n, h⟩) (iblk1 V c 2 ⟨n, h⟩) (iblk1 V c 3 ⟨n, h⟩) (iblk1 V c 1 ⟨n, h⟩) (k1_pay1 (F := F)) := by
  cases n with
  | zero => rfl
  | succ n => exact if_pos h0

theorem accAt_next (c : Dev nD) (n : ℕ) (h : n + 1 < cfg1.N) (h0 : ¬(n + 1) % 28 = 0) :
    accAt V c (n + 1) h = k1_pay2 (iblk1 V c 0 ⟨n + 1, h⟩) (iblk1 V c 2 ⟨n + 1, h⟩) (iblk1 V c 3 ⟨n + 1, h⟩) (iblk1 V c 1 ⟨n + 1, h⟩) (accAt V c n (Nat.lt_of_succ_lt h)) := if_neg h0

/-- What the accumulator holds after each position is the running sum: by induction on the position. -/
theorem outsAt_acc (c : Dev nD) : ∀ (n : ℕ) (h : n < cfg1.N), (outsAt1 V c n h).2 = accAt V c n h := by
  intro n
  induction n with
  | zero =>
    intro h
    have h0 : (⟨0, h⟩ : Fin cfg1.N).val % 28 = 0 := rfl
    have h1 : ¬(⟨0, h⟩ : Fin cfg1.N).val % 28 = 27 := by simp
    rw [outsAt1_A V c ⟨0, h⟩ h0 h1, accAt_first V c 0 h rfl]
    dsimp only
    exact sout_A c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) scM1_0 (Memref.isWhole_whole _) ((hcond1_0 ⟨0, h⟩).mpr h0) (fun hq => h1 ((hcond1_1 ⟨0, h⟩).mp hq)) (iblk1 V c 0 ⟨0, h⟩) (iblk1 V c 1 ⟨0, h⟩) (iblk1 V c 2 ⟨0, h⟩) (iblk1 V c 3 ⟨0, h⟩)
  | succ n ih =>
    intro h
    by_cases h0 : (n + 1) % 28 = 0
    · have h1 : ¬(n + 1) % 28 = 27 := by omega
      rw [outsAt1_A V c ⟨n + 1, h⟩ h0 h1, accAt_first V c (n + 1) h h0]
      dsimp only
      exact sout_A c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) scM1_0 (Memref.isWhole_whole _) ((hcond1_0 ⟨n + 1, h⟩).mpr h0) (fun hq => h1 ((hcond1_1 ⟨n + 1, h⟩).mp hq)) (iblk1 V c 0 ⟨n + 1, h⟩) (iblk1 V c 1 ⟨n + 1, h⟩) (iblk1 V c 2 ⟨n + 1, h⟩) (iblk1 V c 3 ⟨n + 1, h⟩)
    · rw [accAt_next V c n h h0, ← ih (Nat.lt_of_succ_lt h)]
      by_cases h1 : (n + 1) % 28 = 27
      · rw [outsAt1_C V c ⟨n + 1, h⟩ h0 h1]
        dsimp only
        exact sout_C c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) scM1_0 (Memref.isWhole_whole _) (fun hq => h0 ((hcond1_0 ⟨n + 1, h⟩).mp hq)) ((hcond1_1 ⟨n + 1, h⟩).mpr h1) (iblk1 V c 0 ⟨n + 1, h⟩) (iblk1 V c 1 ⟨n + 1, h⟩) (iblk1 V c 2 ⟨n + 1, h⟩) (iblk1 V c 3 ⟨n + 1, h⟩) (outsAt1 V c n (Nat.lt_of_succ_lt h)).2
      · rw [outsAt1_B V c ⟨n + 1, h⟩ h0 h1]
        dsimp only
        exact sout_B c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) scM1_0 (Memref.isWhole_whole _) (fun hq => h0 ((hcond1_0 ⟨n + 1, h⟩).mp hq)) (fun hq => h1 ((hcond1_1 ⟨n + 1, h⟩).mp hq)) (iblk1 V c 0 ⟨n + 1, h⟩) (iblk1 V c 1 ⟨n + 1, h⟩) (iblk1 V c 2 ⟨n + 1, h⟩) (iblk1 V c 3 ⟨n + 1, h⟩) (outsAt1 V c n (Nat.lt_of_succ_lt h)).2

/-- At a last step of a row the output block receives the running sum. -/
theorem outsAt_out (c : Dev nD) (n : ℕ) (h : n < cfg1.N) (h1 : n % 28 = 27) : (outsAt1 V c n h).1 = accAt V c n h := by
  cases n with
  | zero => exact absurd h1 (by decide)
  | succ n =>
    have h0 : ¬(n + 1) % 28 = 0 := by omega
    rw [accAt_next V c n h h0, ← outsAt_acc V c n (Nat.lt_of_succ_lt h), outsAt1_C V c ⟨n + 1, h⟩ h0 h1]
    dsimp only
    exact out_C c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) scM1_0 (Memref.isWhole_whole _) (fun hq => h0 ((hcond1_0 ⟨n + 1, h⟩).mp hq)) ((hcond1_1 ⟨n + 1, h⟩).mpr h1) (iblk1 V c 0 ⟨n + 1, h⟩) (iblk1 V c 1 ⟨n + 1, h⟩) (iblk1 V c 2 ⟨n + 1, h⟩) (iblk1 V c 3 ⟨n + 1, h⟩) (outsAt1 V c n (Nat.lt_of_succ_lt h)).2

end Region1

end Cert.KernelIdeal.Hand

end
-- ==== Proof.ValueIdeal.Region1Array.lean ====
/-
  The second region's output array from its blocks.

  The region walks a 2 x 28 grid: position `t` is row `t / 28` (a block of 2048 output columns) at step `t % 28` (a block
  of 512 contraction columns). The accumulator is a running sum over the steps of a row, and only the last step of a row
  (`t % 28 = 27`) writes the output block back, holding the running sum there. So entry `(r, k)` of the output array
  `[256, 4096]` is entry `(r, k % 2048)` of the running sum at the last step of row `k / 2048`; the two rows' blocks tile
  the array.
-/
import proofs.«118103_j88287347736657_2_alg».proof.Proof.ValueIdeal.Region1Value
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.Sem
open Idealize.ShloMosaic.ValueIdx
open Idealize.ShloMosaic.Pipeline (Dat)
open Cert.KernelIdeal Cert.KernelIdeal.Gen

variable {F : FTy → Type} [FloatOps F]

section Region1
variable (V : (c : Dev nD) → (b : Ref sig .tc) → Buf (Elt F) ((c : Thread nD τ).loc b))

/-- The position of the last step of the row whose block covers column `i 1`. -/
def rowEnd (i : S256x4096.Idx) : ℕ := (i 1).val / 2048 * 28 + 27

theorem rowEnd_lt (i : S256x4096.Idx) : rowEnd i < cfg1.N := by
  have hN : cfg1.N = 56 := N_1
  have h1 : (i 1).val < 4096 := (i 1).isLt
  unfold rowEnd
  rw [hN]
  omega

/-- The output array as one function: entry `(r, k)` is entry `(r, k % 2048)` of the running sum at the last step of
    row `k / 2048`. -/
def outArr (c : Dev nD) : S256x4096.Idx → Elt F .f32 :=
  fun i => accAt V c (rowEnd i) (rowEnd_lt i)
    (ix2 (n0 := 256) (n1 := 2048) (i 0) ⟨(i 1).val % 2048, Nat.mod_lt _ (by decide)⟩)

/-- The running sum depends on its position only, not on the proof that the position is on the grid. -/
theorem accAt_congr (c : Dev nD) {n n' : ℕ} (e : n = n') (h : n < cfg1.N) (h' : n' < cfg1.N) :
    accAt V c n h = accAt V c n' h' := by
  subst e; rfl

/-- The output window's printed index map over the 56 positions: row block 0, column block the position's row. -/
theorem out_block_index : ∀ t : Fin cfg1.N, win1_4.index t (0 : Fin 2) = 0 ∧ win1_4.index t (1 : Fin 2) = t.val / 28 :=
  (by decide +kernel : ∀ t : Fin grid1.N, _)

/-- Entry `y` of the running sum at a last step `n`, read where row `n / 28`'s block lies in the array. -/
theorem acc_entry (c : Dev nD) (n : ℕ) (h : n < cfg1.N) (h27 : n % 28 = 27) (y : S256x2048.Idx) (i : S256x4096.Idx)
    (hi0 : (i 0).val = (y 0).val) (hi1 : (i 1).val = n / 28 * 2048 + (y 1).val) :
    accAt V c n h y = outArr V c i := by
  have hy1 : (y 1).val < 2048 := (y 1).isLt
  have e : rowEnd i = n := by unfold rowEnd; rw [hi1]; omega
  unfold outArr
  rw [accAt_congr V c e (rowEnd_lt i) h]
  congr 1
  funext a
  apply Fin.ext
  match a with
  | ⟨0, _⟩ => show (y 0).val = (i 0).val; omega
  | ⟨1, _⟩ => show (y 1).val = (i 1).val % 2048; omega

/-- WHAT A WRITING POSITION WRITES BACK is its block of `outArr`. -/
theorem flushed4_eq (c : Dev nD) (t : Fin cfg1.N) (hf : (cfg1.win 4).flush t = true) :
    (dat1 V c).flushed 4 t = ((cfg1.win 4).blk t).view.read (Elt F) (outArr V c) := by
  have h27 : t.val % 28 = 27 := (flush1_4 t).mp hf
  have e := out_block_index t
  show (cfg1.win 4).cut (grid1.coords t) ((dat1 V c).after 4 t) = _
  rw [after1_4, outsAt_out V c t.val t.isLt h27]
  funext y
  show accAt V c t.val t.isLt y = outArr V c (((cfg1.win 4).blk t).view.emb y)
  refine acc_entry V c t.val t.isLt h27 y (((cfg1.win 4).blk t).view.emb y) ?_ ?_
  · show win1_4.index t (0 : Fin 2) * 256 + 1 * (y 0).val = (y 0).val; omega
  · show win1_4.index t (1 : Fin 2) * 2048 + 1 * (y 1).val = t.val / 28 * 2048 + (y 1).val; omega

/-- An index of the output array is in position `t`'s block iff each coordinate is in the block's range on its axis. -/
theorem mem_blk4 (t : Fin cfg1.N) (i : S256x4096.Idx) :
    i ∈ ((cfg1.win 4).blk t).view.set ↔ ∀ a : Fin 2, win1_4.index t a * S256x2048.size a ≤ (i a).val ∧ (i a).val < win1_4.index t a * S256x2048.size a + S256x2048.size a := by
  show i ∈ ((View.whole main_v7).slice (win1_4.rect t)).set ↔ _
  rw [View.set_slice_whole, Rect.mem_set_unit]
  exact Iff.rfl

/-- Every index of the output array is in the block of a writing position: the last step of its column's row. -/
theorem covered4 (i : S256x4096.Idx) :
    ∃ t : Fin cfg1.N, (cfg1.win 4).flush t = true ∧ i ∈ ((cfg1.win 4).blk t).view.set := by
  have hi0 : (i 0).val < 256 := (i 0).isLt
  have hi1 : (i 1).val < 4096 := (i 1).isLt
  let t : Fin cfg1.N := ⟨rowEnd i, rowEnd_lt i⟩
  have htv : t.val = (i 1).val / 2048 * 28 + 27 := rfl
  have e := out_block_index t
  refine ⟨t, (flush1_4 t).mpr (by rw [htv]; omega), ?_⟩
  rw [mem_blk4]
  intro a
  match a with
  | ⟨0, _⟩ => show win1_4.index t (0 : Fin 2) * 256 ≤ (i 0).val ∧ (i 0).val < win1_4.index t (0 : Fin 2) * 256 + 256; omega
  | ⟨1, _⟩ => show win1_4.index t (1 : Fin 2) * 2048 ≤ (i 1).val ∧ (i 1).val < win1_4.index t (1 : Fin 2) * 2048 + 2048; omega

/-- THE OUTPUT ARRAY after the region: `outArr`. -/
theorem region1_array (c : Dev nD) : (dat1 V c).arrAt 4 cfg1.N = outArr V c :=
  (dat1 V c).arrAt_eq_of_cover 4 (outArr V c) (fun t hf => flushed4_eq V c t hf) covered4

end Region1

/-- info: 'Cert.KernelIdeal.Hand.region1_array' depends on axioms: [propext, Classical.choice, Quot.sound] -/
#guard_msgs in #print axioms region1_array

end Cert.KernelIdeal.Hand

end
-- ==== Proof.Payload.Down.lean ====
/-
  The down-projection body's stored values read at an index.

  The body adds to its accumulator block `v23` the product of an activation block `v3` (`[256, 512]`) with the
  dequantised weight block (`[2048, 512]`, both contracted along their last axis).  The weight's scales and offsets
  arrive TRANSPOSED, as `[8, 2048]` tables: entry `(g, r)` is group `g` of weight row `r`.  So the stored entry
  `(p, r)` is `v23 (p, r) + ∑ k, v3 (p, k) * (code (r, k) * scale (k / 64, r) - offset (k / 64, r))`.

  The first grid step stores the zero block.
-/
import proofs.«118103_j88287347736657_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«118103_j88287347736657_2_alg».proof.Proof.Payload.Dequant
import proofs.«118103_j88287347736657_2_alg».proof.Proof.Payload.LibMatmulLastAxis

noncomputable section

namespace Cert.KernelIdeal.Payload

open Idealize.ShloMosaic Idealize.ShloMosaic.ValueIdx Idealize.SL.Sem
open scoped BigOperators

/-- The group (of 64 columns) of column `k` among 512. -/
def grp8 (k : Fin 512) : Fin 8 := ⟨k.val / 64, by have := k.isLt; omega⟩

/-- Entry `(r, k)` of the down projection's dequantised weight, the scale and offset tables stored transposed:
    the code at `(r, k)` as a signed integer, times the scale at `(k / 64, r)`, minus the offset at `(k / 64, r)`. -/
def wKT (v11 : IVec S2048x512 32) (v5 v7 : S8x2048.Idx → EReal) (r : Fin 2048) (k : Fin 512) : EReal :=
  (((v11 (ix2 r k)).toInt : ℝ) : EReal) * v5 (ix2 (grp8 k) r) - v7 (ix2 (grp8 k) r)

/-- The group of a column is its quotient by 64. -/
theorem grp8_val (k : Fin 512) : (grp8 k).val = k.val / 64 := rfl

/-- A row against a dequantised weight row, spelt out as the sum over the shared axis. -/
theorem dotRow_wKT_eq_sum (x : Fin 512 → EReal) (v11 : IVec S2048x512 32) (v5 v7 : S8x2048.Idx → EReal) (r : Fin 2048) :
    dotRow x (wKT v11 v5 v7 r)
      = ∑ k : Fin 512, x k
          * ((((v11 (ix2 r k)).toInt : ℝ) : EReal) * v5 (ix2 (grp8 k) r) - v7 (ix2 (grp8 k) r)) := rfl

/-- The zero block: every entry is `0`. -/
theorem k1_pay1_apply (j : S256x2048.Idx) : Gen.k1_pay1 (F := Ideal) j = 0 := by
  unfold Gen.k1_pay1
  rw [shapeCast_self]
  exact Ideal.ofBits_zero_f32

/-- The dequantised weight with the tables transposed in, read at `(r, k)`. -/
theorem wK_transpose (v11 : IVec S2048x512 32) (v5 v7 : FVec Ideal S8x2048 .f32)
    (h : S8x2048.Transposes [1, 0] S2048x8) (r : Fin 2048) (k : Fin 512) :
    wK (a := 2048) (b := 8) (c := 512) 64 rfl (by decide) v11
        (transpose S2048x8 [1, 0] v5 h) (transpose S2048x8 [1, 0] v7 h) r k
      = wKT v11 v5 v7 r k := by
  unfold wK wKT
  rw [transpose_ix2_apply, transpose_ix2_apply]
  rfl

/-- The accumulated block at `(p, r)`: the accumulator there plus the activation row `p` against the dequantised
    weight row `r`. -/
theorem k1_pay2_apply (v3 : Vec Ideal S256x512 .bf16) (v5 v7 : Vec Ideal S8x2048 .f32) (v11 : Vec Ideal S2048x512 .i32)
    (v23 : Vec Ideal S256x2048 .f32) (p : Fin 256) (r : Fin 2048) :
    Gen.k1_pay2 (F := Ideal) v3 v5 v7 v11 v23 (ix2 p r)
      = v23 (ix2 p r) + dotRow (fun k : Fin 512 => v3 (ix2 p k)) (wKT v11 v5 v7 r) := by
  unfold Gen.k1_pay2
  simp only [shapeCast_self]
  rw [addf_apply]
  refine congrArg (v23 (ix2 p r) + ·) ?_
  refine (MatmulLastAxis.matmul_zero_apply (M := 256) (N := 2048) (K := 512) ⟨rfl, rfl, rfl, rfl, rfl, rfl⟩ none _ _ p r).trans ?_
  unfold dotRow
  refine Finset.sum_congr rfl fun k _ => ?_
  rw [truncf_apply, dequant_apply (a := 2048) (b := 8) (n := 64) (c := 512) rfl (by decide), wK_transpose]

end Cert.KernelIdeal.Payload

end
-- ==== Proof.Payload.LibTiledSum.lean ====
/-
  A sum over `N · T` consecutive positions taken tile by tile, and a sum over two runs of tiles joined.

  The positions `0 … N·T − 1` are the pairs (tile `n < N`, offset `r < T`) at `T · n + r`; a sum over all
  positions is the sum over the tiles of each tile's sum, in any commutative monoid.
-/
import Mathlib.Algebra.BigOperators.Fin
import Mathlib.Algebra.BigOperators.Intervals
import Mathlib.Logic.Equiv.Fin.Basic

namespace Cert.TiledSum

open scoped BigOperators

variable {M : Type*} [AddCommMonoid M]

/-- Position `T · n + r` of tile `n`, offset `r`. -/
def pos {N T : Nat} (n : Fin N) (r : Fin T) : Fin (N * T) := finProdFinEquiv (n, r)

theorem pos_val {N T : Nat} (n : Fin N) (r : Fin T) : (pos n r).val = r.val + T * n.val := rfl

/-- `∑ ε, f ε = ∑ n, ∑ r, f (T·n + r)`. -/
theorem sum_tiles {N T : Nat} (f : Fin (N * T) → M) : ∑ ε : Fin (N * T), f ε = ∑ n : Fin N, ∑ r : Fin T, f (pos n r) := by
  rw [← Equiv.sum_comp finProdFinEquiv f, Fintype.sum_prod_type]
  rfl

/-- A sum over the tiles `0 … A + B − 1` written with naturals below the count: the first `A` tiles, then the next `B`. -/
theorem sum_fin_split (A B : Nat) (F : Nat → M) :
    ∑ n : Fin (A + B), F n.val = (∑ s ∈ Finset.range A, F s) + (∑ s ∈ Finset.range B, F (A + s)) := by
  rw [Fin.sum_univ_eq_sum_range (fun n => F n) (A + B), Finset.sum_range_add]

end Cert.TiledSum
-- ==== Proof.Payload.RowSum.lean ====
/-
  The accumulation along one row of the grid is the flat sum.

  Along a row of the grid the down projection's accumulator block starts as the zero block and receives, step by
  step, the product of that step's activation block with that step's dequantised weight block.  After step `j` its
  entry `(p, r)` is therefore the sum over the steps `0 … j` of the steps' inner products.

  When the blocks are the consecutive blocks of whole arrays — step `j` holding columns `j * 512 … j * 512 + 511` of
  the activations and of the codes, and groups `j * 8 … j * 8 + 7` of the transposed tables —, the 28 steps tile the
  14336 columns: column `j * 512 + k` lies in group `(j * 512 + k) / 64 = j * 8 + k / 64`, and the sum over the steps of
  the sums over a block's 512 columns is the sum over all 14336 columns.
-/
import proofs.«118103_j88287347736657_2_alg».proof.Proof.Payload.Down
import proofs.«118103_j88287347736657_2_alg».proof.Proof.Payload.LibTiledSum
import proofs.«118103_j88287347736657_2_alg».proof.Proof.Math.Spec

noncomputable section

namespace Cert.KernelIdeal.Payload

open Idealize.ShloMosaic Idealize.ShloMosaic.ValueIdx Idealize.SL.Sem
open scoped BigOperators
open Cert.Math (grp224)

/-- The accumulator block after steps `0 … j` of a row: the zero block, then one accumulation per step. -/
def accRow (b0 : ℕ → Vec Ideal S256x512 .bf16) (b1 : ℕ → Vec Ideal S2048x512 .i32) (b2 b3 : ℕ → Vec Ideal S8x2048 .f32) :
    ℕ → Vec Ideal S256x2048 .f32
  | 0 => Gen.k1_pay2 (F := Ideal) (b0 0) (b2 0) (b3 0) (b1 0) (Gen.k1_pay1 (F := Ideal))
  | j + 1 => Gen.k1_pay2 (F := Ideal) (b0 (j + 1)) (b2 (j + 1)) (b3 (j + 1)) (b1 (j + 1)) (accRow b0 b1 b2 b3 j)

/-- After step `j` the accumulator's entry `(p, r)` is the sum of the inner products of the steps `0 … j`. -/
theorem accRow_apply (b0 : ℕ → Vec Ideal S256x512 .bf16) (b1 : ℕ → Vec Ideal S2048x512 .i32)
    (b2 b3 : ℕ → Vec Ideal S8x2048 .f32) (j : ℕ) (p : Fin 256) (r : Fin 2048) :
    accRow b0 b1 b2 b3 j (ix2 p r)
      = ∑ i ∈ Finset.range (j + 1), dotRow (fun k : Fin 512 => b0 i (ix2 p k)) (wKT (b1 i) (b2 i) (b3 i) r) := by
  induction j with
  | zero =>
    rw [Finset.sum_range_succ, Finset.sum_range_zero, zero_add]
    show Gen.k1_pay2 (F := Ideal) (b0 0) (b2 0) (b3 0) (b1 0) (Gen.k1_pay1 (F := Ideal)) (ix2 p r) = _
    rw [k1_pay2_apply, k1_pay1_apply, zero_add]
  | succ j ih =>
    rw [Finset.sum_range_succ, ← ih]
    show Gen.k1_pay2 (F := Ideal) (b0 (j + 1)) (b2 (j + 1)) (b3 (j + 1)) (b1 (j + 1)) (accRow b0 b1 b2 b3 j) (ix2 p r) = _
    rw [k1_pay2_apply]

/-- The 14336 columns taken as 28 consecutive blocks of 512. -/
theorem sum_blocks_14336 (f : Fin 14336 → EReal) :
    ∑ i : Fin 14336, f i
      = ∑ j : Fin 28, ∑ k : Fin 512, f ⟨j.val * 512 + k.val, by have := j.isLt; have := k.isLt; omega⟩ := by
  refine (Cert.TiledSum.sum_tiles (N := 28) (T := 512) (M := EReal) f).trans ?_
  refine Finset.sum_congr rfl fun j _ => Finset.sum_congr rfl fun k _ => congrArg f (Fin.ext ?_)
  rw [Cert.TiledSum.pos_val]
  show k.val + 512 * j.val = j.val * 512 + k.val
  omega

/-- With the steps' blocks the consecutive blocks of whole arrays, the last step's accumulator is the flat sum over
    all 14336 columns. -/
theorem accRow_flat (H : (⟨2, ![256, 14336]⟩ : Shape).Idx → EReal) (Q : (⟨2, ![4096, 14336]⟩ : Shape).Idx → BitVec 32)
    (ST ZT : (⟨2, ![224, 4096]⟩ : Shape).Idx → EReal) (hh : Fin 2)
    (b0 : ℕ → Vec Ideal S256x512 .bf16) (b1 : ℕ → Vec Ideal S2048x512 .i32) (b2 b3 : ℕ → Vec Ideal S8x2048 .f32)
    (h0 : ∀ (j : ℕ) (hj : j < 28) (p : Fin 256) (k : Fin 512),
      b0 j (ix2 p k) = H (ix2 p ⟨j * 512 + k.val, by have := k.isLt; omega⟩))
    (h1 : ∀ (j : ℕ) (hj : j < 28) (r : Fin 2048) (k : Fin 512),
      b1 j (ix2 r k) = Q (ix2 ⟨hh.val * 2048 + r.val, by have := hh.isLt; have := r.isLt; omega⟩
        ⟨j * 512 + k.val, by have := k.isLt; omega⟩))
    (h2 : ∀ (j : ℕ) (hj : j < 28) (g : Fin 8) (r : Fin 2048),
      b2 j (ix2 g r) = ST (ix2 ⟨j * 8 + g.val, by have := g.isLt; omega⟩
        ⟨hh.val * 2048 + r.val, by have := hh.isLt; have := r.isLt; omega⟩))
    (h3 : ∀ (j : ℕ) (hj : j < 28) (g : Fin 8) (r : Fin 2048),
      b3 j (ix2 g r) = ZT (ix2 ⟨j * 8 + g.val, by have := g.isLt; omega⟩
        ⟨hh.val * 2048 + r.val, by have := hh.isLt; have := r.isLt; omega⟩))
    (p : Fin 256) (r : Fin 2048) :
    accRow b0 b1 b2 b3 27 (ix2 p r)
      = ∑ i : Fin 14336, H (ix2 p i)
          * ((((Q (ix2 ⟨hh.val * 2048 + r.val, by have := hh.isLt; have := r.isLt; omega⟩ i)).toInt : ℝ) : EReal)
              * ST (ix2 (grp224 i) ⟨hh.val * 2048 + r.val, by have := hh.isLt; have := r.isLt; omega⟩)
            - ZT (ix2 (grp224 i) ⟨hh.val * 2048 + r.val, by have := hh.isLt; have := r.isLt; omega⟩)) := by
  have hacc := accRow_apply b0 b1 b2 b3 27 p r
  rw [show (27 : ℕ) + 1 = 28 from rfl, Finset.sum_range] at hacc
  rw [hacc, sum_blocks_14336]
  refine Finset.sum_congr rfl fun j _ => ?_
  rw [dotRow_wKT_eq_sum]
  refine Finset.sum_congr rfl fun k _ => ?_
  have e : ∀ (hx : j.val * 8 + (grp8 k).val < 224) (hy : j.val * 512 + k.val < 14336),
      (⟨j.val * 8 + (grp8 k).val, hx⟩ : Fin 224) = grp224 ⟨j.val * 512 + k.val, hy⟩ := fun hx hy =>
    Fin.ext (by
      show j.val * 8 + k.val / 64 = (j.val * 512 + k.val) / 64
      omega)
  rw [h0 j.val j.isLt, h1 j.val j.isLt, h2 j.val j.isLt, h3 j.val j.isLt, e]

end Cert.KernelIdeal.Payload

end
-- ==== Proof.ValueIdeal.Region1Sum.lean ====
/-
  The second kernel region's running sum, read off the whole arrays.

  The running sum of the region's accumulator is stated over the input windows' blocks at each position.  Here each block
  is read off its array (a block's coordinate is the window's block index times the block size plus the coordinate
  inside the block; the block indices are decided once over the grid), the blocks of one row of the grid are taken as
  sequences, the running sum along the row is identified with the accumulation of those sequences, and so, at the
  row's last step, with the flat sum over all 14336 contraction columns.
-/
import proofs.«118103_j88287347736657_2_alg».proof.Proof.ValueIdeal.Region1Value
import proofs.«118103_j88287347736657_2_alg».proof.Proof.Payload.RowSum
import proofs.«118103_j88287347736657_2_alg».proof.Proof.Math.Spec
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators

/-! # The second kernel region's running sum is the flat sum over the whole arrays

The region's grid is 2 x 28: position `t` is row `t / 28` (a block of 2048 output columns), step `t % 28` (a block of
512 contraction columns).  Each input window's block at a position is a rectangle of its array: its coordinate is the
window's block index times the block size plus the coordinate inside the block.  Along a row the running sum is the
accumulation of the steps' partial products, so at the row's last step it is the sum over all 14336 contraction
columns of the activations times the dequantised weight. -/

set_option maxHeartbeats 400000

/-- The input windows' block indices at every position of the grid: the activations' block is `(0, step)`, the codes'
    `(row, step)`, the two transposed tables' `(step, row)`. -/
theorem idx_facts1 : ∀ t : Fin grid1.N,
    win1_0.index t 0 = 0 ∧ win1_0.index t 1 = t.val % 28 ∧ win1_1.index t 0 = t.val / 28 ∧ win1_1.index t 1 = t.val % 28
      ∧ win1_2.index t 0 = t.val % 28 ∧ win1_2.index t 1 = t.val / 28
      ∧ win1_3.index t 0 = t.val % 28 ∧ win1_3.index t 1 = t.val / 28 := by
  decide +kernel

/-- The accumulation's first step, spelt out. -/
theorem accRow_zero (b0 : ℕ → Vec Ideal S256x512 .bf16) (b1 : ℕ → Vec Ideal S2048x512 .i32) (b2 b3 : ℕ → Vec Ideal S8x2048 .f32) :
    Payload.accRow b0 b1 b2 b3 0 = k1_pay2 (F := Ideal) (b0 0) (b2 0) (b3 0) (b1 0) (k1_pay1 (F := Ideal)) := rfl

/-- The accumulation's later steps, spelt out. -/
theorem accRow_succ (b0 : ℕ → Vec Ideal S256x512 .bf16) (b1 : ℕ → Vec Ideal S2048x512 .i32) (b2 b3 : ℕ → Vec Ideal S8x2048 .f32)
    (j : ℕ) :
    Payload.accRow b0 b1 b2 b3 (j + 1)
      = k1_pay2 (F := Ideal) (b0 (j + 1)) (b2 (j + 1)) (b3 (j + 1)) (b1 (j + 1)) (Payload.accRow b0 b1 b2 b3 j) := rfl

section Region1
variable (V : (c : Dev nD) → (b : Ref sig .tc) → Buf (Elt Ideal) ((c : Thread nD τ).loc b))

/-! ## Each input block read off its array -/

/-- The activations' block at position `t`: rows as they are, columns `(t % 28) * 512 …`. -/
theorem iblk0_apply_of (c : Dev nD) (t : Fin cfg1.N) (p : Fin 256) (k : Fin 512) (K : Fin 14336)
    (hK : K.val = (t.val % 28) * 512 + k.val) :
    (iblk1 V c 0 t : Vec Ideal S256x512 .bf16) (ix2 p k) = (V c main_v3 : S256x14336.Idx → EReal) (ix2 p K) := by
  have hi := idx_facts1 t
  unfold iblk1
  rw [View.read_apply]
  show V c main_v3 _ = V c main_v3 _
  congr 1
  funext a
  apply Fin.ext
  match a with
  | ⟨0, _⟩ => show win1_0.index t 0 * 256 + 1 * p.val = p.val; rw [hi.1]; omega
  | ⟨1, _⟩ => show win1_0.index t 1 * 512 + 1 * k.val = K.val; rw [hi.2.1, hK]; omega

/-- The codes' block at position `t`: rows `(t / 28) * 2048 …`, columns `(t % 28) * 512 …`. -/
theorem iblk1_apply_of (c : Dev nD) (t : Fin cfg1.N) (r : Fin 2048) (k : Fin 512) (R : Fin 4096) (K : Fin 14336)
    (hR : R.val = (t.val / 28) * 2048 + r.val) (hK : K.val = (t.val % 28) * 512 + k.val) :
    (iblk1 V c 1 t : Vec Ideal S2048x512 .i32) (ix2 r k) = (V c main_arg7 : S4096x14336.Idx → BitVec 32) (ix2 R K) := by
  have hi := idx_facts1 t
  unfold iblk1
  rw [View.read_apply]
  show V c main_arg7 _ = V c main_arg7 _
  congr 1
  funext a
  apply Fin.ext
  match a with
  | ⟨0, _⟩ => show win1_1.index t 0 * 2048 + 1 * r.val = R.val; rw [hi.2.2.1, hR]; omega
  | ⟨1, _⟩ => show win1_1.index t 1 * 512 + 1 * k.val = K.val; rw [hi.2.2.2.1, hK]; omega

/-- The transposed scale table's block at position `t`: groups `(t % 28) * 8 …`, columns `(t / 28) * 2048 …`. -/
theorem iblk2_apply_of (c : Dev nD) (t : Fin cfg1.N) (g : Fin 8) (r : Fin 2048) (G : Fin 224) (R : Fin 4096)
    (hG : G.val = (t.val % 28) * 8 + g.val) (hR : R.val = (t.val / 28) * 2048 + r.val) :
    (iblk1 V c 2 t : Vec Ideal S8x2048 .f32) (ix2 g r) = (V c main_v5 : S224x4096.Idx → EReal) (ix2 G R) := by
  have hi := idx_facts1 t
  unfold iblk1
  rw [View.read_apply]
  show V c main_v5 _ = V c main_v5 _
  congr 1
  funext a
  apply Fin.ext
  match a with
  | ⟨0, _⟩ => show win1_2.index t 0 * 8 + 1 * g.val = G.val; rw [hi.2.2.2.2.1, hG]; omega
  | ⟨1, _⟩ => show win1_2.index t 1 * 2048 + 1 * r.val = R.val; rw [hi.2.2.2.2.2.1, hR]; omega

/-- The transposed offset table's block at position `t`, likewise. -/
theorem iblk3_apply_of (c : Dev nD) (t : Fin cfg1.N) (g : Fin 8) (r : Fin 2048) (G : Fin 224) (R : Fin 4096)
    (hG : G.val = (t.val % 28) * 8 + g.val) (hR : R.val = (t.val / 28) * 2048 + r.val) :
    (iblk1 V c 3 t : Vec Ideal S8x2048 .f32) (ix2 g r) = (V c main_v6 : S224x4096.Idx → EReal) (ix2 G R) := by
  have hi := idx_facts1 t
  unfold iblk1
  rw [View.read_apply]
  show V c main_v6 _ = V c main_v6 _
  congr 1
  funext a
  apply Fin.ext
  match a with
  | ⟨0, _⟩ => show win1_3.index t 0 * 8 + 1 * g.val = G.val; rw [hi.2.2.2.2.2.2.1, hG]; omega
  | ⟨1, _⟩ => show win1_3.index t 1 * 2048 + 1 * r.val = R.val; rw [hi.2.2.2.2.2.2.2, hR]; omega

/-- A position of the grid is below 56. -/
theorem pos_lt (t : Fin cfg1.N) : t.val < 56 := lt_of_lt_of_eq t.isLt N_1

/-- The same four reads with the array index spelt out. -/
theorem iblk0_apply (c : Dev nD) (t : Fin cfg1.N) (p : Fin 256) (k : Fin 512) :
    (iblk1 V c 0 t : Vec Ideal S256x512 .bf16) (ix2 p k)
      = (V c main_v3 : S256x14336.Idx → EReal) (ix2 p ⟨(t.val % 28) * 512 + k.val, by have := k.isLt; omega⟩) :=
  iblk0_apply_of V c t p k _ rfl

theorem iblk1_apply (c : Dev nD) (t : Fin cfg1.N) (r : Fin 2048) (k : Fin 512) :
    (iblk1 V c 1 t : Vec Ideal S2048x512 .i32) (ix2 r k)
      = (V c main_arg7 : S4096x14336.Idx → BitVec 32)
          (ix2 ⟨(t.val / 28) * 2048 + r.val, by have := pos_lt t; have := r.isLt; omega⟩
            ⟨(t.val % 28) * 512 + k.val, by have := k.isLt; omega⟩) :=
  iblk1_apply_of V c t r k _ _ rfl rfl

theorem iblk2_apply (c : Dev nD) (t : Fin cfg1.N) (g : Fin 8) (r : Fin 2048) :
    (iblk1 V c 2 t : Vec Ideal S8x2048 .f32) (ix2 g r)
      = (V c main_v5 : S224x4096.Idx → EReal)
          (ix2 ⟨(t.val % 28) * 8 + g.val, by have := g.isLt; omega⟩
            ⟨(t.val / 28) * 2048 + r.val, by have := pos_lt t; have := r.isLt; omega⟩) :=
  iblk2_apply_of V c t g r _ _ rfl rfl

theorem iblk3_apply (c : Dev nD) (t : Fin cfg1.N) (g : Fin 8) (r : Fin 2048) :
    (iblk1 V c 3 t : Vec Ideal S8x2048 .f32) (ix2 g r)
      = (V c main_v6 : S224x4096.Idx → EReal)
          (ix2 ⟨(t.val % 28) * 8 + g.val, by have := g.isLt; omega⟩
            ⟨(t.val / 28) * 2048 + r.val, by have := pos_lt t; have := r.isLt; omega⟩) :=
  iblk3_apply_of V c t g r _ _ rfl rfl

end Region1

section Region1Sum
variable (V : (c : Dev nD) → (b : Ref sig .tc) → Buf (Elt Ideal) ((c : Thread nD τ).loc b))

/-! ## The blocks of a row as sequences, and the running sum along the row -/

/-- Position of step `j` of row `hh` (steps past the last are held at the last, so that every natural is in range). -/
def rowPos (hh : Fin 2) (j : ℕ) : Fin cfg1.N :=
  ⟨hh.val * 28 + min j 27, lt_of_lt_of_eq (by have := hh.isLt; omega : hh.val * 28 + min j 27 < 56) N_1.symm⟩

theorem rowPos_val (hh : Fin 2) (j : ℕ) (hj : j < 28) : (rowPos hh j).val = hh.val * 28 + j := by
  show hh.val * 28 + min j 27 = hh.val * 28 + j
  omega

/-- The activation blocks of row `hh`, step by step. -/
def b0 (c : Dev nD) (hh : Fin 2) (j : ℕ) : Vec Ideal S256x512 .bf16 := iblk1 V c 0 (rowPos hh j)
/-- The code blocks of row `hh`, step by step. -/
def b1 (c : Dev nD) (hh : Fin 2) (j : ℕ) : Vec Ideal S2048x512 .i32 := iblk1 V c 1 (rowPos hh j)
/-- The transposed scale blocks of row `hh`, step by step. -/
def b2 (c : Dev nD) (hh : Fin 2) (j : ℕ) : Vec Ideal S8x2048 .f32 := iblk1 V c 2 (rowPos hh j)
/-- The transposed offset blocks of row `hh`, step by step. -/
def b3 (c : Dev nD) (hh : Fin 2) (j : ℕ) : Vec Ideal S8x2048 .f32 := iblk1 V c 3 (rowPos hh j)

/-- The running sum depends on the position only, not on how its bound is proved. -/
theorem accAt_at_eq (c : Dev nD) {n n' : ℕ} (e : n = n') (h : n < cfg1.N) (h' : n' < cfg1.N) :
    accAt V c n h = accAt V c n' h' := by
  subst e; rfl

/-- A row's first step, over the row's block sequences. -/
theorem accAt_rowPos_zero (c : Dev nD) (hh : Fin 2) :
    accAt V c (rowPos hh 0).val (rowPos hh 0).isLt
      = k1_pay2 (F := Ideal) (b0 V c hh 0) (b2 V c hh 0) (b3 V c hh 0) (b1 V c hh 0) (k1_pay1 (F := Ideal)) :=
  accAt_first V c (rowPos hh 0).val (rowPos hh 0).isLt (by rw [rowPos_val hh 0 (by omega)]; omega)

/-- A row's later steps, over the row's block sequences. -/
theorem accAt_rowPos_succ (c : Dev nD) (hh : Fin 2) (j : ℕ) (hj : j + 1 < 28) :
    accAt V c (rowPos hh (j + 1)).val (rowPos hh (j + 1)).isLt
      = k1_pay2 (F := Ideal) (b0 V c hh (j + 1)) (b2 V c hh (j + 1)) (b3 V c hh (j + 1)) (b1 V c hh (j + 1))
          (accAt V c (rowPos hh j).val (rowPos hh j).isLt) := by
  have e1 : (rowPos hh (j + 1)).val = (rowPos hh j).val + 1 := by
    rw [rowPos_val hh (j + 1) hj, rowPos_val hh j (by omega)]; omega
  have h' : (rowPos hh j).val + 1 < cfg1.N := e1 ▸ (rowPos hh (j + 1)).isLt
  have h0 : ¬((rowPos hh j).val + 1) % 28 = 0 := by rw [rowPos_val hh j (by omega)]; omega
  have t1 : (⟨(rowPos hh j).val + 1, h'⟩ : Fin cfg1.N) = rowPos hh (j + 1) := Fin.ext e1.symm
  rw [accAt_at_eq V c e1 (rowPos hh (j + 1)).isLt h', accAt_next V c (rowPos hh j).val h' h0, t1]
  rfl

/-- Along row `hh` the running sum after step `j` is the accumulation of the row's blocks up to step `j`. -/
theorem accAt_row (c : Dev nD) (hh : Fin 2) : ∀ (j : ℕ), j < 28 →
    accAt V c (rowPos hh j).val (rowPos hh j).isLt = Payload.accRow (b0 V c hh) (b1 V c hh) (b2 V c hh) (b3 V c hh) j := by
  intro j
  induction j with
  | zero =>
    intro _
    rw [accRow_zero, accAt_rowPos_zero]
  | succ j ih =>
    intro hj
    rw [accRow_succ, accAt_rowPos_succ V c hh j hj, ih (by omega)]

/-! ## The row's last step: the flat sum over the whole arrays -/

/-- The activations as the region finds them, at their literal type. -/
abbrev arrX (c : Dev nD) : S256x14336.Idx → EReal := V c main_v3
/-- The integer codes as the region finds them. -/
abbrev arrQ (c : Dev nD) : S4096x14336.Idx → BitVec 32 := V c main_arg7
/-- The transposed scale table as the region finds it. -/
abbrev arrS (c : Dev nD) : S224x4096.Idx → EReal := V c main_v5
/-- The transposed offset table as the region finds it. -/
abbrev arrZ (c : Dev nD) : S224x4096.Idx → EReal := V c main_v6

theorem row_lt (hh : Fin 2) (r : Fin 2048) : hh.val * 2048 + r.val < 4096 := by
  have := hh.isLt; have := r.isLt; omega

/-- After the last step of row `hh` the running sum's entry `(p, r)` is the sum over all 14336 contraction columns of
    the activations times the dequantised weight of output column `hh * 2048 + r`. -/
theorem acc_row_end (c : Dev nD) (hh : Fin 2) (p : Fin 256) (r : Fin 2048) :
    accAt V c (rowPos hh 27).val (rowPos hh 27).isLt (ix2 p r)
      = ∑ i : Fin 14336, arrX V c (ix2 p i)
          * ((((arrQ V c (ix2 ⟨hh.val * 2048 + r.val, row_lt hh r⟩ i)).toInt : ℝ) : EReal)
              * arrS V c (ix2 (Cert.Math.grp224 i) ⟨hh.val * 2048 + r.val, row_lt hh r⟩)
            - arrZ V c (ix2 (Cert.Math.grp224 i) ⟨hh.val * 2048 + r.val, row_lt hh r⟩)) := by
  rw [accAt_row V c hh 27 (by omega)]
  refine Payload.accRow_flat (arrX V c) (arrQ V c) (arrS V c) (arrZ V c) hh
    (b0 V c hh) (b1 V c hh) (b2 V c hh) (b3 V c hh) ?_ ?_ ?_ ?_ p r
  · intro j hj p k
    have hv := rowPos_val hh j hj
    exact iblk0_apply_of V c (rowPos hh j) p k _ (by show j * 512 + k.val = _; rw [hv]; have := hh.isLt; omega)
  · intro j hj r k
    have hv := rowPos_val hh j hj
    exact iblk1_apply_of V c (rowPos hh j) r k _ _ (by show hh.val * 2048 + r.val = _; rw [hv]; have := hh.isLt; omega)
      (by show j * 512 + k.val = _; rw [hv]; have := hh.isLt; omega)
  · intro j hj g r
    have hv := rowPos_val hh j hj
    exact iblk2_apply_of V c (rowPos hh j) g r _ _ (by show j * 8 + g.val = _; rw [hv]; have := hh.isLt; omega)
      (by show hh.val * 2048 + r.val = _; rw [hv]; have := hh.isLt; omega)
  · intro j hj g r
    have hv := rowPos_val hh j hj
    exact iblk3_apply_of V c (rowPos hh j) g r _ _ (by show j * 8 + g.val = _; rw [hv]; have := hh.isLt; omega)
      (by show hh.val * 2048 + r.val = _; rw [hv]; have := hh.isLt; omega)

/-- The same at the position written `hh * 28 + 27`, whatever the proof of its bound. -/
theorem acc_row_end' (c : Dev nD) (hh : Fin 2) (h : hh.val * 28 + 27 < cfg1.N) (p : Fin 256) (r : Fin 2048) :
    accAt V c (hh.val * 28 + 27) h (ix2 p r)
      = ∑ i : Fin 14336, arrX V c (ix2 p i)
          * ((((arrQ V c (ix2 ⟨hh.val * 2048 + r.val, row_lt hh r⟩ i)).toInt : ℝ) : EReal)
              * arrS V c (ix2 (Cert.Math.grp224 i) ⟨hh.val * 2048 + r.val, row_lt hh r⟩)
            - arrZ V c (ix2 (Cert.Math.grp224 i) ⟨hh.val * 2048 + r.val, row_lt hh r⟩)) := by
  rw [accAt_at_eq V c (rowPos_val hh 27 (by omega)).symm h (rowPos hh 27).isLt]
  exact acc_row_end V c hh p r

/-- Along row `hh`, at the position written `hh * 28 + j`. -/
theorem accAt_row' (c : Dev nD) (hh : Fin 2) (j : ℕ) (hj : j < 28) (h : hh.val * 28 + j < cfg1.N) :
    accAt V c (hh.val * 28 + j) h = Payload.accRow (b0 V c hh) (b1 V c hh) (b2 V c hh) (b3 V c hh) j :=
  (accAt_at_eq V c (rowPos_val hh j hj).symm h (rowPos hh j).isLt).trans (accAt_row V c hh j hj)

/-- At any last step of a row, position `n` with `n % 28 = 27`: the row is `n / 28`. -/
theorem acc_last (c : Dev nD) (n : ℕ) (h : n < cfg1.N) (h1 : n % 28 = 27) (p : Fin 256) (r : Fin 2048) :
    accAt V c n h (ix2 p r)
      = ∑ i : Fin 14336, arrX V c (ix2 p i)
          * ((((arrQ V c (ix2 ⟨n / 28 * 2048 + r.val, by have := pos_lt ⟨n, h⟩; have : n < 56 := this; have := r.isLt; omega⟩ i)).toInt : ℝ) : EReal)
              * arrS V c (ix2 (Cert.Math.grp224 i) ⟨n / 28 * 2048 + r.val, by have := pos_lt ⟨n, h⟩; have : n < 56 := this; have := r.isLt; omega⟩)
            - arrZ V c (ix2 (Cert.Math.grp224 i) ⟨n / 28 * 2048 + r.val, by have := pos_lt ⟨n, h⟩; have : n < 56 := this; have := r.isLt; omega⟩)) := by
  have hn : n < 56 := pos_lt ⟨n, h⟩
  have e : n = (⟨n / 28, by omega⟩ : Fin 2).val * 28 + 27 := by show n = n / 28 * 28 + 27; omega
  rw [accAt_at_eq V c e h (e ▸ h)]
  exact acc_row_end' V c ⟨n / 28, by omega⟩ (e ▸ h) p r

end Region1Sum

end Cert.KernelIdeal.Hand

end
-- ==== Proof.ValueIdeal.KernelValue.lean ====
import proofs.«118103_j88287347736657_2_alg».proof.Proof.ValueIdeal.HiddenValue
import proofs.«118103_j88287347736657_2_alg».proof.Proof.ValueIdeal.Region1Array
import proofs.«118103_j88287347736657_2_alg».proof.Proof.ValueIdeal.Region1Sum

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen Cert.Math

variable (m : (ℓ : Loc nD τ sig) → Buf (Elt Ideal) ℓ) (ρ : Dev nD → PrngReg) (c : Dev nD)

/-- A column of the output lies in block `h / 2048` at offset `h % 2048`. -/
theorem col_split (h : Fin 4096) (hlt : h.val / 2048 < 2) (hr : h.val % 2048 < 2048) :
    (⟨(⟨h.val / 2048, hlt⟩ : Fin 2).val * 2048 + (⟨h.val % 2048, hr⟩ : Fin 2048).val, row_lt ⟨h.val / 2048, hlt⟩ ⟨h.val % 2048, hr⟩⟩ : Fin 4096) = h :=
  Fin.ext (by show h.val / 2048 * 2048 + h.val % 2048 = h.val; omega)

/-- THE KERNEL'S RESULT. The result array after the run is the specification over the kernel's own dequantised weights:
    entry (t, h) is the accumulator at the last step of h's block of columns, the sum over all 14336 hidden columns of the
    hidden layer times the down-projection weight, whose scale and zero·scale come from the host's transposed tables. -/
theorem kernel_value : W4 m ρ c (Proc.devRef .tc main_v7)
    = out (A_arg0 m c) (deqK grp64 (A_arg1 m c) (A_arg2 m c) (A_arg3 m c)) (deqK grp64 (A_arg4 m c) (A_arg5 m c) (A_arg6 m c))
        (deqK grp224 (A_arg7 m c) (A_arg8 m c) (A_arg9 m c)) := by
  refine ((W4_arr m ρ c 4).trans (region1_array (V3 m ρ) c)).trans ?_
  funext i
  obtain ⟨t, h, rfl⟩ : ∃ (t : Fin 256) (h : Fin 4096), i = ix2 t h := ⟨i 0, i 1, eq_ix2 i⟩
  have hlt : h.val / 2048 < 2 := by have := h.isLt; omega
  have hr : h.val % 2048 < 2048 := Nat.mod_lt _ (by decide)
  have hpos : (⟨h.val / 2048, hlt⟩ : Fin 2).val * 28 + 27 < cfg1.N := by
    show h.val / 2048 * 28 + 27 < cfg1.N
    rw [show cfg1.N = 56 from N_1]; omega
  have key := acc_row_end' (V3 m ρ) c ⟨h.val / 2048, hlt⟩ hpos t ⟨h.val % 2048, hr⟩
  rw [col_split h hlt hr] at key
  refine Eq.trans (accAt_congr (V3 m ρ) c rfl _ hpos ▸ rfl : outArr (V3 m ρ) c (ix2 t h)
      = accAt (V3 m ρ) c ((⟨h.val / 2048, hlt⟩ : Fin 2).val * 28 + 27) hpos (ix2 t ⟨h.val % 2048, hr⟩)) ?_
  refine key.trans ?_
  rw [out_apply]
  refine Finset.sum_congr rfl fun i _ => ?_
  rw [deqK_apply]
  dsimp only [arrX, arrQ, arrS, arrZ]
  rw [hidden_value m ρ c, V3_main_arg7 m ρ c, V3_main_v5_apply m ρ c, V3_main_v6_apply m ρ c]

end Cert.KernelIdeal.Hand

end
-- ==== Proof.Math.Finite.lean ====
/-
  Finiteness of the float arguments, read out of the precondition.

  The precondition is one bit: the conjunction, over the seven float arrays, of "every entry has absolute value below
  `+∞`" (each a reduction by `and` over the whole array of the comparison `|a| < +∞`).  When the bit is 1 every
  conjunct is 1, so every comparison is 1 at every index, and an extended real whose absolute value is below `+∞` is
  neither infinity: it is a real number.
-/
import proofs.«118103_j88287347736657_2_alg».proof.Pre_finite_inputs
import Idealize.ShloMosaic.Lib.ReduceAll
import Idealize.ShloMosaic.Lib.ValueIdx
import Idealize.ShloMosaic.Lib.IdealHost

noncomputable section

namespace Cert.Math

open Idealize.ShloMosaic Idealize.ShloMosaic.ValueIdx

/-- The element fact: an extended real whose absolute value `max x (-x)` is below `+∞` (the f32 pattern
    `0x7F800000`) is a real. -/
theorem real_of_abs_lt_inf (x : EReal)
    (h : Ideal.cmp .olt (max x (-x)) (Ideal.ofBits .f32 0x7F800000#32) = 1#1) : ∃ u : ℝ, x = (u : EReal) := by
  have htop : Ideal.ofBits .f32 0x7F800000#32 = ⊤ := by simp [Ideal.ofBits, Ideal.ieee]
  rw [htop] at h
  induction x using EReal.rec with
  | bot => simp [Ideal.cmp] at h
  | coe u => exact ⟨u, rfl⟩
  | top => simp [Ideal.cmp] at h

/-- The scalar shape has one index. -/
instance : Subsingleton (⟨0, ![]⟩ : Shape).Idx := ⟨fun a b => funext fun d => d.elim0⟩

/-- One conjunct: if the reduction by `and`, over all of an array, of `|a| < +∞` is 1, every entry of `a` is a real. -/
theorem real_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : (⟨0, ![]⟩ : Shape).Idx → BitVec 1)
    (e : Host.reduce IntOp.andi
        (cmpf .olt (Host.absf a) (broadcastInDim s ![] hb (constant (F := Ideal) ⟨0, ![]⟩ .f32 0x7F800000#32)))
        init hr hu ix0 = 1#1)
    (j : s.Idx) : ∃ u : ℝ, a j = (u : EReal) := by
  have h1 := Host.reduce_andi_all _ init hr hu ix0 e j
  rw [cmpf_apply, broadcastInDim_scalar_apply] at h1
  exact real_of_abs_lt_inf (a j) h1

section
variable [Cert.Pre_finite_inputs.Facts]
open Cert.Pre_finite_inputs

/-- Under the precondition every entry of every float argument is a real number: the activations `a0`, and the
    scales and zero points `a2 a3`, `a5 a6`, `a8 a9` of the three weight matrices. -/
theorem finite_of_pre (a0 : FVec Ideal S256x4096 .f32) (a1 : IVec S14336x4096 32) (a2 a3 : FVec Ideal S14336x64 .f32)
    (a4 : IVec S14336x4096 32) (a5 a6 : FVec Ideal S14336x64 .f32) (a7 : IVec S4096x14336 32)
    (a8 a9 : FVec Ideal S4096x224 .f32)
    (h : Cert.Pre_finite_inputs.fn (F := Ideal) a0 a1 a2 a3 a4 a5 a6 a7 a8 a9 = fun _ => 1#1) :
    (∀ j, ∃ u : ℝ, a0 j = (u : EReal)) ∧ (∀ j, ∃ u : ℝ, a2 j = (u : EReal)) ∧ (∀ j, ∃ u : ℝ, a3 j = (u : EReal))
      ∧ (∀ j, ∃ u : ℝ, a5 j = (u : EReal)) ∧ (∀ j, ∃ u : ℝ, a6 j = (u : EReal))
      ∧ (∀ j, ∃ u : ℝ, a8 j = (u : EReal)) ∧ (∀ j, ∃ u : ℝ, a9 j = (u : EReal)) := by
  have h0 := congrFun h ix0
  dsimp only [fn, fn_part1] at h0
  obtain ⟨h0, e9⟩ := IntOp.andi_eq_one.1 h0
  obtain ⟨h0, e8⟩ := IntOp.andi_eq_one.1 h0
  obtain ⟨h0, e6⟩ := IntOp.andi_eq_one.1 h0
  obtain ⟨h0, e5⟩ := IntOp.andi_eq_one.1 h0
  obtain ⟨h0, e3⟩ := IntOp.andi_eq_one.1 h0
  obtain ⟨e0, e2⟩ := IntOp.andi_eq_one.1 h0
  exact ⟨real_of_all a0 _ _ _ _ e0, real_of_all a2 _ _ _ _ e2, real_of_all a3 _ _ _ _ e3, real_of_all a5 _ _ _ _ e5,
    real_of_all a6 _ _ _ _ e6, real_of_all a8 _ _ _ _ e8, real_of_all a9 _ _ _ _ e9⟩

end

end Cert.Math

end
-- ==== Proof.Math.RefIsSpec.lean ====
/-
  The reference program computes the specification.

  Read one operation at a time, the reference's result is the layer `Cert.Math.out` of the activations and of the three
  weight matrices dequantised as `(q - z) * s`.

  * A weight stage.  The integer codes are converted, the row of `c` columns is split into groups of 64, the zero
    point and the scale of each (row, group) are repeated along the group, the difference is scaled and the groups are
    joined back.  Entry `(r, k)` of the joined matrix sits at row-major position `r * c + k`, which the split places at
    (row `r`, group `k / 64`, offset `k % 64`); the split code there is the code at `(r, k)` again, and the repeated
    arrays do not depend on the offset.  So the stage at `(r, k)` is `(q (r, k) - z (r, k / 64)) * s (r, k / 64)`.
  * A projection (a contraction over the input columns) at `(t, i)` is `∑ k, x (t, k) * w (i, k)`.
  * The gate's activation is spelt `g * (1 / (1 + exp (-g)))`; at the ideal instance `1 / (1 + exp (-g))` is the
    logistic function by definition.
  * The result contracts the hidden activation with the third weight matrix over the hidden columns.
-/
import proofs.«118103_j88287347736657_2_alg».proof.Proof.Gen.ReferenceIdeal.Read
import proofs.«118103_j88287347736657_2_alg».proof.Proof.Math.Spec
import Idealize.ShloMosaic.Lib.IdealHost

noncomputable section

open scoped BigOperators

namespace Cert.ReferenceIdeal.RefValue

open Cert.ReferenceIdeal Cert.ReferenceIdeal.Gen Cert.ReferenceIdeal.Read Idealize.ShloMosaic
  Idealize.ShloMosaic.ValueIdx Cert.Math

/-! ## The weight stages -/

/-- Joining then splitting lands on the same entry: the split index of `(r, k)`'s place is `(r, k)` (first matrix). -/
theorem code_idx1 (r : Fin 14336) (k : Fin 4096) : idx_main_v1 (idx_main_v8 (ix2 r k)) = ix2 r k := by
  funext a
  refine Fin.ext ?_
  have hr := r.isLt
  have hk := k.isLt
  match a with
  | ⟨0, _⟩ =>
    show (((r.val * 4096 + k.val) / 4096 * 64 + (r.val * 4096 + k.val) / 64 % 64) * 64
      + (r.val * 4096 + k.val) % 64) / 4096 = r.val
    omega
  | ⟨1, _⟩ =>
    show (((r.val * 4096 + k.val) / 4096 * 64 + (r.val * 4096 + k.val) / 64 % 64) * 64
      + (r.val * 4096 + k.val) % 64) % 4096 = k.val
    omega

/-- The repeated zero point read at `(r, k)`'s place is the one of row `r`, group `k / 64` (first matrix). -/
theorem zero_idx1 (r : Fin 14336) (k : Fin 4096) :
    idx_main_v2 (idx_main_v3 (idx_main_v8 (ix2 r k))) = ix2 r (grp64 k) := by
  funext a
  refine Fin.ext ?_
  have hr := r.isLt
  have hk := k.isLt
  match a with
  | ⟨0, _⟩ =>
    show (r.val * 4096 + k.val) / 4096 = r.val
    omega
  | ⟨1, _⟩ =>
    show (r.val * 4096 + k.val) / 64 % 64 = k.val / 64
    omega

/-- Likewise the repeated scale (first matrix). -/
theorem scale_idx1 (r : Fin 14336) (k : Fin 4096) :
    idx_main_v5 (idx_main_v6 (idx_main_v8 (ix2 r k))) = ix2 r (grp64 k) := zero_idx1 r k

/-- The first weight matrix, as the reference dequantises it. -/
theorem w1_stage (q : (⟨S14336x4096, .i32⟩ : BufTy).Contents (Elt Ideal))
    (s z : (⟨S14336x64, .f32⟩ : BufTy).Contents (Elt Ideal)) :
    val_main_v8 (F := Ideal) q s z = deqR grp64 q s z := by
  funext i
  obtain ⟨r, k, rfl⟩ : ∃ (r : Fin 14336) (k : Fin 4096), i = ix2 r k := ⟨i 0, i 1, eq_ix2 i⟩
  rw [val_main_v8_apply, val_main_v7_apply, val_main_v4_apply, val_main_v1_apply, val_main_v0_apply, val_main_v3_apply,
    val_main_v2_apply, val_main_v6_apply, val_main_v5_apply, code_idx1, zero_idx1, scale_idx1, deqR_apply]
  rfl

/-- Joining then splitting lands on the same entry (second matrix, the same shapes). -/
theorem code_idx3 (r : Fin 14336) (k : Fin 4096) : idx_main_v10 (idx_main_v17 (ix2 r k)) = ix2 r k := by
  funext a
  refine Fin.ext ?_
  have hr := r.isLt
  have hk := k.isLt
  match a with
  | ⟨0, _⟩ =>
    show (((r.val * 4096 + k.val) / 4096 * 64 + (r.val * 4096 + k.val) / 64 % 64) * 64
      + (r.val * 4096 + k.val) % 64) / 4096 = r.val
    omega
  | ⟨1, _⟩ =>
    show (((r.val * 4096 + k.val) / 4096 * 64 + (r.val * 4096 + k.val) / 64 % 64) * 64
      + (r.val * 4096 + k.val) % 64) % 4096 = k.val
    omega

/-- The repeated zero point at `(r, k)`'s place (second matrix). -/
theorem zero_idx3 (r : Fin 14336) (k : Fin 4096) :
    idx_main_v11 (idx_main_v12 (idx_main_v17 (ix2 r k))) = ix2 r (grp64 k) := by
  funext a
  refine Fin.ext ?_
  have hr := r.isLt
  have hk := k.isLt
  match a with
  | ⟨0, _⟩ =>
    show (r.val * 4096 + k.val) / 4096 = r.val
    omega
  | ⟨1, _⟩ =>
    show (r.val * 4096 + k.val) / 64 % 64 = k.val / 64
    omega

/-- Likewise the repeated scale (second matrix). -/
theorem scale_idx3 (r : Fin 14336) (k : Fin 4096) :
    idx_main_v14 (idx_main_v15 (idx_main_v17 (ix2 r k))) = ix2 r (grp64 k) := zero_idx3 r k

/-- The second weight matrix, as the reference dequantises it. -/
theorem w3_stage (q : (⟨S14336x4096, .i32⟩ : BufTy).Contents (Elt Ideal))
    (s z : (⟨S14336x64, .f32⟩ : BufTy).Contents (Elt Ideal)) :
    val_main_v17 (F := Ideal) q s z = deqR grp64 q s z := by
  funext i
  obtain ⟨r, k, rfl⟩ : ∃ (r : Fin 14336) (k : Fin 4096), i = ix2 r k := ⟨i 0, i 1, eq_ix2 i⟩
  rw [val_main_v17_apply, val_main_v16_apply, val_main_v13_apply, val_main_v10_apply, val_main_v9_apply,
    val_main_v12_apply, val_main_v11_apply, val_main_v15_apply, val_main_v14_apply, code_idx3, zero_idx3, scale_idx3,
    deqR_apply]
  rfl

/-- Joining then splitting lands on the same entry (third matrix: 4096 rows of 14336 = 224 · 64 columns). -/
theorem code_idx2 (r : Fin 4096) (k : Fin 14336) : idx_main_v19 (idx_main_v26 (ix2 r k)) = ix2 r k := by
  funext a
  refine Fin.ext ?_
  have hr := r.isLt
  have hk := k.isLt
  match a with
  | ⟨0, _⟩ =>
    show (((r.val * 14336 + k.val) / 14336 * 224 + (r.val * 14336 + k.val) / 64 % 224) * 64
      + (r.val * 14336 + k.val) % 64) / 14336 = r.val
    omega
  | ⟨1, _⟩ =>
    show (((r.val * 14336 + k.val) / 14336 * 224 + (r.val * 14336 + k.val) / 64 % 224) * 64
      + (r.val * 14336 + k.val) % 64) % 14336 = k.val
    omega

/-- The repeated zero point at `(r, k)`'s place (third matrix). -/
theorem zero_idx2 (r : Fin 4096) (k : Fin 14336) :
    idx_main_v20 (idx_main_v21 (idx_main_v26 (ix2 r k))) = ix2 r (grp224 k) := by
  funext a
  refine Fin.ext ?_
  have hr := r.isLt
  have hk := k.isLt
  match a with
  | ⟨0, _⟩ =>
    show (r.val * 14336 + k.val) / 14336 = r.val
    omega
  | ⟨1, _⟩ =>
    show (r.val * 14336 + k.val) / 64 % 224 = k.val / 64
    omega

/-- Likewise the repeated scale (third matrix). -/
theorem scale_idx2 (r : Fin 4096) (k : Fin 14336) :
    idx_main_v23 (idx_main_v24 (idx_main_v26 (ix2 r k))) = ix2 r (grp224 k) := zero_idx2 r k

/-- The third weight matrix, as the reference dequantises it. -/
theorem w2_stage (q : (⟨S4096x14336, .i32⟩ : BufTy).Contents (Elt Ideal))
    (s z : (⟨S4096x224, .f32⟩ : BufTy).Contents (Elt Ideal)) :
    val_main_v26 (F := Ideal) q s z = deqR grp224 q s z := by
  funext i
  obtain ⟨r, k, rfl⟩ : ∃ (r : Fin 4096) (k : Fin 14336), i = ix2 r k := ⟨i 0, i 1, eq_ix2 i⟩
  rw [val_main_v26_apply, val_main_v25_apply, val_main_v22_apply, val_main_v19_apply, val_main_v18_apply,
    val_main_v21_apply, val_main_v20_apply, val_main_v24_apply, val_main_v23_apply, code_idx2, zero_idx2, scale_idx2,
    deqR_apply]
  rfl

/-! ## The two projections -/

theorem lidx27 (t : Fin 256) (i : Fin 14336) (k : Fin 4096) : lidx_main_v27 (ix2 t i) k = ix2 t k :=
  funext fun a => Fin.ext (by match a with | ⟨0, _⟩ => rfl | ⟨1, _⟩ => rfl)
theorem ridx27 (t : Fin 256) (i : Fin 14336) (k : Fin 4096) : ridx_main_v27 (ix2 t i) k = ix2 i k :=
  funext fun a => Fin.ext (by match a with | ⟨0, _⟩ => rfl | ⟨1, _⟩ => rfl)
theorem lidx29 (t : Fin 256) (i : Fin 14336) (k : Fin 4096) : lidx_main_v29 (ix2 t i) k = ix2 t k :=
  funext fun a => Fin.ext (by match a with | ⟨0, _⟩ => rfl | ⟨1, _⟩ => rfl)
theorem ridx29 (t : Fin 256) (i : Fin 14336) (k : Fin 4096) : ridx_main_v29 (ix2 t i) k = ix2 i k :=
  funext fun a => Fin.ext (by match a with | ⟨0, _⟩ => rfl | ⟨1, _⟩ => rfl)
theorem lidx31 (t : Fin 256) (h : Fin 4096) (k : Fin 14336) : lidx_main_v31 (ix2 t h) k = ix2 t k :=
  funext fun a => Fin.ext (by match a with | ⟨0, _⟩ => rfl | ⟨1, _⟩ => rfl)
theorem ridx31 (t : Fin 256) (h : Fin 4096) (k : Fin 14336) : ridx_main_v31 (ix2 t h) k = ix2 h k :=
  funext fun a => Fin.ext (by match a with | ⟨0, _⟩ => rfl | ⟨1, _⟩ => rfl)

/-- The gate's projection. -/
theorem gate_stage (x : (⟨S256x4096, .f32⟩ : BufTy).Contents (Elt Ideal))
    (q : (⟨S14336x4096, .i32⟩ : BufTy).Contents (Elt Ideal)) (s z : (⟨S14336x64, .f32⟩ : BufTy).Contents (Elt Ideal)) :
    val_main_v27 (F := Ideal) x q s z = proj x (val_main_v8 (F := Ideal) q s z) := by
  funext j
  obtain ⟨t, i, rfl⟩ : ∃ (t : Fin 256) (i : Fin 14336), j = ix2 t i := ⟨j 0, j 1, eq_ix2 j⟩
  rw [val_main_v27_apply, proj_apply]
  refine Finset.sum_congr rfl fun k _ => ?_
  rw [lidx27, ridx27]

/-- The other projection. -/
theorem up_stage (x : (⟨S256x4096, .f32⟩ : BufTy).Contents (Elt Ideal))
    (q : (⟨S14336x4096, .i32⟩ : BufTy).Contents (Elt Ideal)) (s z : (⟨S14336x64, .f32⟩ : BufTy).Contents (Elt Ideal)) :
    val_main_v29 (F := Ideal) x q s z = proj x (val_main_v17 (F := Ideal) q s z) := by
  funext j
  obtain ⟨t, i, rfl⟩ : ∃ (t : Fin 256) (i : Fin 14336), j = ix2 t i := ⟨j 0, j 1, eq_ix2 j⟩
  rw [val_main_v29_apply, proj_apply]
  refine Finset.sum_congr rfl fun k _ => ?_
  rw [lidx29, ridx29]

/-! ## The hidden activation -/

/-- `g * (1 / (1 + exp (-g))) * u` is `(g * logistic g) * u`: the constant's pattern is the real one, and the quotient
    is the logistic function by definition. -/
theorem hid_stage (x : (⟨S256x4096, .f32⟩ : BufTy).Contents (Elt Ideal))
    (q1 : (⟨S14336x4096, .i32⟩ : BufTy).Contents (Elt Ideal)) (s1 z1 : (⟨S14336x64, .f32⟩ : BufTy).Contents (Elt Ideal))
    (q3 : (⟨S14336x4096, .i32⟩ : BufTy).Contents (Elt Ideal)) (s3 z3 : (⟨S14336x64, .f32⟩ : BufTy).Contents (Elt Ideal)) :
    val_main_v30 (F := Ideal) x q1 s1 z1 q3 s3 z3
      = hid x (val_main_v8 (F := Ideal) q1 s1 z1) (val_main_v17 (F := Ideal) q3 s3 z3) := by
  funext j
  rw [val_main_v30_apply, val_main_v28_apply, val_main_call0_v5_apply, val_main_call0_v4_apply,
    val_main_call0_cst_0_apply, val_main_call0_v3_apply, val_main_call0_v2_apply, val_main_call0_cst_apply,
    val_main_call0_v1_apply, val_main_call0_v0_apply, gate_stage, up_stage]
  show _ = (proj x (val_main_v8 (F := Ideal) q1 s1 z1) j * Ideal.logistic (proj x (val_main_v8 (F := Ideal) q1 s1 z1) j))
    * proj x (val_main_v17 (F := Ideal) q3 s3 z3) j
  generalize proj x (val_main_v8 (F := Ideal) q1 s1 z1) j = g
  generalize proj x (val_main_v17 (F := Ideal) q3 s3 z3) j = u
  show (g * Ideal.div (Ideal.ofBits .f32 0x3F800000#32) (Ideal.ofBits .f32 0x3F800000#32 + Ideal.exp (-g))) * u
    = (g * Ideal.logistic g) * u
  rw [Ideal.ofBits_one_f32]
  rfl

/-! ## The result -/

/-- The reference's result is the layer over its three dequantised matrices, each still as its stage. -/
theorem out_stage (x : (⟨S256x4096, .f32⟩ : BufTy).Contents (Elt Ideal))
    (q1 : (⟨S14336x4096, .i32⟩ : BufTy).Contents (Elt Ideal)) (s1 z1 : (⟨S14336x64, .f32⟩ : BufTy).Contents (Elt Ideal))
    (q3 : (⟨S14336x4096, .i32⟩ : BufTy).Contents (Elt Ideal)) (s3 z3 : (⟨S14336x64, .f32⟩ : BufTy).Contents (Elt Ideal))
    (q2 : (⟨S4096x14336, .i32⟩ : BufTy).Contents (Elt Ideal)) (s2 z2 : (⟨S4096x224, .f32⟩ : BufTy).Contents (Elt Ideal)) :
    val_main_v31 (F := Ideal) x q1 s1 z1 q3 s3 z3 q2 s2 z2
      = out x (val_main_v8 (F := Ideal) q1 s1 z1) (val_main_v17 (F := Ideal) q3 s3 z3)
          (val_main_v26 (F := Ideal) q2 s2 z2) := by
  funext j
  obtain ⟨t, h, rfl⟩ : ∃ (t : Fin 256) (h : Fin 4096), j = ix2 t h := ⟨j 0, j 1, eq_ix2 j⟩
  rw [val_main_v31_apply, out_apply, hid_stage]
  refine Finset.sum_congr rfl fun k _ => ?_
  rw [lidx31, ridx31]

/-- THE REFERENCE IS THE SPECIFICATION: its last stage, as a function of the ten arguments (activations; codes, scale
    and zero point of each matrix, in the program's argument order), is the layer over the weights dequantised as
    `(q - z) * s`. -/
theorem ref_is_spec (x : (⟨S256x4096, .f32⟩ : BufTy).Contents (Elt Ideal))
    (q1 : (⟨S14336x4096, .i32⟩ : BufTy).Contents (Elt Ideal)) (s1 z1 : (⟨S14336x64, .f32⟩ : BufTy).Contents (Elt Ideal))
    (q3 : (⟨S14336x4096, .i32⟩ : BufTy).Contents (Elt Ideal)) (s3 z3 : (⟨S14336x64, .f32⟩ : BufTy).Contents (Elt Ideal))
    (q2 : (⟨S4096x14336, .i32⟩ : BufTy).Contents (Elt Ideal)) (s2 z2 : (⟨S4096x224, .f32⟩ : BufTy).Contents (Elt Ideal)) :
    val_main_v31 (F := Ideal) x q1 s1 z1 q3 s3 z3 q2 s2 z2
      = out x (deqR grp64 q1 s1 z1) (deqR grp64 q3 s3 z3) (deqR grp224 q2 s2 z2) := by
  rw [out_stage, w1_stage, w3_stage, w2_stage]

/-- The same, for the composed term the reference's run states for its result. -/
theorem ref_run_is_spec (x0 : FVec Ideal S256x4096 .f32) (x1 : IVec S14336x4096 32) (x2 x3 : FVec Ideal S14336x64 .f32)
    (x4 : IVec S14336x4096 32) (x5 x6 : FVec Ideal S14336x64 .f32) (x7 : IVec S4096x14336 32)
    (x8 x9 : FVec Ideal S4096x224 .f32) :
    (Host.dotGeneral dot_S256x14336_S4096x14336_S256x4096_1_1_0_0_n_n none (mulf (mulf (Host.dotGeneral dot_S256x4096_S14336x4096_S256x14336_1_1_0_0_n_n none (x0) (shapeCast _ (mulf (subf (shapeCast _ (sitofp .f32 (x1)) shapeCasts_S14336x4096_S14336x64x64) (broadcastInDim S14336x64x64 ![0, 1, 2] bcast_S14336x64x1_S14336x64x64_0_1_2 (broadcastInDim S14336x64x1 ![0, 1] bcast_S14336x64_S14336x64x1_0_1 (x3)))) (broadcastInDim S14336x64x64 ![0, 1, 2] bcast_S14336x64x1_S14336x64x64_0_1_2 (broadcastInDim S14336x64x1 ![0, 1] bcast_S14336x64_S14336x64x1_0_1 (x2)))) shapeCasts_S14336x64x64_S14336x4096)) (Host.divf (broadcastInDim S256x14336 ![] bcast_S_S256x14336 (constant S_ .f32 0x3F800000#32)) (addf (broadcastInDim S256x14336 ![] bcast_S_S256x14336 (constant S_ .f32 0x3F800000#32)) (Host.exp (Host.negf (Host.dotGeneral dot_S256x4096_S14336x4096_S256x14336_1_1_0_0_n_n none (x0) (shapeCast _ (mulf (subf (shapeCast _ (sitofp .f32 (x1)) shapeCasts_S14336x4096_S14336x64x64) (broadcastInDim S14336x64x64 ![0, 1, 2] bcast_S14336x64x1_S14336x64x64_0_1_2 (broadcastInDim S14336x64x1 ![0, 1] bcast_S14336x64_S14336x64x1_0_1 (x3)))) (broadcastInDim S14336x64x64 ![0, 1, 2] bcast_S14336x64x1_S14336x64x64_0_1_2 (broadcastInDim S14336x64x1 ![0, 1] bcast_S14336x64_S14336x64x1_0_1 (x2)))) shapeCasts_S14336x64x64_S14336x4096))))))) (Host.dotGeneral dot_S256x4096_S14336x4096_S256x14336_1_1_0_0_n_n none (x0) (shapeCast _ (mulf (subf (shapeCast _ (sitofp .f32 (x4)) shapeCasts_S14336x4096_S14336x64x64) (broadcastInDim S14336x64x64 ![0, 1, 2] bcast_S14336x64x1_S14336x64x64_0_1_2 (broadcastInDim S14336x64x1 ![0, 1] bcast_S14336x64_S14336x64x1_0_1 (x6)))) (broadcastInDim S14336x64x64 ![0, 1, 2] bcast_S14336x64x1_S14336x64x64_0_1_2 (broadcastInDim S14336x64x1 ![0, 1] bcast_S14336x64_S14336x64x1_0_1 (x5)))) shapeCasts_S14336x64x64_S14336x4096))) (shapeCast _ (mulf (subf (shapeCast _ (sitofp .f32 (x7)) shapeCasts_S4096x14336_S4096x224x64) (broadcastInDim S4096x224x64 ![0, 1, 2] bcast_S4096x224x1_S4096x224x64_0_1_2 (broadcastInDim S4096x224x1 ![0, 1] bcast_S4096x224_S4096x224x1_0_1 (x9)))) (broadcastInDim S4096x224x64 ![0, 1, 2] bcast_S4096x224x1_S4096x224x64_0_1_2 (broadcastInDim S4096x224x1 ![0, 1] bcast_S4096x224_S4096x224x1_0_1 (x8)))) shapeCasts_S4096x224x64_S4096x14336) : FVec Ideal S256x4096 .f32)
      = out x0 (deqR grp64 x1 x2 x3) (deqR grp64 x4 x5 x6) (deqR grp224 x7 x8 x9) :=
  (val_main_v31_eq (F := Ideal) x0 x1 x2 x3 x4 x5 x6 x7 x8 x9).trans (ref_is_spec x0 x1 x2 x3 x4 x5 x6 x7 x8 x9)

end Cert.ReferenceIdeal.RefValue

end
-- ==== Proof.Claims.lean ====
/-
  The five claims of this certificate.

  The kernel is a quantised gated MLP in two kernel regions. With x the activations, q1 q3 q2 the integer weight codes,
  s z their per-group scales and zeros (64 columns to a group), both programs compute, over the extended reals,
      out (t, h) = Σ_i hid (t, i) · w2 (h, i),    hid (t, i) = (g · logistic g) · u,
      g = Σ_k x (t, k) · w1 (i, k),   u = Σ_k x (t, k) · w3 (i, k),
  and differ only in how a weight entry is dequantised: the kernel forms q·s − s·z (the product s·z once, on the host),
  the reference (q − z)·s. For real s and z these are one number, entry by entry, so the two results are one function
  by congruence; the precondition makes every scale and zero real. The kernel's first region writes hid block by block
  (256 columns a point); its second accumulates the last sum over 28 steps of 512 columns per block of 2048 output
  columns, which is the flat sum over all 14336 columns since addition on the extended reals is associative and
  commutative. A change of float format is the identity over the extended reals, and the kernel's one-operation logistic
  is the reference's 1 / (1 + exp (−g)).
-/
import proofs.«118103_j88287347736657_2_alg».proof.Defs
import proofs.«118103_j88287347736657_2_alg».proof.Proof.Gen.Kernel
import proofs.«118103_j88287347736657_2_alg».proof.Proof.Gen.KernelIdeal
import proofs.«118103_j88287347736657_2_alg».proof.Proof.Gen.ReferenceIdeal
import proofs.«118103_j88287347736657_2_alg».proof.Proof.Gen.Pre_finite_inputs
import proofs.«118103_j88287347736657_2_alg».proof.Proof.Gen.ReferenceIdeal.Run
import proofs.«118103_j88287347736657_2_alg».proof.Proof.Gen.ReferenceIdeal.Read
import proofs.«118103_j88287347736657_2_alg».proof.Proof.FrameBits.Frame
import proofs.«118103_j88287347736657_2_alg».proof.Proof.FrameIdeal.Frame
import proofs.«118103_j88287347736657_2_alg».proof.Proof.ValueIdeal.KernelValue
import proofs.«118103_j88287347736657_2_alg».proof.Proof.Math.Spec
import proofs.«118103_j88287347736657_2_alg».proof.Proof.Math.Finite
import proofs.«118103_j88287347736657_2_alg».proof.Proof.Math.RefIsSpec

noncomputable section

namespace Cert.Proof.Claims

open Idealize.ShloMosaic Idealize.ShloMosaic.TcCoe Idealize.SL.Sem

/-- The word-level kernel program runs to the end, faults nowhere and leaves its arguments unchanged. -/
theorem frame_k : Cert.frame_Kernel := fun m ρ _ => Cert.Kernel.Hand.frame m ρ

/-- So does its idealisation. -/
theorem frame_ki : Cert.frame_KernelIdeal := fun m ρ _ => Cert.KernelIdeal.Hand.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealised programs end with the same result: the kernel's is `out` over its own dequantised weights, the
    reference's `out` over the reference's, and the two dequantisations agree at every entry because the precondition makes
    every scale and zero a real number. -/
theorem algebraic : Cert.algebraic_KernelIdeal_ReferenceIdeal := by
  intro m ρ m' ρ' hpre hagree
  refine ⟨fun c => Cert.Math.out (m ((c.tc : Thread Cert.KernelIdeal.nD Cert.KernelIdeal.τ).loc Cert.KernelIdeal.main_arg0))
      (Cert.Math.deqK Cert.Math.grp64 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      (Cert.Math.deqK Cert.Math.grp64 (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
      (Cert.Math.deqK Cert.Math.grp224 (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))), ?_, ?_⟩
  · exact (θ_run Cert.KernelIdeal.defs _ _).mono
      (fun r h c => ⟨(h c).1.trans (Cert.KernelIdeal.Hand.kernel_value m ρ c), (h c).2⟩)
      (Cert.KernelIdeal.Hand.run_result (F := Ideal) m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7, e8, e9⟩ := hagree c
    obtain ⟨-, h2, h3, h5, h6, h8, h9⟩ := Cert.Math.finite_of_pre _ _ _ _ _ _ _ _ _ _ (hpre c)
    rw [(h c).1, Cert.ReferenceIdeal.Read.val_main_v31_eq, Cert.ReferenceIdeal.RefValue.ref_is_spec,
      e0, e1, e2, e3, e4, e5, e6, e7, e8, e9]
    exact (Cert.Math.spec_eq _ _ _ _ _ _ _ _ _ _ h2 h3 h5 h6 h8 h9).symm

end Cert.Proof.Claims

end
-- ==== Proof.lean ====
/-
  The proof of the certificate's claim: the three programs' stated facts are the generated instances; the three frames,
  the (empty) idealisation ledger and the equality of the two idealised results are the theorems of Proof/Claims.lean.
-/
import proofs.«118103_j88287347736657_2_alg».proof.Defs
import proofs.«118103_j88287347736657_2_alg».proof.Proof.Gen.Kernel
import proofs.«118103_j88287347736657_2_alg».proof.Proof.Gen.KernelIdeal
import proofs.«118103_j88287347736657_2_alg».proof.Proof.Gen.ReferenceIdeal
import proofs.«118103_j88287347736657_2_alg».proof.Proof.Gen.Pre_finite_inputs
import proofs.«118103_j88287347736657_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
